-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part2 {F : FTy → Type} [FloatOps F] (main_arg8 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg5 : FVec F S64 .f32) (main_arg6 : FVec F S128 .f32) (main_arg7 : FVec F S128 .f32) (main_arg8 : FVec F S_ .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) (main_arg6 : FVec F S128 .f32) (main_arg7 : FVec F S128 .f32) (main_arg8 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S1x1 : Shape := ⟨2, ![1, 1]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 103
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x1, .f32⟩
  | .hbm, ⟨82, _⟩ => ⟨S50000x128, .f32⟩
  | .hbm, ⟨83, _⟩ => ⟨S50000x64, .f32⟩
  | .hbm, ⟨84, _⟩ => ⟨S_, .i32⟩
  | .hbm, ⟨85, _⟩ => ⟨S1650000, .i32⟩
  | .hbm, ⟨86, _⟩ => ⟨S1650000, .i1⟩
  | .hbm, ⟨87, _⟩ => ⟨S_, .i32⟩
  | .hbm, ⟨88, _⟩ => ⟨S1650000, .i32⟩
  | .hbm, ⟨89, _⟩ => ⟨S1650000, .i32⟩
  | .hbm, ⟨90, _⟩ => ⟨S1650000, .i32⟩
  | .hbm, ⟨91, _⟩ => ⟨S1650000x1, .i32⟩
  | .hbm, ⟨92, _⟩ => ⟨S1650000x64, .f32⟩
  | .hbm, ⟨93, _⟩ => ⟨S1650000x1, .f32⟩
  | .hbm, ⟨94, _⟩ => ⟨S1650000x64, .f32⟩
  | .hbm, ⟨95, _⟩ => ⟨S1650000x64, .f32⟩
  | .hbm, ⟨96, _⟩ => ⟨S_, .f32⟩
  | .hbm, ⟨97, _⟩ => ⟨S50000x64, .f32⟩
  | .hbm, ⟨98, _⟩ => ⟨S1650000x1, .i32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x1, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x64, .f32⟩
  | .local _ .vmem, ⟨22, _⟩ => ⟨S5000x64, .f32⟩
  | .local _ .vmem, ⟨23, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg7_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem7_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  shapeCasts_S_S1x1 : S_.ShapeCasts S1x1
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S128, .f32⟩
  | 7 => ⟨S128, .f32⟩
  | 8 => ⟨S_, .f32⟩
  | 9 => ⟨S50000, .i32⟩
  | 10 => ⟨S1x1600000, .i32⟩
  | 11 => ⟨S1600000, .i32⟩
  | 12 => ⟨S1650000, .i32⟩
  | 13 => ⟨S1x1600000, .i32⟩
  | 14 => ⟨S1600000, .i32⟩
  | 15 => ⟨S1650000, .i32⟩
  | 16 => ⟨S_, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000, .f32⟩
  | 39 => ⟨S_, .i32⟩
  | 40 => ⟨S1650000, .i32⟩
  | 41 => ⟨S1650000, .i1⟩
  | 42 => ⟨S_, .i32⟩
  | 43 => ⟨S1650000, .i32⟩
  | 44 => ⟨S1650000, .i32⟩
  | 45 => ⟨S1650000, .i32⟩
  | 46 => ⟨S1650000x1, .i32⟩
  | 47 => ⟨S1650000, .f32⟩
  | 48 => ⟨S1650000, .f32⟩
  | 49 => ⟨S50000x128, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000x128, .f32⟩
  | 59 => ⟨S1650000x1, .f32⟩
  | 60 => ⟨S1650000x128, .f32⟩
  | 61 => ⟨S1650000x128, .f32⟩
  | 62 => ⟨S_, .f32⟩
  | 63 => ⟨S50000x128, .f32⟩
  | 64 => ⟨S1650000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .i1⟩
  | 116 => ⟨S50000x128, .f32⟩
  | 117 => ⟨S50000x128, .f32⟩
  | 118 => ⟨S50000x128, .f32⟩
  | 119 => ⟨S50000x64, .f32⟩
  | 120 => ⟨S_, .i32⟩
  | 121 => ⟨S1650000, .i32⟩
  | 122 => ⟨S1650000, .i1⟩
  | 123 => ⟨S_, .i32⟩
  | 124 => ⟨S1650000, .i32⟩
  | 125 => ⟨S1650000, .i32⟩
  | 126 => ⟨S1650000, .i32⟩
  | 127 => ⟨S1650000x1, .i32⟩
  | _ => ⟨S50000x128, .f32⟩

abbrev hbmTy0_1 (i : Nat) : BufTy := match i % 128 with
  | 0 => ⟨S1650000x64, .f32⟩
  | 1 => ⟨S1650000x1, .f32⟩
  | 2 => ⟨S1650000x64, .f32⟩
  | 3 => ⟨S1650000x64, .f32⟩
  | 4 => ⟨S_, .f32⟩
  | 5 => ⟨S50000x64, .f32⟩
  | 6 => ⟨S1650000x1, .i32⟩
  | 7 => ⟨S50000x64, .f32⟩
  | 8 => ⟨S1x64, .f32⟩
  | 9 => ⟨S50000x64, .f32⟩
  | 10 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_cst_3 : Ref sig .tc := ⟨.hbm, 91, rfl⟩
abbrev main_call1_v12 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_12 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_13 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_c_14 : Ref sig .tc := ⟨.hbm, 120, rfl⟩
abbrev main_v72 : Ref sig .tc := ⟨.hbm, 121, rfl⟩
abbrev main_v73 : Ref sig .tc := ⟨.hbm, 122, rfl⟩
abbrev main_c_15 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_16 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
import proofs.«120016_j19301583028533_1_alg».proof.Proof.Gen.KernelIdeal.Frame
import Idealize.ShloMosaic.PureOps.Ideal
import Idealize.ShloMosaic.Lib.StableHlo.Run

/-! # The whole program's run, with the result buffer kept

The program is a chain of host stretches and four pipelined regions on each TensorCore.  The buffer contents at
every boundary of that chain form a fold from the launch memory.  Here the run is stated with a post-condition
that, besides the nine argument arrays being unchanged, says what the RESULT buffer holds when the program
returns: the last boundary's contents of that buffer.  The second half walks the fold backwards, one boundary at a
time, so that the result is expressed through the four regions' output arrays, the host operations between
them, and the launch contents of the arguments. -/

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program on the TensorCores terminates
    without fault, and in every final state each core's result buffer holds the last boundary's contents of the
    fold, while the nine argument arrays are as launched. -/
theorem run_result : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Run

section Walk

variable {F : FTy → Type} [FloatOps F]
variable (m : (ℓ : Loc nD τ sig) → Buf (Elt F) ℓ) (ρ : Dev nD → PrngReg)

/-! ## The fold walked backwards: what is not a host stretch's own result

Each lemma reads one buffer at one boundary and moves it to the boundary where it was last written: a region leaves
every buffer that is not one of its arrays alone, leaves its input arrays as it found them, and leaves in an output
array the fold of its write-backs; a host stretch leaves alone every buffer that none of its operations writes. -/

/-- The last region's output array at its exit. -/
theorem W9_main_v58 (c : Dev nD) : W9 m ρ c (Proc.devRef .tc main_v58) = (dat3 (V8 m ρ) c).arrAt 2 cfg3.N := W9_arr m ρ c 2
/-- Nothing between the first region's entry and the last region's exit writes `main_v3`. -/
theorem W9_main_v3 (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
/-- The first region does not write `main_v3`. -/
theorem W4_main_v3 (c : Dev nD) : W4 m ρ c (Proc.devRef .tc main_v3) = W3 m ρ c (Proc.devRef .tc main_v3) := W4_of_ne m ρ c main_v3 (by decide)
/-- Nothing between the first region's entry and the last region's exit writes `main_v6`. -/
theorem W9_main_v6 (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
/-- The first region does not write `main_v6`. -/
theorem W4_main_v6 (c : Dev nD) : W4 m ρ c (Proc.devRef .tc main_v6) = W3 m ρ c (Proc.devRef .tc main_v6) := W4_of_ne m ρ c main_v6 (by decide)
/-- Nothing between the first region's entry and the last region's exit writes `main_v29`. -/
theorem W9_main_v29 (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)
/-- The first region does not write `main_v29`. -/
theorem W4_main_v29 (c : Dev nD) : W4 m ρ c (Proc.devRef .tc main_v29) = W3 m ρ c (Proc.devRef .tc main_v29) := W4_of_ne m ρ c main_v29 (by decide)

/-- The bias argument is as launched when the last host stretch reads it. -/
theorem W9_main_arg5 (c : Dev nD) : W9 m ρ c (Proc.devRef .tc main_arg5) = m ((c.tc : Thread nD τ).loc main_arg5) :=
  (show W10 m ρ c (Proc.devRef .tc main_arg5) = W9 m ρ c (Proc.devRef .tc main_arg5) from
    StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W10_main_arg5 m ρ c)

/-- The third region's output array at the last region's entry. -/
theorem V8_main_v57 (c : Dev nD) : V8 m ρ c main_v57 = (dat2 (V7 m ρ) c).arrAt 7 cfg2.N := W8_arr m ρ c 7
/-- The second weight matrix is as launched at the last region's entry. -/
theorem V8_main_arg4 (c : Dev nD) : V8 m ρ c main_arg4 = m ((c.tc : Thread nD τ).loc main_arg4) :=
  (calc W10 m ρ c (Proc.devRef .tc main_arg4)
    _ = W9 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg4) := (W9_arr m ρ c 1).trans (((dat3 (V8 m ρ) c).arrAt_in 1 rfl _).trans (A_eq3 (V8 m ρ) c 1))).symm.trans (W10_main_arg4 m ρ c)

/-- The aggregated first layer, read by the second and third regions, is what the second host stretch left. -/
theorem W6_main_v43 (c : Dev nD) : W6 m ρ c (Proc.devRef .tc main_v43) = W5 m ρ c (Proc.devRef .tc main_v43) :=
  (W6_arr m ρ c 0).trans (((dat1 (V5 m ρ) c).arrAt_in 0 rfl _).trans (A_eq1 (V5 m ρ) c 0))
theorem V7_main_v43 (c : Dev nD) : V7 m ρ c main_v43 = W5 m ρ c (Proc.devRef .tc main_v43) :=
  (show W7 m ρ c (Proc.devRef .tc main_v43) = W6 m ρ c (Proc.devRef .tc main_v43) from
    StableHlo.after_of_forall_not_mem (b := Proc.devRef .tc main_v43) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_main_v43 m ρ c)
theorem V5_main_v43 (c : Dev nD) : V5 m ρ c main_v43 = W5 m ρ c (Proc.devRef .tc main_v43) := rfl

/-- The second region's two output arrays (column sums, column sums of squares) at its exit. -/
theorem W6_main_v44_0 (c : Dev nD) : W6 m ρ c (Proc.devRef .tc main_v44_0) = (dat1 (V5 m ρ) c).arrAt 1 cfg1.N := W6_arr m ρ c 1
theorem W6_main_v44_1 (c : Dev nD) : W6 m ρ c (Proc.devRef .tc main_v44_1) = (dat1 (V5 m ρ) c).arrAt 2 cfg1.N := W6_arr m ρ c 2
/-- The argument `main_arg3` is as launched when the third host stretch reads it. -/
theorem W6_main_arg3 (c : Dev nD) : W6 m ρ c (Proc.devRef .tc main_arg3) = m ((c.tc : Thread nD τ).loc main_arg3) :=
  (calc W10 m ρ c (Proc.devRef .tc main_arg3)
    _ = W9 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W10_main_arg3 m ρ c)
/-- The argument `main_arg6` is as launched when the third host stretch reads it. -/
theorem W6_main_arg6 (c : Dev nD) : W6 m ρ c (Proc.devRef .tc main_arg6) = m ((c.tc : Thread nD τ).loc main_arg6) :=
  (calc W10 m ρ c (Proc.devRef .tc main_arg6)
    _ = W9 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W10_main_arg6 m ρ c)
/-- The argument `main_arg7` is as launched when the third host stretch reads it. -/
theorem W6_main_arg7 (c : Dev nD) : W6 m ρ c (Proc.devRef .tc main_arg7) = m ((c.tc : Thread nD τ).loc main_arg7) :=
  (calc W10 m ρ c (Proc.devRef .tc main_arg7)
    _ = W9 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W10_main_arg7 m ρ c)
/-- The argument `main_arg8` is as launched when the third host stretch reads it. -/
theorem W6_main_arg8 (c : Dev nD) : W6 m ρ c (Proc.devRef .tc main_arg8) = m ((c.tc : Thread nD τ).loc main_arg8) :=
  (calc W10 m ρ c (Proc.devRef .tc main_arg8)
    _ = W9 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W10_main_arg8 m ρ c)

/-- The first region's output array at its exit. -/
theorem W4_main_v30 (c : Dev nD) : W4 m ρ c (Proc.devRef .tc main_v30) = (dat0 (V3 m ρ) c).arrAt 2 cfg0.N := W4_arr m ρ c 2

/-- The first region's two inputs are as launched: no operation of the three leading host stretches writes them. -/
theorem V3_main_arg0 (c : Dev nD) : V3 m ρ c main_arg0 = m ((c.tc : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl
theorem V3_main_arg2 (c : Dev nD) : V3 m ρ c main_arg2 = m ((c.tc : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

end Walk

end Cert.KernelIdeal.KernelRun

end
-- ==== Proof.RefRun.lean ====
/- The reference program's run, read back: @main as the list of its host operations in order — the three
   calls replaced by their callees' operations over the calls' own buffers — and, for every weakly fair execution,
   termination with each buffer at the fold of the operations' results over the launch contents. The list is cut into
   six consecutive segments, one per stage of the two-layer graph convolution. -/
import proofs.«120016_j19301583028533_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The graph's edge data: both endpoint rows of the edge table with a self-loop appended per node, the degree of every node by scatter-adding ones over the target endpoints, its inverse square root where the degree is positive (else zero, the three operations of the first select call), and the weight of an edge as the product of the two endpoints' inverse square roots. -/
abbrev opsEdges : List (HloOp τ sig (Elt F)) :=
  [
    nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    nullary main_cst (constant S_ .f32 0x3F800000#32),
    unary main_cst main_v7 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S1650000x1 ![0] bcast_S1650000_S1650000x1_0 : (⟨S1650000, .i32⟩ : BufTy).Contents (Elt F) → (⟨S1650000x1, .i32⟩ : BufTy).Contents (Elt F)),
    ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2) main_call0.v0 id,
    TRef.unary main_call0.v0 main_call0.v1 (broadcastInDim S50000 ![] bcast_S_S50000),
    TRef.ternary (.of main_v12) (.of main_v13) main_call0.v1 main_call0.v2 select,
    nullary main_c (constantI S_ 32 0#32),
    unary main_c main_v15 (broadcastInDim S1650000 ![] bcast_S_S1650000 : (⟨S_, .i32⟩ : BufTy).Contents (Elt F) → (⟨S1650000, .i32⟩ : BufTy).Contents (Elt F)),
    binary main_v3 main_v15 main_v16 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v17 (broadcastInDim S1650000 ![] bcast_S_S1650000 : (⟨S_, .i32⟩ : BufTy).Contents (Elt F) → (⟨S1650000, .i32⟩ : BufTy).Contents (Elt F)),
    binary main_v3 main_v17 main_v18 (addi : (⟨S1650000, .i32⟩ : BufTy).Contents (Elt F) → (⟨S1650000, .i32⟩ : BufTy).Contents (Elt F) → (⟨S1650000, .i32⟩ : BufTy).Contents (Elt F)),
    ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v19 main_v20 (broadcastInDim S1650000x1 ![0] bcast_S1650000_S1650000x1_0 : (⟨S1650000, .i32⟩ : BufTy).Contents (Elt F) → (⟨S1650000x1, .i32⟩ : BufTy).Contents (Elt F)),
    binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v22 (broadcastInDim S1650000 ![] bcast_S_S1650000 : (⟨S_, .i32⟩ : BufTy).Contents (Elt F) → (⟨S1650000, .i32⟩ : BufTy).Contents (Elt F)),
    binary main_v6 main_v22 main_v23 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v24 (broadcastInDim S1650000 ![] bcast_S_S1650000 : (⟨S_, .i32⟩ : BufTy).Contents (Elt F) → (⟨S1650000, .i32⟩ : BufTy).Contents (Elt F)),
    binary main_v6 main_v24 main_v25 (addi : (⟨S1650000, .i32⟩ : BufTy).Contents (Elt F) → (⟨S1650000, .i32⟩ : BufTy).Contents (Elt F) → (⟨S1650000, .i32⟩ : BufTy).Contents (Elt F)),
    ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v26 main_v27 (broadcastInDim S1650000x1 ![0] bcast_S1650000_S1650000x1_0 : (⟨S1650000, .i32⟩ : BufTy).Contents (Elt F) → (⟨S1650000x1, .i32⟩ : BufTy).Contents (Elt F)),
    binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v21 main_v28 main_v29 (mulf : (⟨S1650000, .f32⟩ : BufTy).Contents (Elt F) → (⟨S1650000, .f32⟩ : BufTy).Contents (Elt F) → (⟨S1650000, .f32⟩ : BufTy).Contents (Elt F)) ]

/-- The first layer's matrix product of the node features with the first weight matrix. -/
abbrev opsDot1 : List (HloOp τ sig (Elt F)) :=
  [
    binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The first aggregation: the product's row at every edge's source (negative indices wrapped), scaled by the edge weight, scatter-added into the target's row of a zero matrix. -/
abbrev opsAgg1 : List (HloOp τ sig (Elt F)) :=
  [
    nullary main_c_6 (constantI S_ 32 0#32),
    unary main_c_6 main_v31 (broadcastInDim S1650000 ![] bcast_S_S1650000 : (⟨S_, .i32⟩ : BufTy).Contents (Elt F) → (⟨S1650000, .i32⟩ : BufTy).Contents (Elt F)),
    binary main_v3 main_v31 main_v32 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v33 (broadcastInDim S1650000 ![] bcast_S_S1650000 : (⟨S_, .i32⟩ : BufTy).Contents (Elt F) → (⟨S1650000, .i32⟩ : BufTy).Contents (Elt F)),
    binary main_v3 main_v33 main_v34 (addi : (⟨S1650000, .i32⟩ : BufTy).Contents (Elt F) → (⟨S1650000, .i32⟩ : BufTy).Contents (Elt F) → (⟨S1650000, .i32⟩ : BufTy).Contents (Elt F)),
    ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v35 main_v36 (broadcastInDim S1650000x1 ![0] bcast_S1650000_S1650000x1_0 : (⟨S1650000, .i32⟩ : BufTy).Contents (Elt F) → (⟨S1650000x1, .i32⟩ : BufTy).Contents (Elt F)),
    binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v29 main_v38 (broadcastInDim S1650000x1 ![0] bcast_S1650000_S1650000x1_0 : (⟨S1650000, .f32⟩ : BufTy).Contents (Elt F) → (⟨S1650000x1, .f32⟩ : BufTy).Contents (Elt F)),
    unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S1650000x1 ![0] bcast_S1650000_S1650000x1_0 : (⟨S1650000, .i32⟩ : BufTy).Contents (Elt F) → (⟨S1650000x1, .i32⟩ : BufTy).Contents (Elt F)),
    ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Bias, batch normalisation and the parametric rectifier: the bias row added; the column means; the column variances by the called function's nineteen operations and its nested select's three (sum of squared deviations from the mean over the count minus the correction, not-a-number when that divisor is not positive); the centred matrix times the inverse square root of variance plus epsilon, times the scale row, plus the shift row; and the select between that and its multiple by the slope where it is not positive (the last call's one operation). -/
abbrev opsNorm : List (HloOp τ sig (Elt F)) :=
  [
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v46 main_cst_9 main_v47 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v46) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v46) main_call1.v4 main_call1.v5 subf,
    TRef.binary main_call1.v5 main_call1.v5 main_call1.v6 mulf,
    TRef.unary (.of main_c_11) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v49 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v46 main_v52 main_v53 (subf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v54 (broadcastInDim S128 ![] bcast_S_S128 : (⟨S_, .f32⟩ : BufTy).Contents (Elt F) → (⟨S128, .f32⟩ : BufTy).Contents (Elt F)),
    binary main_v50 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (mulf : (⟨S50000x128, .f32⟩ : BufTy).Contents (Elt F) → (⟨S50000x128, .f32⟩ : BufTy).Contents (Elt F) → (⟨S50000x128, .f32⟩ : BufTy).Contents (Elt F)),
    unary main_arg6 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (mulf : (⟨S50000x128, .f32⟩ : BufTy).Contents (Elt F) → (⟨S50000x128, .f32⟩ : BufTy).Contents (Elt F) → (⟨S50000x128, .f32⟩ : BufTy).Contents (Elt F)),
    unary main_arg7 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    unary main_cst_13 main_v66 (broadcastInDim S50000x128 ![] bcast_S_S50000x128 : (⟨S_, .f32⟩ : BufTy).Contents (Elt F) → (⟨S50000x128, .f32⟩ : BufTy).Contents (Elt F)),
    binary main_v65 main_v66 main_v67 (cmpf .ogt : (⟨S50000x128, .f32⟩ : BufTy).Contents (Elt F) → (⟨S50000x128, .f32⟩ : BufTy).Contents (Elt F) → (⟨S50000x128, .i1⟩ : BufTy).Contents (Elt F)),
    unary main_arg8 main_v68 (broadcastInDim S50000x128 ![] bcast_S_S50000x128 : (⟨S_, .f32⟩ : BufTy).Contents (Elt F) → (⟨S50000x128, .f32⟩ : BufTy).Contents (Elt F)),
    binary main_v68 main_v65 main_v69 (mulf : (⟨S50000x128, .f32⟩ : BufTy).Contents (Elt F) → (⟨S50000x128, .f32⟩ : BufTy).Contents (Elt F) → (⟨S50000x128, .f32⟩ : BufTy).Contents (Elt F)),
    TRef.ternary (.of main_v67) (.of main_v65) (.of main_v69) main_call2.v0 select ]

/-- The second layer's matrix product with the second weight matrix. -/
abbrev opsDot2 : List (HloOp τ sig (Elt F)) :=
  [
    binary main_v70 main_arg4 main_v71 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The second aggregation, as the first over sixty-four columns, and the output bias. -/
abbrev opsAgg2 : List (HloOp τ sig (Elt F)) :=
  [
    nullary main_c_14 (constantI S_ 32 0#32),
    unary main_c_14 main_v72 (broadcastInDim S1650000 ![] bcast_S_S1650000 : (⟨S_, .i32⟩ : BufTy).Contents (Elt F) → (⟨S1650000, .i32⟩ : BufTy).Contents (Elt F)),
    binary main_v3 main_v72 main_v73 (cmpi .slt : (⟨S1650000, .i32⟩ : BufTy).Contents (Elt F) → (⟨S1650000, .i32⟩ : BufTy).Contents (Elt F) → (⟨S1650000, .i1⟩ : BufTy).Contents (Elt F)),
    nullary main_c_15 (constantI S_ 32 50000#32),
    unary main_c_15 main_v74 (broadcastInDim S1650000 ![] bcast_S_S1650000 : (⟨S_, .i32⟩ : BufTy).Contents (Elt F) → (⟨S1650000, .i32⟩ : BufTy).Contents (Elt F)),
    binary main_v3 main_v74 main_v75 (addi : (⟨S1650000, .i32⟩ : BufTy).Contents (Elt F) → (⟨S1650000, .i32⟩ : BufTy).Contents (Elt F) → (⟨S1650000, .i32⟩ : BufTy).Contents (Elt F)),
    ternary main_v73 main_v75 main_v3 main_v76 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v76 main_v77 (broadcastInDim S1650000x1 ![0] bcast_S1650000_S1650000x1_0 : (⟨S1650000, .i32⟩ : BufTy).Contents (Elt F) → (⟨S1650000x1, .i32⟩ : BufTy).Contents (Elt F)),
    binary main_v71 main_v77 main_v78 ((fun x i => Host.gather gather_S50000x64_S1650000x1_S1650000x64_1_0_n_n_0_1_164 x i) : (⟨S50000x64, .f32⟩ : BufTy).Contents (Elt F) → (⟨S1650000x1, .i32⟩ : BufTy).Contents (Elt F) → (⟨S1650000x64, .f32⟩ : BufTy).Contents (Elt F)),
    unary main_v29 main_v79 (broadcastInDim S1650000x1 ![0] bcast_S1650000_S1650000x1_0 : (⟨S1650000, .f32⟩ : BufTy).Contents (Elt F) → (⟨S1650000x1, .f32⟩ : BufTy).Contents (Elt F)),
    unary main_v79 main_v80 (broadcastInDim S1650000x64 ![0, 1] bcast_S1650000x1_S1650000x64_0_1 : (⟨S1650000x1, .f32⟩ : BufTy).Contents (Elt F) → (⟨S1650000x64, .f32⟩ : BufTy).Contents (Elt F)),
    binary main_v78 main_v80 main_v81 (mulf : (⟨S1650000x64, .f32⟩ : BufTy).Contents (Elt F) → (⟨S1650000x64, .f32⟩ : BufTy).Contents (Elt F) → (⟨S1650000x64, .f32⟩ : BufTy).Contents (Elt F)),
    nullary main_cst_16 (constant S_ .f32 0x00000000#32),
    unary main_cst_16 main_v82 (broadcastInDim S50000x64 ![] bcast_S_S50000x64 : (⟨S_, .f32⟩ : BufTy).Contents (Elt F) → (⟨S50000x64, .f32⟩ : BufTy).Contents (Elt F)),
    unary main_v6 main_v83 (broadcastInDim S1650000x1 ![0] bcast_S1650000_S1650000x1_0 : (⟨S1650000, .i32⟩ : BufTy).Contents (Elt F) → (⟨S1650000x1, .i32⟩ : BufTy).Contents (Elt F)),
    ternary main_v82 main_v83 main_v81 main_v84 ((fun x i u => Host.scatterAdd scatter_S50000x64_S1650000x1_S1650000x64_1_0_0_1 x i u) : (⟨S50000x64, .f32⟩ : BufTy).Contents (Elt F) → (⟨S1650000x1, .i32⟩ : BufTy).Contents (Elt F) → (⟨S1650000x64, .f32⟩ : BufTy).Contents (Elt F) → (⟨S50000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)) ]

/-- @main's 130 operations in order: the six segments one after the other. -/
abbrev ops : List (HloOp τ sig (Elt F)) := opsEdges ++ opsDot1 ++ opsAgg1 ++ opsNorm ++ opsDot2 ++ opsAgg2

/-- The fold over a concatenation is the fold over the second list from the first's result. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents after the whole program are the six segments' folds composed in order. -/
theorem after_ops (V : Valuation τ sig (Elt F)) :
    after ops V = after opsAgg2 (after opsDot2 (after opsNorm (after opsAgg1 (after opsDot1 (after opsEdges V))))) := by
  simp only [ops, after_app]

end Cert.ReferenceIdeal.RefRun

end
-- ==== Proof.RefRunMain.lean ====
/- The reference program's run: @main equals the straight line of its operations, every weakly fair execution
   terminates with each buffer at the operations' fold over the launch contents, and no operation writes an argument. -/
import proofs.«120016_j19301583028533_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- one hundred and thirty binds re-associated: the rewrite under the chain recurses once per statement
set_option maxRecDepth 8192 in
set_option maxHeartbeats 4000000 in
/-- @main is that straight line: its two halves, the called functions unfolded at their calls and the calls'
    records at their fields; once sequencing is reassociated both sides are one chain of single steps. -/
theorem main_eq (c : Dev nD) : main (F := F) c = seq ops := by
  simp only [main, main_part0, main_part1, fn_where.body, fn_var.body, fn_where_0.body, fn_where_1.body,
    ops, opsEdges, opsDot1, opsAgg1, opsNorm, opsDot2, opsAgg2, List.cons_append, List.nil_append,
    seq, bind_assoc, pure_bind]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Segment by segment: the buffers touched, the buffers written -/

/-- Every buffer an operation of `opsEdges` reads or writes is one of the TensorCore's. -/
theorem opsEdges_sub : (opsEdges : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
/-- The references the operations of `opsEdges` write. -/
abbrev opsEdges_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
theorem opsEdges_writes : (opsEdges : List (HloOp τ sig (Elt F))).Forall fun op =>
    op.writes ⊆ (opsEdges_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsEdges` does not write keeps its contents through it. -/
theorem opsEdges_keep (V : Valuation τ sig (Elt F)) (r : Ref sig .tc) (h : r ∉ opsEdges_W) :
    after opsEdges V (Proc.devRef .tc r) = V (Proc.devRef .tc r) :=
  after_of_writes_sub opsEdges V opsEdges_writes h

/-- Every buffer an operation of `opsDot1` reads or writes is one of the TensorCore's. -/
theorem opsDot1_sub : (opsDot1 : List (HloOp τ sig (Elt F))).Forall fun op => op.bufs ⊆ tcRefs τ sig :=
  binary_bufs_sub ..
/-- The references the operations of `opsDot1` write. -/
abbrev opsDot1_W : List (Ref sig .tc) := [main_v30]
theorem opsDot1_writes : (opsDot1 : List (HloOp τ sig (Elt F))).Forall fun op =>
    op.writes ⊆ (opsDot1_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
/-- A buffer `opsDot1` does not write keeps its contents through it. -/
theorem opsDot1_keep (V : Valuation τ sig (Elt F)) (r : Ref sig .tc) (h : r ∉ opsDot1_W) :
    after opsDot1 V (Proc.devRef .tc r) = V (Proc.devRef .tc r) :=
  after_of_writes_sub opsDot1 V opsDot1_writes h

/-- Every buffer an operation of `opsAgg1` reads or writes is one of the TensorCore's. -/
theorem opsAgg1_sub : (opsAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
/-- The references the operations of `opsAgg1` write. -/
abbrev opsAgg1_W : List (Ref sig .tc) := [main_c_6, main_v31, main_v32, main_c_7, main_v33, main_v34, main_v35, main_v36, main_v37, main_v38, main_v39, main_v40, main_cst_8, main_v41, main_v42, main_v43]
theorem opsAgg1_writes : (opsAgg1 : List (HloOp τ sig (Elt F))).Forall fun op =>
    op.writes ⊆ (opsAgg1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsAgg1` does not write keeps its contents through it. -/
theorem opsAgg1_keep (V : Valuation τ sig (Elt F)) (r : Ref sig .tc) (h : r ∉ opsAgg1_W) :
    after opsAgg1 V (Proc.devRef .tc r) = V (Proc.devRef .tc r) :=
  after_of_writes_sub opsAgg1 V opsAgg1_writes h

/-- Every buffer an operation of `opsNorm` reads or writes is one of the TensorCore's. -/
theorem opsNorm_sub : (opsNorm : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., ternary_bufs_sub ..⟩
/-- The references the operations of `opsNorm` write. -/
abbrev opsNorm_W : List (Ref sig .tc) := [main_v44, main_v45, main_v46, main_cst_9, main_v47, main_cst_10, main_v48, main_v49, main_c_11, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v50, main_v51, main_v52, main_v53, main_cst_12, main_v54, main_v55, main_v56, main_v57, main_v58, main_v59, main_v60, main_v61, main_v62, main_v63, main_v64, main_v65, main_cst_13, main_v66, main_v67, main_v68, main_v69, main_v70]
theorem opsNorm_writes : (opsNorm : List (HloOp τ sig (Elt F))).Forall fun op =>
    op.writes ⊆ (opsNorm_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsNorm` does not write keeps its contents through it. -/
theorem opsNorm_keep (V : Valuation τ sig (Elt F)) (r : Ref sig .tc) (h : r ∉ opsNorm_W) :
    after opsNorm V (Proc.devRef .tc r) = V (Proc.devRef .tc r) :=
  after_of_writes_sub opsNorm V opsNorm_writes h

/-- Every buffer an operation of `opsDot2` reads or writes is one of the TensorCore's. -/
theorem opsDot2_sub : (opsDot2 : List (HloOp τ sig (Elt F))).Forall fun op => op.bufs ⊆ tcRefs τ sig :=
  binary_bufs_sub ..
/-- The references the operations of `opsDot2` write. -/
abbrev opsDot2_W : List (Ref sig .tc) := [main_v71]
theorem opsDot2_writes : (opsDot2 : List (HloOp τ sig (Elt F))).Forall fun op =>
    op.writes ⊆ (opsDot2_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
/-- A buffer `opsDot2` does not write keeps its contents through it. -/
theorem opsDot2_keep (V : Valuation τ sig (Elt F)) (r : Ref sig .tc) (h : r ∉ opsDot2_W) :
    after opsDot2 V (Proc.devRef .tc r) = V (Proc.devRef .tc r) :=
  after_of_writes_sub opsDot2 V opsDot2_writes h

/-- Every buffer an operation of `opsAgg2` reads or writes is one of the TensorCore's. -/
theorem opsAgg2_sub : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
/-- The references the operations of `opsAgg2` write. -/
abbrev opsAgg2_W : List (Ref sig .tc) := [main_c_14, main_v72, main_v73, main_c_15, main_v74, main_v75, main_v76, main_v77, main_v78, main_v79, main_v80, main_v81, main_cst_16, main_v82, main_v83, main_v84, main_v85, main_v86, main_v87]
theorem opsAgg2_writes : (opsAgg2 : List (HloOp τ sig (Elt F))).Forall fun op =>
    op.writes ⊆ (opsAgg2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer `opsAgg2` does not write keeps its contents through it. -/
theorem opsAgg2_keep (V : Valuation τ sig (Elt F)) (r : Ref sig .tc) (h : r ∉ opsAgg2_W) :
    after opsAgg2 V (Proc.devRef .tc r) = V (Proc.devRef .tc r) :=
  after_of_writes_sub opsAgg2 V opsAgg2_writes h

/-! ## No operation allocates -/

theorem opsEdges_fresh : (opsEdges : List (HloOp τ sig (Elt F))).Forall fun op => op.fresh = ∅ := by
  simp only [List.Forall]; repeat' constructor
theorem opsDot1_fresh : (opsDot1 : List (HloOp τ sig (Elt F))).Forall fun op => op.fresh = ∅ := by
  simp only [List.Forall]; repeat' constructor
theorem opsAgg1_fresh : (opsAgg1 : List (HloOp τ sig (Elt F))).Forall fun op => op.fresh = ∅ := by
  simp only [List.Forall]; repeat' constructor
theorem opsNorm_fresh : (opsNorm : List (HloOp τ sig (Elt F))).Forall fun op => op.fresh = ∅ := by
  simp only [List.Forall]; repeat' constructor
theorem opsDot2_fresh : (opsDot2 : List (HloOp τ sig (Elt F))).Forall fun op => op.fresh = ∅ := by
  simp only [List.Forall]; repeat' constructor
theorem opsAgg2_fresh : (opsAgg2 : List (HloOp τ sig (Elt F))).Forall fun op => op.fresh = ∅ := by
  simp only [List.Forall]; repeat' constructor

/-! ## The whole line -/

theorem ops_sub : (ops : List (HloOp τ sig (Elt F))).Forall fun op => op.bufs ⊆ tcRefs τ sig := by
  simp only [ops, List.forall_append]
  exact ⟨⟨⟨⟨⟨opsEdges_sub, opsDot1_sub⟩, opsAgg1_sub⟩, opsNorm_sub⟩, opsDot2_sub⟩, opsAgg2_sub⟩

theorem ops_fresh : ∀ op ∈ (ops : List (HloOp τ sig (Elt F))), op.fresh = ∅ := by
  refine List.forall_iff_forall_mem.mp ?_
  simp only [ops, List.forall_append]
  exact ⟨⟨⟨⟨⟨opsEdges_fresh, opsDot1_fresh⟩, opsAgg1_fresh⟩, opsNorm_fresh⟩, opsDot2_fresh⟩, opsAgg2_fresh⟩

/-- On every device, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments are never written -/

theorem arg_eq0 (V : Valuation τ sig (Elt F)) : after ops V (main_arg0 : DevRef τ sig) = V (main_arg0 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq1 (V : Valuation τ sig (Elt F)) : after ops V (main_arg1 : DevRef τ sig) = V (main_arg1 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq2 (V : Valuation τ sig (Elt F)) : after ops V (main_arg2 : DevRef τ sig) = V (main_arg2 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq3 (V : Valuation τ sig (Elt F)) : after ops V (main_arg3 : DevRef τ sig) = V (main_arg3 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq4 (V : Valuation τ sig (Elt F)) : after ops V (main_arg4 : DevRef τ sig) = V (main_arg4 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq5 (V : Valuation τ sig (Elt F)) : after ops V (main_arg5 : DevRef τ sig) = V (main_arg5 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq6 (V : Valuation τ sig (Elt F)) : after ops V (main_arg6 : DevRef τ sig) = V (main_arg6 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq7 (V : Valuation τ sig (Elt F)) : after ops V (main_arg7 : DevRef τ sig) = V (main_arg7 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]
theorem arg_eq8 (V : Valuation τ sig (Elt F)) : after ops V (main_arg8 : DevRef τ sig) = V (main_arg8 : DevRef τ sig) := by
  rw [after_ops, opsAgg2_keep _ _ (by decide), opsDot2_keep _ _ (by decide), opsNorm_keep _ _ (by decide),
    opsAgg1_keep _ _ (by decide), opsDot1_keep _ _ (by decide), opsEdges_keep _ _ (by decide)]

/-- Every weakly fair execution of @main terminates with the nine arguments' buffers as they were at launch. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_arg0).trans (arg_eq0 _),
      (h c main_arg1).trans (arg_eq1 _),
      (h c main_arg2).trans (arg_eq2 _),
      (h c main_arg3).trans (arg_eq3 _),
      (h c main_arg4).trans (arg_eq4 _),
      (h c main_arg5).trans (arg_eq5 _),
      (h c main_arg6).trans (arg_eq6 _),
      (h c main_arg7).trans (arg_eq7 _),
      (h c main_arg8).trans (arg_eq8 _)⟩)
    (run_main m ρ)

/-! ## The launch contents at a reference -/

/-- The launch contents of a device at a TensorCore reference are the memory at that reference's location. -/
theorem launch_ref (m : (ℓ : Loc nD τ sig) → Buf (Elt F) ℓ) (c : Dev nD) (b : Ref sig .tc) :
    launchContents m c (b : DevRef τ sig) = m ((c.tc : Thread nD τ).loc b) := rfl
theorem launch_arg0 (m : (ℓ : Loc nD τ sig) → Buf (Elt F) ℓ) (c : Dev nD) :
    launchContents m c (main_arg0 : DevRef τ sig) = m ((c.tc : Thread nD τ).loc main_arg0) := rfl
theorem launch_arg1 (m : (ℓ : Loc nD τ sig) → Buf (Elt F) ℓ) (c : Dev nD) :
    launchContents m c (main_arg1 : DevRef τ sig) = m ((c.tc : Thread nD τ).loc main_arg1) := rfl
theorem launch_arg2 (m : (ℓ : Loc nD τ sig) → Buf (Elt F) ℓ) (c : Dev nD) :
    launchContents m c (main_arg2 : DevRef τ sig) = m ((c.tc : Thread nD τ).loc main_arg2) := rfl
theorem launch_arg3 (m : (ℓ : Loc nD τ sig) → Buf (Elt F) ℓ) (c : Dev nD) :
    launchContents m c (main_arg3 : DevRef τ sig) = m ((c.tc : Thread nD τ).loc main_arg3) := rfl
theorem launch_arg4 (m : (ℓ : Loc nD τ sig) → Buf (Elt F) ℓ) (c : Dev nD) :
    launchContents m c (main_arg4 : DevRef τ sig) = m ((c.tc : Thread nD τ).loc main_arg4) := rfl
theorem launch_arg5 (m : (ℓ : Loc nD τ sig) → Buf (Elt F) ℓ) (c : Dev nD) :
    launchContents m c (main_arg5 : DevRef τ sig) = m ((c.tc : Thread nD τ).loc main_arg5) := rfl
theorem launch_arg6 (m : (ℓ : Loc nD τ sig) → Buf (Elt F) ℓ) (c : Dev nD) :
    launchContents m c (main_arg6 : DevRef τ sig) = m ((c.tc : Thread nD τ).loc main_arg6) := rfl
theorem launch_arg7 (m : (ℓ : Loc nD τ sig) → Buf (Elt F) ℓ) (c : Dev nD) :
    launchContents m c (main_arg7 : DevRef τ sig) = m ((c.tc : Thread nD τ).loc main_arg7) := rfl
theorem launch_arg8 (m : (ℓ : Loc nD τ sig) → Buf (Elt F) ℓ) (c : Dev nD) :
    launchContents m c (main_arg8 : DevRef τ sig) = m ((c.tc : Thread nD τ).loc main_arg8) := rfl

end Cert.ReferenceIdeal.RefRun

end
-- ==== Proof.RefBoundaries.lean ====
/-
  The reference program's buffer contents at the boundaries between the six segments of its operation list, as a fold
  from the launch contents, and the fact that a segment leaves alone every buffer it does not write.
-/
import proofs.«120016_j19301583028533_1_alg».proof.Proof.RefRunMain
import Idealize.ShloMosaic.PureOps.Ideal

noncomputable section

namespace Cert.ReferenceIdeal.Boundaries

open Idealize.ShloMosaic Idealize.ShloMosaic.TcCoe Idealize.SL.Sem Idealize.ShloMosaic.StableHlo
open Cert.ReferenceIdeal Cert.ReferenceIdeal.RefRun

variable (m' : (ℓ : Loc nD τ sig) → Buf (Elt Ideal) ℓ)

/-- At launch. -/
abbrev V0 (c : Dev nD) : Valuation τ sig (Elt Ideal) := launchContents m' c
/-- After the edge lists and edge weights. -/
abbrev V1 (c : Dev nD) : Valuation τ sig (Elt Ideal) := after (opsEdges (F := Ideal)) (V0 m' c)
/-- After the first matrix product. -/
abbrev V2 (c : Dev nD) : Valuation τ sig (Elt Ideal) := after (opsDot1 (F := Ideal)) (V1 m' c)
/-- After the first aggregation. -/
abbrev V3 (c : Dev nD) : Valuation τ sig (Elt Ideal) := after (opsAgg1 (F := Ideal)) (V2 m' c)
/-- After the normalisation and the rectifier. -/
abbrev V4 (c : Dev nD) : Valuation τ sig (Elt Ideal) := after (opsNorm (F := Ideal)) (V3 m' c)
/-- After the second matrix product. -/
abbrev V5 (c : Dev nD) : Valuation τ sig (Elt Ideal) := after (opsDot2 (F := Ideal)) (V4 m' c)

/-- The whole list's fold is the last segment's fold over the fifth boundary. -/
theorem after_ops_eq (c : Dev nD) : after (ops (F := Ideal)) (V0 m' c) = after (opsAgg2 (F := Ideal)) (V5 m' c) :=
  after_ops (V0 m' c)

/-- A buffer no segment up to a boundary writes still holds its launch contents there. -/
theorem V1_keep (c : Dev nD) (b : Ref sig .tc) (h1 : b ∉ opsEdges_W) :
    V1 m' c (Proc.devRef .tc b) = m' ((c.tc : Thread nD τ).loc b) :=
  (opsEdges_keep _ b h1).trans rfl
theorem V2_keep (c : Dev nD) (b : Ref sig .tc) (h1 : b ∉ opsEdges_W) (h2 : b ∉ opsDot1_W) :
    V2 m' c (Proc.devRef .tc b) = m' ((c.tc : Thread nD τ).loc b) :=
  (opsDot1_keep _ b h2).trans (V1_keep m' c b h1)
theorem V3_keep (c : Dev nD) (b : Ref sig .tc) (h1 : b ∉ opsEdges_W) (h2 : b ∉ opsDot1_W) (h3 : b ∉ opsAgg1_W) :
    V3 m' c (Proc.devRef .tc b) = m' ((c.tc : Thread nD τ).loc b) :=
  (opsAgg1_keep _ b h3).trans (V2_keep m' c b h1 h2)
theorem V4_keep (c : Dev nD) (b : Ref sig .tc) (h1 : b ∉ opsEdges_W) (h2 : b ∉ opsDot1_W) (h3 : b ∉ opsAgg1_W)
    (h4 : b ∉ opsNorm_W) : V4 m' c (Proc.devRef .tc b) = m' ((c.tc : Thread nD τ).loc b) :=
  (opsNorm_keep _ b h4).trans (V3_keep m' c b h1 h2 h3)
theorem V5_keep (c : Dev nD) (b : Ref sig .tc) (h1 : b ∉ opsEdges_W) (h2 : b ∉ opsDot1_W) (h3 : b ∉ opsAgg1_W)
    (h4 : b ∉ opsNorm_W) (h5 : b ∉ opsDot2_W) : V5 m' c (Proc.devRef .tc b) = m' ((c.tc : Thread nD τ).loc b) :=
  (opsDot2_keep _ b h5).trans (V4_keep m' c b h1 h2 h3 h4)

/-- What the first segment writes is carried unchanged to the later boundaries. -/
theorem V2_of_V1 (c : Dev nD) (b : Ref sig .tc) (h2 : b ∉ opsDot1_W) :
    V2 m' c (Proc.devRef .tc b) = V1 m' c (Proc.devRef .tc b) := opsDot1_keep _ b h2
theorem V5_of_V1 (c : Dev nD) (b : Ref sig .tc) (h2 : b ∉ opsDot1_W) (h3 : b ∉ opsAgg1_W) (h4 : b ∉ opsNorm_W)
    (h5 : b ∉ opsDot2_W) : V5 m' c (Proc.devRef .tc b) = V1 m' c (Proc.devRef .tc b) :=
  (opsDot2_keep _ b h5).trans ((opsNorm_keep _ b h4).trans ((opsAgg1_keep _ b h3).trans (opsDot1_keep _ b h2)))

end Cert.ReferenceIdeal.Boundaries

end
-- ==== Proof.LibPlainDot.lean ====
/-
  Two general facts about finite sums, used to read a matrix product and a blocked sum index by index.

  A plain product of an `[M, K]` array with a `[K, N]` array — one contracted axis, no batch axis — read at the
  output position `(r, c)` is the sum over `k : Fin K` of the left operand at `(r, k)` times the right operand at
  `(k, c)`: the contraction index of such a product is its one coordinate. The four coordinate facts of the
  dimension numbers are hypotheses, so the statement applies to any record of this form.

  A sum over `N = A * B` positions is the sum over `A` consecutive blocks of the sums over the `B` positions of
  each block, in any commutative monoid: position `e` is `t * B + r` for exactly one block `t` and offset `r`.
-/
import Idealize.ShloMosaic.Lib.ValueIdx
import Idealize.ShloMosaic.PureOps.Ideal.Laws

noncomputable section

namespace Idealize.ShloMosaic.ValueIdx

/-- The sum over the one-axis contraction index of a plain `[M, K] × [K, N]` product, at output position `(r, c)`,
    is the sum over `k : Fin K` of `lhs (r, k) * rhs (k, c)`. -/
theorem plain_dot_sum {M K N : ℕ} (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (r : Fin M) (c : Fin N) :
    ∑ q : d.contr.Idx, lhs (d.lhsIdx (ix2 r c) q) * rhs (d.rhsIdx (ix2 r c) q)
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (hl1 _ _).trans hk)
  have er : d.rhsIdx (ix2 r c) ((contrEquiv1 d K hr hs).symm k) = ix2 k c := funext fun a => Fin.ext (by
    match a with
    | ⟨0, _⟩ => exact (hr0 _ _).trans hk
    | ⟨1, _⟩ => exact hr1 _ _)
  rw [el, er]

/-- A sum over `N = A * B` positions is the sum over the `A` blocks of the sums over each block's `B` positions. -/
theorem sum_fin_blocks {M : Type*} [AddCommMonoid M] {N : ℕ} (A B : ℕ) (hN : N = A * B) (g : Fin N → M) :
    ∑ e : Fin N, g e
      = ∑ t : Fin A, ∑ r : Fin B, g ⟨t.val * B + r.val, by
          have h1 : t.val * B + r.val < t.val * B + B := Nat.add_lt_add_left r.isLt _
          have h3 : (t.val + 1) * B ≤ A * B := Nat.mul_le_mul_right B t.isLt
          rw [Nat.add_mul, Nat.one_mul] at h3
          rw [hN]; exact Nat.lt_of_lt_of_le h1 h3⟩ := by
  subst hN
  rw [← Equiv.sum_comp finProdFinEquiv g, Fintype.sum_prod_type]
  refine Finset.sum_congr rfl fun t _ => Finset.sum_congr rfl fun r _ => ?_
  refine congrArg g (Fin.ext ?_)
  show r.val + B * t.val = t.val * B + r.val
  rw [Nat.mul_comm, Nat.add_comm]

end Idealize.ShloMosaic.ValueIdx

end
-- ==== Proof.ProductRegions.lean ====
/-
  The two matrix-product regions of the program, each read as ONE function of the arrays it finds on entry.

  Region 0 multiplies an array of 50000 rows and 128 columns by a 128 x 128 matrix, ten row blocks of 5000 rows at a
  time; region 3 does the same with a 128 x 64 matrix. At the exact extended-real values the narrowing of the operands
  is the identity and the zero accumulator adds nothing, so each block of 5000 rows that a grid point writes back is
  that block of the full product, whose entry at row r and column c is the sum over k of left (r, k) times
  right (k, c). Row r lies in the block of point r / 5000, the ten blocks tile the output, and so the output array
  after the region IS the full product. The host's product of the same two arrays reads, entry by entry, as the same sum.
-/
import proofs.«120016_j19301583028533_1_alg».proof.Proof.Gen.KernelIdeal.Frame
import proofs.«120016_j19301583028533_1_alg».proof.Proof.Gen.ReferenceIdeal
import Idealize.ShloMosaic.Lib.Pipeline.Value
import proofs.«120016_j19301583028533_1_alg».proof.Proof.LibPlainDot

set_option maxRecDepth 16384

noncomputable section

namespace Cert.KernelIdeal.ProductRegions

open Idealize.ShloMosaic Idealize.ShloMosaic.TcCoe Idealize.ShloMosaic.ValueIdx
open Idealize.ShloMosaic.Pipeline (Dat Cfg Window)
open Cert.KernelIdeal

/-- The zero offsets of a store that fills its whole buffer. -/
theorem zero_offsets : (![0, 0] : Fin 2 → Nat) = fun _ => 0 := funext fun a => by fin_cases a <;> rfl

/-- The product of an `[M, 128]` array with a `[128, N]` array, entry by entry. -/
abbrev rowsTimes {M N : ℕ} (a : (⟨2, ![M, 128]⟩ : Shape).Idx → EReal) (b : (⟨2, ![128, N]⟩ : Shape).Idx → EReal) :
    (⟨2, ![M, N]⟩ : Shape).Idx → EReal :=
  fun i => ∑ k : Fin 128, a (ix2 (i 0) k) * b (ix2 k (i 1))

/-- A block of a product is the product of the blocks: when, entry by entry along the contracted axis, the row of a left
    block `X0` read at `j` is the row of the left array `A` read at `i`, and the column of `X1` at `j` is that of `B` at `i`. -/
theorem rowsTimes_block {M N m : ℕ} (A : (⟨2, ![M, 128]⟩ : Shape).Idx → EReal) (B : (⟨2, ![128, N]⟩ : Shape).Idx → EReal)
    (X0 : (⟨2, ![m, 128]⟩ : Shape).Idx → EReal) (X1 : (⟨2, ![128, N]⟩ : Shape).Idx → EReal)
    (j : (⟨2, ![m, N]⟩ : Shape).Idx) (i : (⟨2, ![M, N]⟩ : Shape).Idx)
    (hl : ∀ k : Fin 128, X0 (ix2 (j 0) k) = A (ix2 (i 0) k)) (hr : ∀ k : Fin 128, X1 (ix2 k (j 1)) = B (ix2 k (i 1))) :
    rowsTimes X0 X1 j = rowsTimes A B i :=
  Finset.sum_congr rfl fun k _ => by rw [hl k, hr k]

/-! ## Region 0: 50000 x 128 times 128 x 128 -/

/-- One block's product at an entry: the sum over the 128 contracted positions. -/
theorem first_payload (x0 : Vec Ideal S5000x128 .f32) (x1 : Vec Ideal S128x128 .f32) (p : Fin 5000) (q : Fin 128) :
    Gen.k0_pay1 (F := Ideal) x0 x1 (ix2 p q) = ∑ k : Fin 128, x0 (ix2 p k) * x1 (ix2 k q) := by
  unfold Gen.k0_pay1
  refine (Ideal.matmul_constant_zero_apply dot_S5000x128_S128x128_S5000x128_1_0_0_1_n_n none (truncf .bf16 x0 Gen.bitsLt_bf16_f32) (truncf .bf16 x1 Gen.bitsLt_bf16_f32) (ix2 p q)).trans ?_
  exact plain_dot_sum dot_S5000x128_S128x128_S5000x128_1_0_0_1_n_n rfl rfl (fun _ _ => rfl) (fun _ _ => rfl) (fun _ _ => rfl) (fun _ _ => rfl) x0 x1 p q

/-- What the body leaves in the output buffer is the product of the two blocks it was given. -/
theorem first_out (x0 : Vec Ideal S5000x128 .f32) (x1 : Vec Ideal S128x128 .f32) :
    Gen.out0_2 (F := Ideal) x0 x1 = rowsTimes x0 x1 := by
  unfold Gen.out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  exact first_payload x0 x1 p q

/-- Where the three windows sit at grid point `t`: the row block `t` of the left operand and of the output, the whole
    right operand. Decided over the ten points. -/
theorem first_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The left operand's block at point `t` is rows `5000 t … 5000 t + 4999` of the array. -/
theorem first_left_block (c : Dev nD) (t : Fin cfg0.N) (x : S5000x128.Idx) (i : S50000x128.Idx)
    (h0 : (i 0).val = 5000 * t.val + (x 0).val) (h1 : (i 1).val = (x 1).val) :
    (Gen.iblk0 V c 0 t : Vec Ideal S5000x128 .f32) x = (V c main_arg0 : S50000x128.Idx → EReal) i := by
  obtain ⟨e0, e1, -⟩ := first_index_facts t
  unfold Gen.iblk0
  rw [View.read_apply]
  show V c main_arg0 _ = V c main_arg0 _
  refine congrArg (V c main_arg0) ?_
  funext a
  apply Fin.ext
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- The right operand's block at every point is the whole matrix. -/
theorem first_right_block (c : Dev nD) (t : Fin cfg0.N) (x : S128x128.Idx) :
    (Gen.iblk0 V c 1 t : Vec Ideal S128x128 .f32) x = (V c main_arg2 : S128x128.Idx → EReal) x := by
  obtain ⟨-, -, e2, e3, -⟩ := first_index_facts t
  unfold Gen.iblk0
  rw [View.read_apply]
  show V c main_arg2 _ = V c main_arg2 _
  refine congrArg (V c main_arg2) ?_
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- WHAT POINT `t` WRITES BACK is block `t` of the full product of the two arrays the region finds. -/
theorem first_flushed (c : Dev nD) (t : Fin cfg0.N) :
    (Gen.dat0 (F := Ideal) V c).flushed 2 t
      = ((cfg0.win 2).blk t).view.read (Elt Ideal) (rowsTimes (V c main_arg0 : S50000x128.Idx → EReal) (V c main_arg2 : S128x128.Idx → EReal)) := by
  show (cfg0.win 2).cut (grid0.coords t) ((Gen.dat0 V c).after 2 t) = _
  rw [Gen.after0_2, first_out]
  obtain ⟨-, -, -, -, e4, e5⟩ := first_index_facts t
  refine funext fun (j : S5000x128.Idx) => ?_
  rw [View.read_apply]
  refine rowsTimes_block (M := 50000) (N := 128) (m := 5000) (V c main_arg0) (V c main_arg2) (Gen.iblk0 V c 0 t) (Gen.iblk0 V c 1 t) j
    (((cfg0.win 2).blk t).view.emb j) (fun k => ?_) (fun k => ?_)
  · refine first_left_block V c t (ix2 (j 0) k) (ix2 ((((cfg0.win 2).blk t).view.emb j) 0) k) ?_ rfl
    show win0_2.index t 0 * 5000 + 1 * (j 0).val = 5000 * t.val + (j 0).val
    rw [e4]; omega
  · refine (first_right_block V c t (ix2 k (j 1))).trans (congrArg (V c main_arg2) ?_)
    funext a
    match a with
    | ⟨0, _⟩ => rfl
    | ⟨1, _⟩ =>
      apply Fin.ext
      show (j 1).val = win0_2.index t 1 * 128 + 1 * (j 1).val
      rw [e5]; omega

/-- An index of the output array is in point `t`'s block iff each coordinate is in the block's range on its axis. -/
theorem first_mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` is in the block of point `r / 5000`: the ten blocks cover the output. -/
theorem first_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := Gen.N_0
  obtain ⟨t, ht⟩ : ∃ t : Fin cfg0.N, t.val = (i 0).val / 5000 := ⟨⟨(i 0).val / 5000, by rw [hN]; omega⟩, rfl⟩
  obtain ⟨-, -, -, -, e4, e5⟩ := first_index_facts t
  refine ⟨t, Gen.flush0_2 t, ?_⟩
  rw [first_mem_block]
  intro a
  match a with
  | ⟨0, _⟩ => show win0_2.index t 0 * 5000 ≤ (i 0).val ∧ (i 0).val < win0_2.index t 0 * 5000 + 5000; rw [e4, ht]; omega
  | ⟨1, _⟩ => show win0_2.index t 1 * 128 ≤ (i 1).val ∧ (i 1).val < win0_2.index t 1 * 128 + 128; rw [e5]; omega

/-- THE OUTPUT ARRAY of region 0 after the region: the full product, entry by entry. -/
theorem first_product_entries (c : Dev nD) :
    (Gen.dat0 (F := Ideal) V c).arrAt 2 cfg0.N
      = rowsTimes (V c main_arg0 : S50000x128.Idx → EReal) (V c main_arg2 : S128x128.Idx → EReal) :=
  (Gen.dat0 (F := Ideal) V c).arrAt_eq_of_cover 2 _ (fun t _ => first_flushed V c t) first_cover

end

/-- The host's product of a `[50000, 128]` array with a `[128, 128]` matrix, entry by entry, is the same sum. -/
theorem host_first (a : S50000x128.Idx → EReal) (b : S128x128.Idx → EReal) :
    Host.dotGeneral (F := Ideal) (φ₁ := .f32) (φ₂ := .f32) Cert.ReferenceIdeal.dot_S50000x128_S128x128_S50000x128_1_0_0_1_n_n none a b = rowsTimes a b := by
  funext j
  obtain ⟨p, q, rfl⟩ : ∃ (p : Fin 50000) (q : Fin 128), j = ix2 p q := ⟨j 0, j 1, eq_ix2 j⟩
  refine (Ideal.dotGeneral_apply Cert.ReferenceIdeal.dot_S50000x128_S128x128_S50000x128_1_0_0_1_n_n none .single a b (ix2 p q)).trans ?_
  exact plain_dot_sum Cert.ReferenceIdeal.dot_S50000x128_S128x128_S50000x128_1_0_0_1_n_n rfl rfl (fun _ _ => rfl) (fun _ _ => rfl) (fun _ _ => rfl) (fun _ _ => rfl) a b p q

/-- REGION 0's output array is the host's product of the two arrays the region finds on entry. -/
theorem first_product (V : (c : Dev nD) → (b : Ref sig .tc) → Buf (Elt Ideal) ((c : Thread nD τ).loc b)) (c : Dev nD) :
    (Gen.dat0 (F := Ideal) V c).arrAt 2 cfg0.N
      = Host.dotGeneral (F := Ideal) (φ₁ := .f32) (φ₂ := .f32) Cert.ReferenceIdeal.dot_S50000x128_S128x128_S50000x128_1_0_0_1_n_n none
          (V c main_arg0 : S50000x128.Idx → EReal) (V c main_arg2 : S128x128.Idx → EReal) :=
  (first_product_entries V c).trans (host_first _ _).symm

/-! ## Region 3: 50000 x 128 times 128 x 64 -/

/-- One block's product at an entry: the sum over the 128 contracted positions (the reshape of the left block to its
    own shape changes nothing). -/
theorem second_payload (x0 : Vec Ideal S5000x128 .f32) (x1 : Vec Ideal S128x64 .f32) (p : Fin 5000) (q : Fin 64) :
    Gen.k3_pay1 (F := Ideal) x0 x1 (ix2 p q) = ∑ k : Fin 128, x0 (ix2 p k) * x1 (ix2 k q) := by
  unfold Gen.k3_pay1
  refine (Ideal.matmul_constant_zero_apply dot_S5000x128_S128x64_S5000x64_1_0_0_1_n_n none
    (truncf .bf16 (shapeCast S5000x128 x0 Facts₀.shapeCasts_S5000x128_S5000x128) Gen.bitsLt_bf16_f32) (truncf .bf16 x1 Gen.bitsLt_bf16_f32) (ix2 p q)).trans ?_
  refine (plain_dot_sum dot_S5000x128_S128x64_S5000x64_1_0_0_1_n_n rfl rfl (fun _ _ => rfl) (fun _ _ => rfl) (fun _ _ => rfl) (fun _ _ => rfl)
    (shapeCast S5000x128 x0 Facts₀.shapeCasts_S5000x128_S5000x128) x1 p q).trans ?_
  rw [shapeCast_self]

/-- What the body leaves in the output buffer is the product of the two blocks it was given. -/
theorem second_out (x0 : Vec Ideal S5000x128 .f32) (x1 : Vec Ideal S128x64 .f32) :
    Gen.out3_2 (F := Ideal) x0 x1 = rowsTimes x0 x1 := by
  unfold Gen.out3_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ix2 p q := ⟨j 0, j 1, eq_ix2 j⟩
  exact second_payload x0 x1 p q

/-- Where the three windows sit at grid point `t`: the row block `t` of the left operand and of the output, the whole
    right operand. Decided over the ten points. -/
theorem second_index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- The left operand's block at point `t` is rows `5000 t … 5000 t + 4999` of the array. -/
theorem second_left_block (c : Dev nD) (t : Fin cfg3.N) (x : S5000x128.Idx) (i : S50000x128.Idx)
    (h0 : (i 0).val = 5000 * t.val + (x 0).val) (h1 : (i 1).val = (x 1).val) :
    (Gen.iblk3 V c 0 t : Vec Ideal S5000x128 .f32) x = (V c main_v57 : S50000x128.Idx → EReal) i := by
  obtain ⟨e0, e1, -⟩ := second_index_facts t
  unfold Gen.iblk3
  rw [View.read_apply]
  show V c main_v57 _ = V c main_v57 _
  refine congrArg (V c main_v57) ?_
  funext a
  apply Fin.ext
  match a with
  | ⟨0, _⟩ => show win3_0.index t 0 * 5000 + 1 * (x 0).val = (i 0).val; rw [e0, h0]; omega
  | ⟨1, _⟩ => show win3_0.index t 1 * 128 + 1 * (x 1).val = (i 1).val; rw [e1, h1]; omega

/-- The right operand's block at every point is the whole matrix. -/
theorem second_right_block (c : Dev nD) (t : Fin cfg3.N) (x : S128x64.Idx) :
    (Gen.iblk3 V c 1 t : Vec Ideal S128x64 .f32) x = (V c main_arg4 : S128x64.Idx → EReal) x := by
  obtain ⟨-, -, e2, e3, -⟩ := second_index_facts t
  unfold Gen.iblk3
  rw [View.read_apply]
  show V c main_arg4 _ = V c main_arg4 _
  refine congrArg (V c main_arg4) ?_
  funext a
  apply Fin.ext
  match a with
  | ⟨0, _⟩ => show win3_1.index t 0 * 128 + 1 * (x 0).val = (x 0).val; rw [e2]; omega
  | ⟨1, _⟩ => show win3_1.index t 1 * 64 + 1 * (x 1).val = (x 1).val; rw [e3]; omega

/-- WHAT POINT `t` WRITES BACK is block `t` of the full product of the two arrays the region finds. -/
theorem second_flushed (c : Dev nD) (t : Fin cfg3.N) :
    (Gen.dat3 (F := Ideal) V c).flushed 2 t
      = ((cfg3.win 2).blk t).view.read (Elt Ideal) (rowsTimes (V c main_v57 : S50000x128.Idx → EReal) (V c main_arg4 : S128x64.Idx → EReal)) := by
  show (cfg3.win 2).cut (grid3.coords t) ((Gen.dat3 V c).after 2 t) = _
  rw [Gen.after3_2, second_out]
  obtain ⟨-, -, -, -, e4, e5⟩ := second_index_facts t
  refine funext fun (j : S5000x64.Idx) => ?_
  rw [View.read_apply]
  refine rowsTimes_block (M := 50000) (N := 64) (m := 5000) (V c main_v57) (V c main_arg4) (Gen.iblk3 V c 0 t) (Gen.iblk3 V c 1 t) j
    (((cfg3.win 2).blk t).view.emb j) (fun k => ?_) (fun k => ?_)
  · refine second_left_block V c t (ix2 (j 0) k) (ix2 ((((cfg3.win 2).blk t).view.emb j) 0) k) ?_ rfl
    show win3_2.index t 0 * 5000 + 1 * (j 0).val = 5000 * t.val + (j 0).val
    rw [e4]; omega
  · refine (second_right_block V c t (ix2 k (j 1))).trans (congrArg (V c main_arg4) ?_)
    funext a
    match a with
    | ⟨0, _⟩ => rfl
    | ⟨1, _⟩ =>
      apply Fin.ext
      show (j 1).val = win3_2.index t 1 * 64 + 1 * (j 1).val
      rw [e5]; omega

/-- An index of the output array is in point `t`'s block iff each coordinate is in the block's range on its axis. -/
theorem second_mem_block (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v58).slice (win3_2.rect t)).set ↔ _
  rw [View.set_slice_whole, Rect.mem_set_unit]
  exact Iff.rfl

/-- Row `r` is in the block of point `r / 5000`: the ten blocks cover the output. -/
theorem second_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := Gen.N_3
  obtain ⟨t, ht⟩ : ∃ t : Fin cfg3.N, t.val = (i 0).val / 5000 := ⟨⟨(i 0).val / 5000, by rw [hN]; omega⟩, rfl⟩
  obtain ⟨-, -, -, -, e4, e5⟩ := second_index_facts t
  refine ⟨t, Gen.flush3_2 t, ?_⟩
  rw [second_mem_block]
  intro a
  match a with
  | ⟨0, _⟩ => show win3_2.index t 0 * 5000 ≤ (i 0).val ∧ (i 0).val < win3_2.index t 0 * 5000 + 5000; rw [e4, ht]; omega
  | ⟨1, _⟩ => show win3_2.index t 1 * 64 ≤ (i 1).val ∧ (i 1).val < win3_2.index t 1 * 64 + 64; rw [e5]; omega

/-- THE OUTPUT ARRAY of region 3 after the region: the full product, entry by entry. -/
theorem second_product_entries (c : Dev nD) :
    (Gen.dat3 (F := Ideal) V c).arrAt 2 cfg3.N
      = rowsTimes (V c main_v57 : S50000x128.Idx → EReal) (V c main_arg4 : S128x64.Idx → EReal) :=
  (Gen.dat3 (F := Ideal) V c).arrAt_eq_of_cover 2 _ (fun t _ => second_flushed V c t) second_cover

end

/-- The host's product of a `[50000, 128]` array with a `[128, 64]` matrix, entry by entry, is the same sum. -/
theorem host_second (a : S50000x128.Idx → EReal) (b : S128x64.Idx → EReal) :
    Host.dotGeneral (F := Ideal) (φ₁ := .f32) (φ₂ := .f32) Cert.ReferenceIdeal.dot_S50000x128_S128x64_S50000x64_1_0_0_1_n_n none a b = rowsTimes a b := by
  funext j
  obtain ⟨p, q, rfl⟩ : ∃ (p : Fin 50000) (q : Fin 64), j = ix2 p q := ⟨j 0, j 1, eq_ix2 j⟩
  refine (Ideal.dotGeneral_apply Cert.ReferenceIdeal.dot_S50000x128_S128x64_S50000x64_1_0_0_1_n_n none .single a b (ix2 p q)).trans ?_
  exact plain_dot_sum Cert.ReferenceIdeal.dot_S50000x128_S128x64_S50000x64_1_0_0_1_n_n rfl rfl (fun _ _ => rfl) (fun _ _ => rfl) (fun _ _ => rfl) (fun _ _ => rfl) a b p q

/-- REGION 3's output array is the host's product of the two arrays the region finds on entry. -/
theorem second_product (V : (c : Dev nD) → (b : Ref sig .tc) → Buf (Elt Ideal) ((c : Thread nD τ).loc b)) (c : Dev nD) :
    (Gen.dat3 (F := Ideal) V c).arrAt 2 cfg3.N
      = Host.dotGeneral (F := Ideal) (φ₁ := .f32) (φ₂ := .f32) Cert.ReferenceIdeal.dot_S50000x128_S128x64_S50000x64_1_0_0_1_n_n none
          (V c main_v57 : S50000x128.Idx → EReal) (V c main_arg4 : S128x64.Idx → EReal) :=
  (second_product_entries V c).trans (host_second _ _).symm

end Cert.KernelIdeal.ProductRegions

end
-- ==== Proof.SharedChains.lean ====
/-
  The stretches of host operations the two programs share.

  Around the matrix products and the normalisation, the kernel's program and the reference apply the same
  operations, in the same order, to the edge table and to the aggregated matrices: the endpoint lists with their
  self-loops, the symmetric normalisation weight of every edge, and the two aggregations (gather at the source,
  scale by the weight, scatter-add at the target). What a buffer holds after a list of operations is the fold of the
  operations' results over the initial contents; here each such fold is computed on both sides, and the two
  composed terms are the same expression over the buffers read — they name each program's own copies of the same
  literal shapes and dimension records — so equal inputs give equal results.
-/
import proofs.«120016_j19301583028533_1_alg».proof.Proof.Gen.KernelIdeal.Frame
import proofs.«120016_j19301583028533_1_alg».proof.Proof.RefRun
import Idealize.ShloMosaic.Lib.StableHlo.Run
import Idealize.ShloMosaic.PureOps.Ideal

noncomputable section

namespace Cert.SharedChains

open Idealize.ShloMosaic Idealize.ShloMosaic.TcCoe Idealize.SL.Sem Idealize.ShloMosaic.StableHlo

/-- Rewrites each remaining operation's result, at its own result buffer to its function's value and at any other
    reference to what was there, one rewrite at a time until none applies: for the places a single simplification
    pass does not reach (the operands listed inside a concatenation). -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The edge data -/

attribute [local irreducible] concatenate in
set_option maxRecDepth 8192 in
set_option maxHeartbeats 4000000 in
/-- The source endpoints: row 0 of the edge table with one self-loop per node appended. Both programs slice, flatten and
    concatenate the same way, so from equal edge tables the two lists are equal. -/
theorem edges_agree_v3 (W : Valuation Cert.KernelIdeal.τ Cert.KernelIdeal.sig (Elt Ideal))
    (V : Valuation Cert.ReferenceIdeal.τ Cert.ReferenceIdeal.sig (Elt Ideal))
    (h1 : V (Proc.devRef .tc Cert.ReferenceIdeal.main_arg1) = W (Proc.devRef .tc Cert.KernelIdeal.main_arg1)) :
    StableHlo.after (Cert.ReferenceIdeal.RefRun.opsEdges (F := Ideal)) V (Proc.devRef .tc Cert.ReferenceIdeal.main_v3)
      = StableHlo.after (Cert.KernelIdeal.Gen.hostOps0_2 (F := Ideal))
          (StableHlo.after (Cert.KernelIdeal.Gen.hostOps0_1 (F := Ideal)) (StableHlo.after (Cert.KernelIdeal.Gen.hostOps0 (F := Ideal)) W)) (Proc.devRef .tc Cert.KernelIdeal.main_v3) := by
  after_results
  rw [h1]
  rfl

attribute [local irreducible] concatenate in
set_option maxRecDepth 8192 in
set_option maxHeartbeats 4000000 in
/-- The target endpoints: row 1 of the edge table with the self-loops appended. -/
theorem edges_agree_v6 (W : Valuation Cert.KernelIdeal.τ Cert.KernelIdeal.sig (Elt Ideal))
    (V : Valuation Cert.ReferenceIdeal.τ Cert.ReferenceIdeal.sig (Elt Ideal))
    (h1 : V (Proc.devRef .tc Cert.ReferenceIdeal.main_arg1) = W (Proc.devRef .tc Cert.KernelIdeal.main_arg1)) :
    StableHlo.after (Cert.ReferenceIdeal.RefRun.opsEdges (F := Ideal)) V (Proc.devRef .tc Cert.ReferenceIdeal.main_v6)
      = StableHlo.after (Cert.KernelIdeal.Gen.hostOps0_2 (F := Ideal))
          (StableHlo.after (Cert.KernelIdeal.Gen.hostOps0_1 (F := Ideal)) (StableHlo.after (Cert.KernelIdeal.Gen.hostOps0 (F := Ideal)) W)) (Proc.devRef .tc Cert.KernelIdeal.main_v6) := by
  after_results
  rw [h1]
  rfl

attribute [local irreducible] Host.scatterAdd Host.gather Host.rsqrt concatenate in
set_option maxRecDepth 8192 in
set_option maxHeartbeats 4000000 in
/-- The edge weights: the degree of every node by scatter-adding ones over the targets, its inverse square root where the
    degree is positive and zero elsewhere, gathered at both endpoints of every edge (negative indices wrapped) and
    multiplied. The kernel's program runs this as three consecutive stretches, the reference as one; the operations
    and their order are the same. -/
theorem edges_agree_v29 (W : Valuation Cert.KernelIdeal.τ Cert.KernelIdeal.sig (Elt Ideal))
    (V : Valuation Cert.ReferenceIdeal.τ Cert.ReferenceIdeal.sig (Elt Ideal))
    (h1 : V (Proc.devRef .tc Cert.ReferenceIdeal.main_arg1) = W (Proc.devRef .tc Cert.KernelIdeal.main_arg1)) :
    StableHlo.after (Cert.ReferenceIdeal.RefRun.opsEdges (F := Ideal)) V (Proc.devRef .tc Cert.ReferenceIdeal.main_v29)
      = StableHlo.after (Cert.KernelIdeal.Gen.hostOps0_2 (F := Ideal))
          (StableHlo.after (Cert.KernelIdeal.Gen.hostOps0_1 (F := Ideal)) (StableHlo.after (Cert.KernelIdeal.Gen.hostOps0 (F := Ideal)) W)) (Proc.devRef .tc Cert.KernelIdeal.main_v29) := by
  after_results_simp
  results_rw
  rw [h1]
  rfl

/-! ## The aggregations -/

attribute [local irreducible] Host.scatterAdd Host.gather in
set_option maxRecDepth 8192 in
set_option maxHeartbeats 4000000 in
/-- The first aggregation. Both programs gather the product's row at every edge's source (a negative index wrapped
    by the number of nodes), scale it by the edge weight and scatter-add it into the target's row of a zero matrix:
    the same composition of operations over the same literal shapes, so from equal product, endpoints and weights
    the two results are equal. -/
theorem agg_agree (W : Valuation Cert.KernelIdeal.τ Cert.KernelIdeal.sig (Elt Ideal))
    (V : Valuation Cert.ReferenceIdeal.τ Cert.ReferenceIdeal.sig (Elt Ideal))
    (h30 : V (Proc.devRef .tc Cert.ReferenceIdeal.main_v30) = W (Proc.devRef .tc Cert.KernelIdeal.main_v30))
    (h3 : V (Proc.devRef .tc Cert.ReferenceIdeal.main_v3) = W (Proc.devRef .tc Cert.KernelIdeal.main_v3))
    (h6 : V (Proc.devRef .tc Cert.ReferenceIdeal.main_v6) = W (Proc.devRef .tc Cert.KernelIdeal.main_v6))
    (h29 : V (Proc.devRef .tc Cert.ReferenceIdeal.main_v29) = W (Proc.devRef .tc Cert.KernelIdeal.main_v29)) :
    StableHlo.after (Cert.ReferenceIdeal.RefRun.opsAgg1 (F := Ideal)) V (Proc.devRef .tc Cert.ReferenceIdeal.main_v43)
      = StableHlo.after (Cert.KernelIdeal.Gen.hostOps1 (F := Ideal)) W (Proc.devRef .tc Cert.KernelIdeal.main_v43) := by
  after_results_simp
  rw [h30, h3, h6, h29]
  rfl

attribute [local irreducible] Host.scatterAdd Host.gather in
set_option maxRecDepth 8192 in
set_option maxHeartbeats 4000000 in
/-- The second aggregation and the output bias: as the first over sixty-four columns, then the bias row added to
    every row. -/
theorem tail_agree (W : Valuation Cert.KernelIdeal.τ Cert.KernelIdeal.sig (Elt Ideal))
    (V : Valuation Cert.ReferenceIdeal.τ Cert.ReferenceIdeal.sig (Elt Ideal))
    (h : V (Proc.devRef .tc Cert.ReferenceIdeal.main_v71) = W (Proc.devRef .tc Cert.KernelIdeal.main_v58))
    (h3 : V (Proc.devRef .tc Cert.ReferenceIdeal.main_v3) = W (Proc.devRef .tc Cert.KernelIdeal.main_v3))
    (h6 : V (Proc.devRef .tc Cert.ReferenceIdeal.main_v6) = W (Proc.devRef .tc Cert.KernelIdeal.main_v6))
    (h29 : V (Proc.devRef .tc Cert.ReferenceIdeal.main_v29) = W (Proc.devRef .tc Cert.KernelIdeal.main_v29))
    (h5 : V (Proc.devRef .tc Cert.ReferenceIdeal.main_arg5) = W (Proc.devRef .tc Cert.KernelIdeal.main_arg5)) :
    StableHlo.after (Cert.ReferenceIdeal.RefRun.opsAgg2 (F := Ideal)) V (Proc.devRef .tc Cert.ReferenceIdeal.main_v87)
      = StableHlo.after (Cert.KernelIdeal.Gen.hostOps4 (F := Ideal)) W (Proc.devRef .tc Cert.KernelIdeal.main_v74) := by
  after_results_simp
  rw [h, h3, h6, h29, h5]
  rfl

/-! ## The reference's matrix products -/

/-- The reference's first matrix product: node features times the first weight matrix. -/
theorem ref_dot1 (V : Valuation Cert.ReferenceIdeal.τ Cert.ReferenceIdeal.sig (Elt Ideal)) :
    StableHlo.after (Cert.ReferenceIdeal.RefRun.opsDot1 (F := Ideal)) V (Proc.devRef .tc Cert.ReferenceIdeal.main_v30)
      = Host.dotGeneral (F := Ideal) (φ₁ := .f32) (φ₂ := .f32) Cert.ReferenceIdeal.dot_S50000x128_S128x128_S50000x128_1_0_0_1_n_n none
          (V (Proc.devRef .tc Cert.ReferenceIdeal.main_arg0)) (V (Proc.devRef .tc Cert.ReferenceIdeal.main_arg2)) := by
  after_results_simp

/-- The reference's second matrix product: the activated first layer times the second weight matrix. -/
theorem ref_dot2 (V : Valuation Cert.ReferenceIdeal.τ Cert.ReferenceIdeal.sig (Elt Ideal)) :
    StableHlo.after (Cert.ReferenceIdeal.RefRun.opsDot2 (F := Ideal)) V (Proc.devRef .tc Cert.ReferenceIdeal.main_v71)
      = Host.dotGeneral (F := Ideal) (φ₁ := .f32) (φ₂ := .f32) Cert.ReferenceIdeal.dot_S50000x128_S128x64_S50000x64_1_0_0_1_n_n none
          (V (Proc.devRef .tc Cert.ReferenceIdeal.main_v70)) (V (Proc.devRef .tc Cert.ReferenceIdeal.main_arg4)) := by
  after_results_simp

end Cert.SharedChains

end
-- ==== Proof.FeaturesAgree.lean ====
import proofs.«120016_j19301583028533_1_alg».proof.Proof.KernelRun
import proofs.«120016_j19301583028533_1_alg».proof.Proof.RefBoundaries
import proofs.«120016_j19301583028533_1_alg».proof.Proof.ProductRegions
import proofs.«120016_j19301583028533_1_alg».proof.Proof.SharedChains
/-! # The aggregated first layer agrees in the two programs

Both programs compute the edge lists and edge weights from the edge table, multiply the node features by the first
weight matrix, and aggregate the product over the edges.  One program does the product in a pipelined region and the
rest in host stretches around it; the other does everything in one list of host operations, cut here at the same places.
From equal arguments the two aggregated arrays are equal: the edge data agree, the two products are the same
product of the same launch contents, and the aggregation is the same composition of operations on both sides. -/

noncomputable section

namespace Cert.FeaturesAgree

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## The edge data -/

theorem edge_v3 (c : Dev Cert.KernelIdeal.nD) (hag1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Boundaries.V1 m' c (Proc.devRef .tc Cert.ReferenceIdeal.main_v3) = Cert.KernelIdeal.Gen.W3 m ρ c (Proc.devRef .tc Cert.KernelIdeal.main_v3) :=
  Cert.SharedChains.edges_agree_v3 (Cert.KernelIdeal.Gen.W0 m ρ c) (Cert.ReferenceIdeal.Boundaries.V0 m' c) hag1

theorem edge_v6 (c : Dev Cert.KernelIdeal.nD) (hag1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Boundaries.V1 m' c (Proc.devRef .tc Cert.ReferenceIdeal.main_v6) = Cert.KernelIdeal.Gen.W3 m ρ c (Proc.devRef .tc Cert.KernelIdeal.main_v6) :=
  Cert.SharedChains.edges_agree_v6 (Cert.KernelIdeal.Gen.W0 m ρ c) (Cert.ReferenceIdeal.Boundaries.V0 m' c) hag1

theorem edge_v29 (c : Dev Cert.KernelIdeal.nD) (hag1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Boundaries.V1 m' c (Proc.devRef .tc Cert.ReferenceIdeal.main_v29) = Cert.KernelIdeal.Gen.W3 m ρ c (Proc.devRef .tc Cert.KernelIdeal.main_v29) :=
  Cert.SharedChains.edges_agree_v29 (Cert.KernelIdeal.Gen.W0 m ρ c) (Cert.ReferenceIdeal.Boundaries.V0 m' c) hag1

/-! ## The first product and its aggregation -/

/-- The two first products are equal: each is the host's product of the launch contents of the node features and the
    first weight matrix. -/
theorem product_agree (c : Dev Cert.KernelIdeal.nD) (hag0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hag2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Boundaries.V2 m' c (Proc.devRef .tc Cert.ReferenceIdeal.main_v30) = Cert.KernelIdeal.Gen.W4 m ρ c (Proc.devRef .tc Cert.KernelIdeal.main_v30) := by
  refine (Cert.SharedChains.ref_dot1 (Cert.ReferenceIdeal.Boundaries.V1 m' c)).trans ?_
  rw [Cert.ReferenceIdeal.Boundaries.V1_keep m' c Cert.ReferenceIdeal.main_arg0 (by decide), Cert.ReferenceIdeal.Boundaries.V1_keep m' c Cert.ReferenceIdeal.main_arg2 (by decide), hag0, hag2]
  refine Eq.symm ((Cert.KernelIdeal.KernelRun.W4_main_v30 m ρ c).trans ?_)
  refine (Cert.KernelIdeal.ProductRegions.first_product (Cert.KernelIdeal.Gen.V3 m ρ) c).trans ?_
  rw [Cert.KernelIdeal.KernelRun.V3_main_arg0 m ρ c, Cert.KernelIdeal.KernelRun.V3_main_arg2 m ρ c]

/-- The aggregated first layer is the same array in the two programs. -/
theorem features_agree (c : Dev Cert.KernelIdeal.nD) (hag0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hag1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (hag2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Boundaries.V3 m' c (Proc.devRef .tc Cert.ReferenceIdeal.main_v43) = Cert.KernelIdeal.Gen.W5 m ρ c (Proc.devRef .tc Cert.KernelIdeal.main_v43) :=
  Cert.SharedChains.agg_agree (Cert.KernelIdeal.Gen.W4 m ρ c) (Cert.ReferenceIdeal.Boundaries.V2 m' c) (product_agree m ρ m' c hag0 hag2)
    ((Cert.ReferenceIdeal.Boundaries.V2_of_V1 m' c Cert.ReferenceIdeal.main_v3 (by decide)).trans ((edge_v3 m ρ m' c hag1).trans (Cert.KernelIdeal.KernelRun.W4_main_v3 m ρ c).symm))
    ((Cert.ReferenceIdeal.Boundaries.V2_of_V1 m' c Cert.ReferenceIdeal.main_v6 (by decide)).trans ((edge_v6 m ρ m' c hag1).trans (Cert.KernelIdeal.KernelRun.W4_main_v6 m ρ c).symm))
    ((Cert.ReferenceIdeal.Boundaries.V2_of_V1 m' c Cert.ReferenceIdeal.main_v29 (by decide)).trans ((edge_v29 m ρ m' c hag1).trans (Cert.KernelIdeal.KernelRun.W4_main_v29 m ρ c).symm))

end Cert.FeaturesAgree

end
-- ==== Proof.ActivationSpec.lean ====
import Idealize.ShloMosaic.PureOps.Ideal
import Idealize.ShloMosaic.PureOps.Ideal.Laws
import Idealize.ShloMosaic.Lib.ValueIdx

/-! # Batch normalisation followed by a parametric rectifier, on one entry

Both programs apply, entry by entry, the same chain to an aggregated feature `h`: centre it at the column's
mean `mu`, scale by the reciprocal square root of the column's variance `var` plus a small constant, multiply
by the column's gain `g`, add the column's offset `b`, and finally keep a positive value as it is and multiply
a non-positive one by the slope `a`.  On the extended reals every one of these steps is exact, so the chain is
ONE function of six extended reals; it is stated here once, with the operations in the order and association
both programs use, so that each side reduces to it without any algebra. -/

noncomputable section

namespace Cert.ActivationSpec

open Idealize.ShloMosaic

/-- The affine part: `((h - mu) · (var + ε)^(-1/2)) · g + b`, with `ε` the single-precision word nearest `1e-5`
    read as the extended real it denotes. -/
def bnLin (h mu var g b : EReal) : EReal :=
  (h - mu) * Ideal.rsqrt (var + Ideal.ofBits .f32 0x3727C5AC#32) * g + b

/-- The rectifier with slope `a`: `x` where `x` exceeds zero, `a · x` elsewhere.  The comparison is the one-bit
    word of `0 < x` on the linear order of the extended reals, and the choice is made on that word. -/
def prelu (a x : EReal) : EReal :=
  Scalar.select (Ideal.cmp .ogt x (Ideal.ofBits .f32 0x00000000#32)) x (a * x)

/-- The whole chain on one entry. -/
def bnAct (h mu var g b a : EReal) : EReal :=
  prelu a (bnLin h mu var g b)

/-- The rectifier as a case distinction on the sign. -/
theorem prelu_eq (a x : EReal) : prelu a x = if 0 < x then x else a * x := by
  show (if BitVec.ofBool (decide (Ideal.ofBits .f32 0x00000000#32 < x)) = 1 then x else a * x) = _
  rw [Ideal.ofBits_zero_f32]
  by_cases h : (0 : EReal) < x
  · simp [h]
  · simp [h]

end Cert.ActivationSpec

end
-- ==== Proof.ActivationRef.lean ====
import proofs.«120016_j19301583028533_1_alg».proof.Proof.Gen.ReferenceIdeal
import proofs.«120016_j19301583028533_1_alg».proof.Proof.ActivationSpec
import Idealize.ShloMosaic.Lib.IdealHost
import Idealize.ShloMosaic.Lib.KernelVsHost
import Idealize.ShloMosaic.Lib.Pipeline.Value

/-! # The reference's normalisation and rectifier, entry by entry

After the first aggregation the reference holds a [50000, 128] array `h` and five per-column quantities: the
column means `mu`, the column variances `var`, the gains `g`, the offsets `be` (each a vector of 128 entries)
and one slope `a` (a scalar).  It lays each vector along every row (first as a one-row matrix, then down the
50000 rows), lays the scalars over whole arrays, and combines them entry by entry.  Since every laying-out
only repeats a value, entry (r, j) of the result depends on `h` at (r, j), on the four vectors at `j`, and on the
slope: it is the shared one-entry function of those six numbers. -/

noncomputable section

namespace Cert.ReferenceIdeal.Activation

open Idealize.ShloMosaic Idealize.ShloMosaic.ValueIdx
open Cert.ReferenceIdeal Cert.ReferenceIdeal.Facts₀

/-- The reference's operations from the centring to the final choice, composed in the printed order over the
    printed shape records, as a function of the six operands. -/
def refAct (h : FVec Ideal S50000x128 .f32) (mu var g be : FVec Ideal S128 .f32) (a : FVec Ideal S_ .f32) :
    FVec Ideal S50000x128 .f32 :=
  let v51 : FVec Ideal S1x128 .f32 := broadcastInDim S1x128 ![1] bcast_S128_S1x128_1 mu
  let v52 : FVec Ideal S50000x128 .f32 := broadcastInDim S50000x128 ![0, 1] bcast_S1x128_S50000x128_0_1 v51
  let v53 : FVec Ideal S50000x128 .f32 := subf h v52
  let v54 : FVec Ideal S128 .f32 := broadcastInDim S128 ![] bcast_S_S128 (constant (F := Ideal) S_ .f32 0x3727C5AC#32)
  let v55 : FVec Ideal S128 .f32 := addf var v54
  let v56 : FVec Ideal S128 .f32 := Host.rsqrt v55
  let v57 : FVec Ideal S1x128 .f32 := broadcastInDim S1x128 ![1] bcast_S128_S1x128_1 v56
  let v58 : FVec Ideal S50000x128 .f32 := broadcastInDim S50000x128 ![0, 1] bcast_S1x128_S50000x128_0_1 v57
  let v59 : FVec Ideal S50000x128 .f32 := mulf v53 v58
  let v60 : FVec Ideal S1x128 .f32 := broadcastInDim S1x128 ![1] bcast_S128_S1x128_1 g
  let v61 : FVec Ideal S50000x128 .f32 := broadcastInDim S50000x128 ![0, 1] bcast_S1x128_S50000x128_0_1 v60
  let v62 : FVec Ideal S50000x128 .f32 := mulf v59 v61
  let v63 : FVec Ideal S1x128 .f32 := broadcastInDim S1x128 ![1] bcast_S128_S1x128_1 be
  let v64 : FVec Ideal S50000x128 .f32 := broadcastInDim S50000x128 ![0, 1] bcast_S1x128_S50000x128_0_1 v63
  let v65 : FVec Ideal S50000x128 .f32 := addf v62 v64
  let v66 : FVec Ideal S50000x128 .f32 := broadcastInDim S50000x128 ![] bcast_S_S50000x128 (constant (F := Ideal) S_ .f32 0x00000000#32)
  let v67 : IVec S50000x128 1 := cmpf .ogt v65 v66
  let v68 : FVec Ideal S50000x128 .f32 := broadcastInDim S50000x128 ![] bcast_S_S50000x128 a
  let v69 : FVec Ideal S50000x128 .f32 := mulf v68 v65
  select v67 v65 v69

/-- A vector of 128 entries laid out as one row and then repeated down 50000 rows reads, at (r, j), its entry `j`. -/
theorem rows_apply (hb1 : S128.BroadcastsInDim S1x128 ![1]) (hb2 : S1x128.BroadcastsInDim S50000x128 ![0, 1])
    (x : FVec Ideal S128 .f32) (r : Fin 50000) (j : Fin 128) :
    broadcastInDim S50000x128 ![0, 1] hb2 (broadcastInDim S1x128 ![1] hb1 x) (ix2 r j) = x (ix1 j) := by
  refine (broadcastInDim_oneRow_apply hb2 _ r j).trans ?_
  refine broadcastInDim_apply ![1] hb1 x (ix2 (0 : Fin 1) j) (ix1 j) fun ax => ?_
  match ax with
  | ⟨0, _⟩ => rfl

/-- Entry (r, j) of the reference's chain is the one-entry function of `h` at (r, j), the four vectors at `j` and
    the slope. -/
theorem refAct_apply (h : FVec Ideal S50000x128 .f32) (mu var g be : FVec Ideal S128 .f32) (a : FVec Ideal S_ .f32)
    (r : Fin 50000) (j : Fin 128) :
    refAct h mu var g be a (ix2 r j)
      = Cert.ActivationSpec.bnAct (h (ix2 r j)) (mu (ix1 j)) (var (ix1 j)) (g (ix1 j)) (be (ix1 j)) (a ix0) := by
  unfold refAct
  simp only [select_apply, cmpf_apply, mulf_apply, addf_apply, subf_apply]
  rw [rows_apply _ _ mu r j, rows_apply _ _ g r j, rows_apply _ _ be r j, rows_apply _ _ _ r j,
    broadcastInDim_scalar_apply _ a (ix2 r j), broadcastInDim_scalar_apply _ _ (ix2 r j), constant_apply]
  simp only [Host.rsqrt, addf_apply]
  rw [broadcastInDim_scalar_apply _ _ (ix1 j), constant_apply]
  rfl

end Cert.ReferenceIdeal.Activation

end
-- ==== Proof.MomentLaws.lean ====
/- The algebra of batch statistics over the extended reals.

   A column of finitely many REAL values, read as extended reals, has a mean and a variance that do not
   depend on whether a real bias is added before or after the statistics are taken: the mean moves by the
   bias and the variance does not move at all; and the variance is the mean of the squares minus the
   square of the mean.  Over the extended reals these identities fail at the infinities (no cancellation),
   so every statement below assumes that the values and the bias are reals, and that the divisor is the
   (nonzero) number of values. -/
import Idealize.ShloMosaic.PureOps.Ideal
import Idealize.ShloMosaic.PureOps.Ideal.Laws

noncomputable section

namespace Cert.MomentLaws

open Idealize.ShloMosaic
open scoped BigOperators

/-! ### Reals inside the extended reals are closed under the field operations -/

/-- A finite sum of reals, summed in the extended reals, is the real sum. -/
theorem sum_coe_finset {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

theorem sum_coe {ι : Type*} [Fintype ι] (f : ι → ℝ) :
    (∑ i, ((f i : ℝ) : EReal)) = ((∑ i, f i : ℝ) : EReal) :=
  sum_coe_finset Finset.univ f

theorem sum_real_of_real {ι : Type*} [Fintype ι] {g : ι → EReal} (hg : ∀ i, ∃ x : ℝ, g i = (x : EReal)) :
    ∃ y : ℝ, ∑ i, g i = (y : EReal) := by
  choose x hx using hg
  exact ⟨∑ i, x i, by simp only [hx, sum_coe]⟩

theorem real_add {a b : EReal} (ha : ∃ x : ℝ, a = (x : EReal)) (hb : ∃ y : ℝ, b = (y : EReal)) :
    ∃ z : ℝ, a + b = (z : EReal) := by
  obtain ⟨x, rfl⟩ := ha; obtain ⟨y, rfl⟩ := hb
  exact ⟨x + y, (EReal.coe_add x y).symm⟩

theorem real_mul {a b : EReal} (ha : ∃ x : ℝ, a = (x : EReal)) (hb : ∃ y : ℝ, b = (y : EReal)) :
    ∃ z : ℝ, a * b = (z : EReal) := by
  obtain ⟨x, rfl⟩ := ha; obtain ⟨y, rfl⟩ := hb
  exact ⟨x * y, (EReal.coe_mul x y).symm⟩

theorem real_sub {a b : EReal} (ha : ∃ x : ℝ, a = (x : EReal)) (hb : ∃ y : ℝ, b = (y : EReal)) :
    ∃ z : ℝ, a - b = (z : EReal) := by
  obtain ⟨x, rfl⟩ := ha; obtain ⟨y, rfl⟩ := hb
  exact ⟨x - y, (EReal.coe_sub x y).symm⟩

/-- The quotient of a real by a nonzero real is the real quotient. -/
theorem div_real (x : ℝ) {N : ℝ} (hN0 : N ≠ 0) :
    Ideal.div (x : EReal) (N : EReal) = ((x * (1 / N) : ℝ) : EReal) := by
  rw [Ideal.div_coe hN0, ← EReal.coe_mul]

theorem real_div {a : EReal} (ha : ∃ x : ℝ, a = (x : EReal)) {N : ℝ} (hN0 : N ≠ 0) :
    ∃ z : ℝ, Ideal.div a (N : EReal) = (z : EReal) := by
  obtain ⟨x, rfl⟩ := ha
  exact ⟨x * (1 / N), div_real x hN0⟩

/-! ### Mean and variance, with the bias before or after -/

section Moments

variable {ι : Type*} [Fintype ι]

/-- The real identity behind the mean: adding y to each of N values adds N·y to their sum. -/
theorem real_sum_shift (x : ι → ℝ) (y : ℝ) {N : ℝ} (hN : N = (Fintype.card ι : ℝ)) :
    ∑ i, (x i + y) = ∑ i, x i + N * y := by
  rw [Finset.sum_add_distrib, Finset.sum_const, Finset.card_univ, nsmul_eq_mul, hN]

/-- The real identity behind the mean: the mean of the shifted values is the shifted mean. -/
theorem real_shifted_mean (x : ι → ℝ) (y : ℝ) {N : ℝ} (hN : N = (Fintype.card ι : ℝ)) (hN0 : N ≠ 0) :
    (∑ i, x i) * (1 / N) + y = (∑ i, (x i + y)) * (1 / N) := by
  rw [real_sum_shift x y hN]; field_simp

/-- The real identity behind the variance: the mean square deviation of the shifted values from their
    own mean is the mean of the squares of the unshifted values minus the square of their mean. -/
theorem real_variance_forms (x : ι → ℝ) (y : ℝ) {N : ℝ} (hN : N = (Fintype.card ι : ℝ)) (hN0 : N ≠ 0) :
    (∑ i, x i * x i) * (1 / N) - (∑ i, x i) * (1 / N) * ((∑ i, x i) * (1 / N))
      = (∑ i, ((x i + y) - (∑ k, (x k + y)) * (1 / N)) * ((x i + y) - (∑ k, (x k + y)) * (1 / N))) * (1 / N) := by
  rw [← real_shifted_mean x y hN hN0]
  have h : ∀ i, ((x i + y) - ((∑ k, x k) * (1 / N) + y)) * ((x i + y) - ((∑ k, x k) * (1 / N) + y))
      = x i * x i - 2 * ((∑ k, x k) * (1 / N)) * x i + ((∑ k, x k) * (1 / N)) * ((∑ k, x k) * (1 / N)) := by
    intro i; ring
  simp only [h]
  rw [Finset.sum_add_distrib, Finset.sum_sub_distrib, ← Finset.mul_sum, Finset.sum_const, Finset.card_univ,
    nsmul_eq_mul, ← hN]
  field_simp
  ring

variable (a : ι → EReal) (b : EReal) (N : ℝ)

/-- Taking the mean and then adding the bias is adding the bias and then taking the mean. -/
theorem shifted_mean (ha : ∀ i, ∃ x : ℝ, a i = (x : EReal)) (hb : ∃ y : ℝ, b = (y : EReal))
    (hN : N = (Fintype.card ι : ℝ)) (hN0 : N ≠ 0) :
    Ideal.div (∑ i, a i) (N : EReal) + b = Ideal.div (0 + ∑ i, (a i + b)) (N : EReal) := by
  choose x hx using ha
  obtain ⟨y, rfl⟩ := hb
  simp only [hx, zero_add, ← EReal.coe_add, sum_coe, div_real _ hN0]
  rw [real_shifted_mean x y hN hN0]

/-- Each value's deviation from the mean is the same whichever way the mean was shifted. -/
theorem centred (ha : ∀ i, ∃ x : ℝ, a i = (x : EReal)) (hb : ∃ y : ℝ, b = (y : EReal))
    (hN : N = (Fintype.card ι : ℝ)) (hN0 : N ≠ 0) (i : ι) :
    (a i + b) - (Ideal.div (∑ k, a k) (N : EReal) + b)
      = (a i + b) - Ideal.div (0 + ∑ k, (a k + b)) (N : EReal) := by
  rw [shifted_mean a b N ha hb hN hN0]

/-- Mean of squares minus squared mean of the unshifted values is the mean square deviation of the
    shifted values from their own mean. -/
theorem variance_forms (ha : ∀ i, ∃ x : ℝ, a i = (x : EReal)) (hb : ∃ y : ℝ, b = (y : EReal))
    (hN : N = (Fintype.card ι : ℝ)) (hN0 : N ≠ 0) :
    Ideal.div (∑ i, a i * a i) (N : EReal) - Ideal.div (∑ i, a i) (N : EReal) * Ideal.div (∑ i, a i) (N : EReal)
      = Ideal.div (0 + ∑ i, ((a i + b) - Ideal.div (0 + ∑ k, (a k + b)) (N : EReal))
                            * ((a i + b) - Ideal.div (0 + ∑ k, (a k + b)) (N : EReal)))
          ((N : EReal) - 0) := by
  choose x hx using ha
  obtain ⟨y, rfl⟩ := hb
  simp only [hx, zero_add, sub_zero, ← EReal.coe_add, ← EReal.coe_mul, ← EReal.coe_sub, sum_coe, div_real _ hN0]
  rw [real_variance_forms x y hN hN0]

end Moments

/-! ### Two constants and the inverse square root -/

/-- The single-precision word 0x47435000 is (2^23 + 4411392) · 2^(142 − 150) = 50000. -/
theorem ofBits_50000 : Ideal.ofBits .f32 0x47435000#32 = ((50000 : ℝ) : EReal) := by
  simp [Ideal.ofBits, Ideal.ieee, -EReal.coe_mul]; norm_num

theorem ofBits_zero : Ideal.ofBits .f32 0x00000000#32 = 0 := by
  simp [Ideal.ofBits, Ideal.ieee]

/-- The inverse square root of a positive real is a real. -/
theorem rsqrt_pos_real (x : ℝ) (hx : 0 < x) : ∃ y : ℝ, Ideal.rsqrt (x : EReal) = (y : EReal) := by
  refine ⟨(Real.sqrt x)⁻¹, ?_⟩
  rw [Ideal.rsqrt_coe, if_neg (not_lt.mpr hx.le), if_neg hx.ne']

end Cert.MomentLaws

end
-- ==== Proof.RefNorm.lean ====
/- The reference's normalisation segment read back: what its operations leave in the biased features, the column means,
   the column variances and the segment's result, as the printed operations composed; and each of them read at an
   index as sums over a column's 50000 entries. -/
import proofs.«120016_j19301583028533_1_alg».proof.Proof.RefRunMain
import proofs.«120016_j19301583028533_1_alg».proof.Proof.ActivationRef
import proofs.«120016_j19301583028533_1_alg».proof.Proof.MomentLaws
import Idealize.ShloMosaic.PureOps.Ideal.Laws
import Idealize.ShloMosaic.Lib.ValueIdx
import Idealize.ShloMosaic.Lib.IdealHost

noncomputable section

namespace Cert.ReferenceIdeal.RefNorm

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun
open scoped BigOperators

/-! ## The three intermediate arrays, as the printed operations composed -/

/-- The aggregated features with the bias row added to every row. -/
def hidden (A : FVec Ideal S50000x128 .f32) (b : FVec Ideal S128 .f32) : FVec Ideal S50000x128 .f32 :=
  addf A (broadcastInDim S50000x128 ![0, 1] bcast_S1x128_S50000x128_0_1 (broadcastInDim S1x128 ![1] bcast_S128_S1x128_1 b))

/-- The column means: each column's sum from zero, divided by the number of rows. -/
def colMean (H : FVec Ideal S50000x128 .f32) : FVec Ideal S128 .f32 :=
  Host.divf (Host.reduceAdd H (constant (F := Ideal) S_ .f32 0x00000000#32) reducesTo_S50000x128_S128_d0 h_S_)
    (broadcastInDim S128 ![] bcast_S_S128 (constant (F := Ideal) S_ .f32 0x47435000#32))

/-- The column variances as the called function computes them: the mean again (laid out as one row), the squared
    deviations from it, their column sums from zero divided by the number of rows less the correction (the integer
    zero, converted), and not-a-number in place of the quotient unless that divisor is positive. -/
def colVar (H : FVec Ideal S50000x128 .f32) : FVec Ideal S128 .f32 :=
  let v0 : FVec Ideal S128 .f32 := Host.reduceAdd H (constant (F := Ideal) S_ .f32 0x00000000#32) reducesTo_S50000x128_S128_d0 h_S_
  let v1 : FVec Ideal S1x128 .f32 := broadcastInDim S1x128 ![1] bcast_S128_S1x128_1 v0
  let v2 : FVec Ideal S1x128 .f32 := broadcastInDim S1x128 ![] bcast_S_S1x128 (constant (F := Ideal) S_ .f32 0x47435000#32)
  let v3 : FVec Ideal S1x128 .f32 := Host.divf v1 v2
  let v4 : FVec Ideal S50000x128 .f32 := broadcastInDim S50000x128 ![0, 1] bcast_S1x128_S50000x128_0_1 v3
  let v5 : FVec Ideal S50000x128 .f32 := subf H v4
  let v6 : FVec Ideal S50000x128 .f32 := mulf v5 v5
  let v7 : FVec Ideal S_ .f32 := sitofp .f32 (constantI S_ 32 0#32)
  let v8 : FVec Ideal S_ .f32 := subf (constant (F := Ideal) S_ .f32 0x47435000#32) v7
  let v9 : FVec Ideal S128 .f32 := Host.reduceAdd v6 (constant (F := Ideal) S_ .f32 0x00000000#32) reducesTo_S50000x128_S128_d0 h_S_
  let v10 : FVec Ideal S128 .f32 := broadcastInDim S128 ![] bcast_S_S128 v8
  let v11 : FVec Ideal S128 .f32 := Host.divf v9 v10
  let v12 : IVec S_ 1 := cmpf .ogt v8 (constant (F := Ideal) S_ .f32 0x00000000#32)
  let w1 : FVec Ideal S128 .f32 := broadcastInDim S128 ![] bcast_S_S128 (constant (F := Ideal) S_ .f32 0x7FC00000#32)
  select (broadcastInDim S128 ![] bcast_S_S128 v12) v11 w1

/-! ## The segment's buffers as those arrays -/

set_option maxHeartbeats 2000000 in
/-- After the segment the biased features' buffer holds `hidden` of the aggregated features and the bias. -/
theorem v46_value (V : Valuation τ sig (Elt Ideal)) :
    after (opsNorm (F := Ideal)) V (Proc.devRef .tc main_v46)
      = hidden (V (Proc.devRef .tc main_v43)) (V (Proc.devRef .tc main_arg3)) := by
  simp only [opsNorm]
  after_results_simp
  rfl

set_option maxHeartbeats 2000000 in
/-- … the column means' buffer holds `colMean` of it. -/
theorem v49_value (V : Valuation τ sig (Elt Ideal)) :
    after (opsNorm (F := Ideal)) V (Proc.devRef .tc main_v49)
      = colMean (hidden (V (Proc.devRef .tc main_v43)) (V (Proc.devRef .tc main_arg3))) := by
  simp only [opsNorm]
  after_results_simp
  rfl

set_option maxHeartbeats 2000000 in
/-- … the column variances' buffer holds `colVar` of it. -/
theorem v50_value (V : Valuation τ sig (Elt Ideal)) :
    after (opsNorm (F := Ideal)) V (Proc.devRef .tc main_v50)
      = colVar (hidden (V (Proc.devRef .tc main_v43)) (V (Proc.devRef .tc main_arg3))) := by
  simp only [opsNorm]
  after_results_simp
  rfl

set_option maxHeartbeats 4000000 in
/-- … and the segment's result buffer holds the normalisation and rectifier chain of the three, the gain row, the offset
    row and the slope. -/
theorem norm_value (V : Valuation τ sig (Elt Ideal)) :
    after (opsNorm (F := Ideal)) V (Proc.devRef .tc main_v70)
      = Cert.ReferenceIdeal.Activation.refAct (hidden (V (Proc.devRef .tc main_v43)) (V (Proc.devRef .tc main_arg3)))
          (colMean (hidden (V (Proc.devRef .tc main_v43)) (V (Proc.devRef .tc main_arg3))))
          (colVar (hidden (V (Proc.devRef .tc main_v43)) (V (Proc.devRef .tc main_arg3))))
          (V (Proc.devRef .tc main_arg6)) (V (Proc.devRef .tc main_arg7)) (V (Proc.devRef .tc main_arg8)) := by
  simp only [opsNorm]
  after_results_simp
  rfl

/-! ## Read at an index -/

/-- Entry (r, j) of the biased features: the aggregated entry plus the bias of column j. -/
theorem hidden_apply (A : FVec Ideal S50000x128 .f32) (b : FVec Ideal S128 .f32) (r : Fin 50000) (j : Fin 128) :
    hidden A b (ix2 r j) = A (ix2 r j) + b (ix1 j) := by
  unfold hidden
  rw [addf_apply, Cert.ReferenceIdeal.Activation.rows_apply _ _ b r j]

/-- A column's sum from the zero word: zero plus the sum of the column's 50000 entries. -/
theorem colSum_apply (X : FVec Ideal S50000x128 .f32) (j : Fin 128) :
    Host.reduceAdd X (constant (F := Ideal) S_ .f32 0x00000000#32) reducesTo_S50000x128_S128_d0 h_S_ (ix1 j)
      = 0 + ∑ r : Fin 50000, X (ix2 r j) := by
  have h : S50000x128.Reduces [0] S128 := by decide
  rw [hostReduceAdd_apply, constant_apply, Ideal.ofBits_zero_f32, Ideal.hostReduceAdd_single _ h]
  refine congrArg (fun s : EReal => 0 + s) (Finset.sum_congr rfl fun k _ => congrArg X (funext fun c => ?_))
  match c with
  | ⟨0, _⟩ => exact Fin.ext rfl
  | ⟨1, _⟩ => exact Fin.ext rfl

/-- The column means at column j. -/
theorem colMean_apply (H : FVec Ideal S50000x128 .f32) (j : Fin 128) :
    colMean H (ix1 j) = Ideal.div (0 + ∑ r : Fin 50000, H (ix2 r j)) (Ideal.ofBits .f32 0x47435000#32) := by
  unfold colMean
  rw [hostDivf_apply, colSum_apply, broadcastInDim_scalar_apply _ _ (ix1 j), constant_apply]

/-- A vector of 128 entries laid out as one row reads, at (0, j), its entry j. -/
theorem oneRow_apply (x : FVec Ideal S128 .f32) (j : Fin 128) :
    broadcastInDim S1x128 ![1] bcast_S128_S1x128_1 x (ix2 (0 : Fin 1) j) = x (ix1 j) := by
  refine broadcastInDim_apply ![1] bcast_S128_S1x128_1 x (ix2 (0 : Fin 1) j) (ix1 j) fun ax => ?_
  match ax with
  | ⟨0, _⟩ => rfl

/-- The column sums laid out as one row read, at (0, j), column j's sum. -/
theorem sumRow_apply (H : FVec Ideal S50000x128 .f32) (j : Fin 128) :
    broadcastInDim S1x128 ![1] bcast_S128_S1x128_1
        (Host.reduceAdd H (constant (F := Ideal) S_ .f32 0x00000000#32) reducesTo_S50000x128_S128_d0 h_S_) (ix2 (0 : Fin 1) j)
      = 0 + ∑ r' : Fin 50000, H (ix2 r' j) := by
  rw [oneRow_apply, colSum_apply]

/-- The mean computed inside the called function — the column sums laid out as one row, divided by the count laid out as
    one row, then repeated down the rows — reads at (r, j) the same quotient as the column mean at j. -/
theorem meanRows_apply (H : FVec Ideal S50000x128 .f32) (r : Fin 50000) (j : Fin 128) :
    broadcastInDim S50000x128 ![0, 1] bcast_S1x128_S50000x128_0_1
        (Host.divf
          (broadcastInDim S1x128 ![1] bcast_S128_S1x128_1
            (Host.reduceAdd H (constant (F := Ideal) S_ .f32 0x00000000#32) reducesTo_S50000x128_S128_d0 h_S_))
          (broadcastInDim S1x128 ![] bcast_S_S1x128 (constant (F := Ideal) S_ .f32 0x47435000#32))) (ix2 r j)
      = Ideal.div (0 + ∑ r' : Fin 50000, H (ix2 r' j)) (Ideal.ofBits .f32 0x47435000#32) := by
  rw [broadcastInDim_oneRow_apply bcast_S1x128_S50000x128_0_1 _ r j, hostDivf_apply, sumRow_apply,
    broadcastInDim_scalar_apply _ _ (ix2 (0 : Fin 1) j), constant_apply]

/-- The integer zero converted to a float is zero. -/
theorem sitofp_zero : FloatOps.sitofp (F := Ideal) .f32 (constantI S_ 32 0#32 ix0) = 0 := by
  show (((0#32 : BitVec 32).toInt : ℝ) : EReal) = 0
  simp

/-- The divisor, the count less zero, exceeds zero: the comparison's bit is one. -/
theorem divisor_pos :
    FloatOps.cmpf (F := Ideal) .ogt (Ideal.ofBits .f32 0x47435000#32 - 0) (Ideal.ofBits .f32 0x00000000#32) = 1#1 := by
  show BitVec.ofBool (decide (Ideal.ofBits .f32 0x00000000#32 < Ideal.ofBits .f32 0x47435000#32 - 0)) = 1#1
  rw [Ideal.ofBits_zero_f32, Cert.MomentLaws.ofBits_50000, sub_zero]
  have h : (0 : EReal) < ((50000 : ℝ) : EReal) := by exact_mod_cast (by norm_num : (0 : ℝ) < 50000)
  simp [h]

/-- The column variances at column j: the sum of the squared deviations from the column's mean, from zero, divided by the
    count less zero. -/
theorem colVar_apply (H : FVec Ideal S50000x128 .f32) (j : Fin 128) :
    colVar H (ix1 j)
      = Ideal.div (0 + ∑ r : Fin 50000,
            (H (ix2 r j) - Ideal.div (0 + ∑ r' : Fin 50000, H (ix2 r' j)) (Ideal.ofBits .f32 0x47435000#32))
              * (H (ix2 r j) - Ideal.div (0 + ∑ r' : Fin 50000, H (ix2 r' j)) (Ideal.ofBits .f32 0x47435000#32)))
          (Ideal.ofBits .f32 0x47435000#32 - 0) := by
  unfold colVar
  simp only [select_apply, hostDivf_apply, colSum_apply, mulf_apply, subf_apply]
  rw [broadcastInDim_scalar_apply _ _ (ix1 j), broadcastInDim_scalar_apply _ _ (ix1 j), cmpf_apply, subf_apply,
    constant_apply, constant_apply, sitofp_apply, sitofp_zero, divisor_pos, select_one]
  refine congrArg (fun s : EReal => Ideal.div (0 + s) (Ideal.ofBits .f32 0x47435000#32 - 0))
    (Finset.sum_congr rfl fun r _ => ?_)
  rw [meanRows_apply H r j]

/-! ## The segment's result at an index -/

/-- Entry (r, j) of the chain applied to the biased features, their column means and variances: the one-entry chain of the
    biased entry, the biased column's mean and variance written as sums, the gain and offset of column j, and the slope. -/
theorem normOf_apply (A : FVec Ideal S50000x128 .f32) (b g be : FVec Ideal S128 .f32) (a : FVec Ideal S_ .f32)
    (r : Fin 50000) (j : Fin 128) :
    Cert.ReferenceIdeal.Activation.refAct (hidden A b) (colMean (hidden A b)) (colVar (hidden A b)) g be a (ix2 r j)
      = Cert.ActivationSpec.bnAct
          (A (ix2 r j) + b (ix1 j))
          (Ideal.div (0 + ∑ r' : Fin 50000, (A (ix2 r' j) + b (ix1 j))) (Ideal.ofBits .f32 0x47435000#32))
          (Ideal.div (0 + ∑ r' : Fin 50000,
              ((A (ix2 r' j) + b (ix1 j))
                  - Ideal.div (0 + ∑ r'' : Fin 50000, (A (ix2 r'' j) + b (ix1 j))) (Ideal.ofBits .f32 0x47435000#32))
                * ((A (ix2 r' j) + b (ix1 j))
                  - Ideal.div (0 + ∑ r'' : Fin 50000, (A (ix2 r'' j) + b (ix1 j))) (Ideal.ofBits .f32 0x47435000#32)))
            (Ideal.ofBits .f32 0x47435000#32 - 0))
          (g (ix1 j)) (be (ix1 j)) (a ix0) := by
  rw [Cert.ReferenceIdeal.Activation.refAct_apply, colMean_apply, colVar_apply]
  simp only [hidden_apply]

/-- The valuation's contents at the segment's five inputs, at their tensor types. -/
abbrev aggOf (V : Valuation τ sig (Elt Ideal)) : FVec Ideal S50000x128 .f32 := V (Proc.devRef .tc main_v43)
@[inherit_doc aggOf] abbrev biasOf (V : Valuation τ sig (Elt Ideal)) : FVec Ideal S128 .f32 := V (Proc.devRef .tc main_arg3)
@[inherit_doc aggOf] abbrev gainOf (V : Valuation τ sig (Elt Ideal)) : FVec Ideal S128 .f32 := V (Proc.devRef .tc main_arg6)
@[inherit_doc aggOf] abbrev offsetOf (V : Valuation τ sig (Elt Ideal)) : FVec Ideal S128 .f32 := V (Proc.devRef .tc main_arg7)
@[inherit_doc aggOf] abbrev slopeOf (V : Valuation τ sig (Elt Ideal)) : FVec Ideal S_ .f32 := V (Proc.devRef .tc main_arg8)

/-- Entry (r, j) of what the normalisation segment leaves in its result buffer. -/
theorem norm_apply (V : Valuation τ sig (Elt Ideal)) (r : Fin 50000) (j : Fin 128) :
    after (opsNorm (F := Ideal)) V (Proc.devRef .tc main_v70) (ix2 r j)
      = Cert.ActivationSpec.bnAct
          (aggOf V (ix2 r j) + biasOf V (ix1 j))
          (Ideal.div (0 + ∑ r' : Fin 50000, (aggOf V (ix2 r' j) + biasOf V (ix1 j))) (Ideal.ofBits .f32 0x47435000#32))
          (Ideal.div (0 + ∑ r' : Fin 50000,
              ((aggOf V (ix2 r' j) + biasOf V (ix1 j))
                  - Ideal.div (0 + ∑ r'' : Fin 50000, (aggOf V (ix2 r'' j) + biasOf V (ix1 j))) (Ideal.ofBits .f32 0x47435000#32))
                * ((aggOf V (ix2 r' j) + biasOf V (ix1 j))
                  - Ideal.div (0 + ∑ r'' : Fin 50000, (aggOf V (ix2 r'' j) + biasOf V (ix1 j))) (Ideal.ofBits .f32 0x47435000#32)))
            (Ideal.ofBits .f32 0x47435000#32 - 0))
          (gainOf V (ix1 j)) (offsetOf V (ix1 j)) (slopeOf V ix0) := by
  rw [norm_value]
  exact normOf_apply (aggOf V) (biasOf V) (gainOf V) (offsetOf V) (slopeOf V) r j

end Cert.ReferenceIdeal.RefNorm

end
-- ==== Proof.ActivationPayload.lean ====
import proofs.«120016_j19301583028533_1_alg».proof.Proof.Gen.KernelIdeal.Skeleton
import proofs.«120016_j19301583028533_1_alg».proof.Proof.ActivationSpec
import Idealize.ShloMosaic.Lib.Pipeline.Value
import Idealize.ShloMosaic.Lib.ValueLayout

/-! # What the pointwise kernel stores, entry by entry

At one grid point the kernel holds a block of 5000 rows of the aggregated features, five one-row arrays (the
first layer's bias, the column means, the column variances, the gains, the offsets) and a 1×1 array holding the
slope.  It lays each one-row array down the 5000 rows, combines everything entry by entry and stores the result.
A row laid down the rows reads, at (p, q), its entry q; so entry (p, q) of what is stored depends on the block at
(p, q), on the five rows at q and on the slope: it is the shared one-entry function, applied to the feature with
the bias already added. -/

set_option maxRecDepth 16384

noncomputable section

namespace Cert.KernelIdeal.Activation

open Idealize.ShloMosaic Idealize.SL.Sem Idealize.ShloMosaic.ValueIdx
open Cert.KernelIdeal Cert.KernelIdeal.Gen Cert.KernelIdeal.Facts₀

/-- The one entry of a 1×1 array, written with literal coordinates. -/
theorem extract_one (v : Vec Ideal S1x1 .f32) (h : ∀ a, (![0, 0] : Fin 2 → Nat) a < S1x1.size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- Entry (p, q) of the stored block: the shared one-entry function of the block's entry plus the bias at q, the
    mean, variance, gain and offset at q, and the slope. -/
theorem payload_apply (v0 : Vec Ideal S5000x128 .f32) (v2 v6 v11 v17 v21 : Vec Ideal S1x128 .f32) (v25 : Vec Ideal S1x1 .f32)
    (p : Fin 5000) (q : Fin 128) :
    k2_pay1 (F := Ideal) v0 v2 v6 v11 v17 v21 v25 (ix2 p q)
      = Cert.ActivationSpec.bnAct (v0 (ix2 p q) + v2 (ix2 (0 : Fin 1) q)) (v11 (ix2 (0 : Fin 1) q)) (v6 (ix2 (0 : Fin 1) q))
          (v17 (ix2 (0 : Fin 1) q)) (v21 (ix2 (0 : Fin 1) q)) (v25 (ix2 (0 : Fin 1) (0 : Fin 1))) := by
  unfold k2_pay1
  simp only [select_apply, cmpf_apply, mulf_apply, addf_apply, subf_apply, broadcast_apply, shapeCast_self]
  rw [broadcastTo_1b_ab_apply v2 _ p q, broadcastTo_1b_ab_apply v11 _ p q, broadcastTo_1b_ab_apply v17 _ p q,
    broadcastTo_1b_ab_apply v21 _ p q, broadcastTo_1b_ab_apply _ _ p q, extract_one]
  rfl

end Cert.KernelIdeal.Activation

end
-- ==== Proof.Activation.lean ====
import proofs.«120016_j19301583028533_1_alg».proof.Proof.Gen.KernelIdeal.Frame
import proofs.«120016_j19301583028533_1_alg».proof.Proof.ActivationPayload
import Idealize.ShloMosaic.Lib.Pipeline.Value

/-! # The pointwise region's output array, entry by entry

The third region runs over ten grid points.  At point t it is handed rows 5000·t … 5000·t + 4999 of the
aggregated features (a block of the [50000, 128] array), the whole of each one-row array (bias, mean, variance,
gain, offset) and the whole 1×1 slope, and it writes back rows 5000·t … 5000·t + 4999 of the output.  Since the
feature block and the output block sit at the same rows, and the one-row arrays are read whole at every point,
entry (r, j) of the output array depends only on the features at (r, j), the rows at j and the slope; row r is
written by point r / 5000, and the ten blocks tile the array. -/

set_option maxRecDepth 16384

noncomputable section

namespace Cert.KernelIdeal.Activation

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Facts₀

variable (V : (c : Dev nD) → (b : Ref sig .tc) → Buf (Elt Ideal) ((c : Thread nD τ).loc b))

-- the sum of two extended reals
local notation:65 a:65 " +ₑ " b:66 => @HAdd.hAdd EReal EReal EReal instHAdd a b

/-- A rectangle that starts at the origin has zero offsets. -/
theorem origin : (![0, 0] : Fin 2 → Nat) = fun _ => 0 := funext fun a => by fin_cases a <;> rfl

/-- What the body leaves in the output's block, as a function of the blocks it was handed: entry y is the shared
    one-entry function of the feature block at y, the five rows at y's column and the slope. -/
theorem stored_eq (x0 : Vec Ideal S5000x128 .f32) (x1 x2 x3 x4 x5 : Vec Ideal S1x128 .f32) (x6 : Vec Ideal S1x1 .f32) :
    out2_7 (F := Ideal) x0 x1 x2 x3 x4 x5 x6 = fun y : S5000x128.Idx =>
      Cert.ActivationSpec.bnAct (x0 y + x1 (ix2 (0 : Fin 1) (y 1 : Fin 128))) (x2 (ix2 (0 : Fin 1) (y 1 : Fin 128)))
        (x3 (ix2 (0 : Fin 1) (y 1 : Fin 128))) (x4 (ix2 (0 : Fin 1) (y 1 : Fin 128))) (x5 (ix2 (0 : Fin 1) (y 1 : Fin 128)))
        (x6 (ix2 (0 : Fin 1) (0 : Fin 1))) := by
  unfold out2_7
  rw [View.canon_unit_zero origin]
  simp only [View.ld_unit_zero (S := S5000x128) origin, View.ld_unit_zero (S := S1x128) origin,
    View.ld_unit_zero (S := S1x1) origin]
  funext y
  obtain ⟨p, q, rfl⟩ : ∃ (p : Fin 5000) (q : Fin 128), y = ix2 p q := ⟨y 0, y 1, eq_ix2 y⟩
  exact payload_apply x0 x1 x3 x2 x4 x5 x6 p q

/-- Where the windows sit at point t: the feature window and the output window at block row t, column block 0;
    every one-row window and the slope window at block (0, 0). -/
theorem index_facts : ∀ t : Fin cfg2.N,
    win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The output array as one function of the contents the region is entered with: entry i is the shared one-entry
    function of the feature at i plus the bias at i's column, the mean, variance, gain and offset at that column,
    and the slope. -/
def actArr (c : Dev nD) : S50000x128.Idx → EReal := fun i =>
  Cert.ActivationSpec.bnAct
    ((V c main_v43 : S50000x128.Idx → EReal) i +ₑ (V c main_v53 : S1x128.Idx → EReal) (ix2 (0 : Fin 1) (i 1 : Fin 128)))
    ((V c main_v52 : S1x128.Idx → EReal) (ix2 (0 : Fin 1) (i 1 : Fin 128)))
    ((V c main_v50 : S1x128.Idx → EReal) (ix2 (0 : Fin 1) (i 1 : Fin 128)))
    ((V c main_v54 : S1x128.Idx → EReal) (ix2 (0 : Fin 1) (i 1 : Fin 128)))
    ((V c main_v55 : S1x128.Idx → EReal) (ix2 (0 : Fin 1) (i 1 : Fin 128)))
    ((V c main_v56 : S1x1.Idx → EReal) (ix2 (0 : Fin 1) (0 : Fin 1)))

/-- The bias window is handed whole at every point: its block at point t, read at (0, q), is the array at (0, q). -/
theorem row_read1 (c : Dev nD) (t : Fin cfg2.N) (q : Fin 128) :
    (iblk2 V c 1 t : Vec Ideal S1x128 .f32) (ix2 (0 : Fin 1) q) = (V c main_v53 : S1x128.Idx → EReal) (ix2 (0 : Fin 1) q) := by
  have hi : win2_1.index t (0 : Fin 2) = 0 ∧ win2_1.index t (1 : Fin 2) = 0 := by
    obtain ⟨-, -, -, -, h10, h11, h20, h21, h30, h31, h40, h41, h50, h51, -⟩ := index_facts t
    exact ⟨h10, h11⟩
  show (V c main_v53 : S1x128.Idx → EReal) (((cfg2.win 1).blk t).view.emb (ix2 (0 : Fin 1) q)) = _
  refine congrArg (V c main_v53 : S1x128.Idx → EReal) (funext fun a => Fin.ext ?_)
  match a with
  | ⟨0, _⟩ => show win2_1.index t (0 : Fin 2) * 1 + 1 * 0 = 0; rw [hi.1]
  | ⟨1, _⟩ => show win2_1.index t (1 : Fin 2) * 128 + 1 * q.val = q.val; rw [hi.2]; omega

/-- The mean window is handed whole at every point: its block at point t, read at (0, q), is the array at (0, q). -/
theorem row_read2 (c : Dev nD) (t : Fin cfg2.N) (q : Fin 128) :
    (iblk2 V c 2 t : Vec Ideal S1x128 .f32) (ix2 (0 : Fin 1) q) = (V c main_v52 : S1x128.Idx → EReal) (ix2 (0 : Fin 1) q) := by
  have hi : win2_2.index t (0 : Fin 2) = 0 ∧ win2_2.index t (1 : Fin 2) = 0 := by
    obtain ⟨-, -, -, -, h10, h11, h20, h21, h30, h31, h40, h41, h50, h51, -⟩ := index_facts t
    exact ⟨h20, h21⟩
  show (V c main_v52 : S1x128.Idx → EReal) (((cfg2.win 2).blk t).view.emb (ix2 (0 : Fin 1) q)) = _
  refine congrArg (V c main_v52 : S1x128.Idx → EReal) (funext fun a => Fin.ext ?_)
  match a with
  | ⟨0, _⟩ => show win2_2.index t (0 : Fin 2) * 1 + 1 * 0 = 0; rw [hi.1]
  | ⟨1, _⟩ => show win2_2.index t (1 : Fin 2) * 128 + 1 * q.val = q.val; rw [hi.2]; omega

/-- The variance window is handed whole at every point: its block at point t, read at (0, q), is the array at (0, q). -/
theorem row_read3 (c : Dev nD) (t : Fin cfg2.N) (q : Fin 128) :
    (iblk2 V c 3 t : Vec Ideal S1x128 .f32) (ix2 (0 : Fin 1) q) = (V c main_v50 : S1x128.Idx → EReal) (ix2 (0 : Fin 1) q) := by
  have hi : win2_3.index t (0 : Fin 2) = 0 ∧ win2_3.index t (1 : Fin 2) = 0 := by
    obtain ⟨-, -, -, -, h10, h11, h20, h21, h30, h31, h40, h41, h50, h51, -⟩ := index_facts t
    exact ⟨h30, h31⟩
  show (V c main_v50 : S1x128.Idx → EReal) (((cfg2.win 3).blk t).view.emb (ix2 (0 : Fin 1) q)) = _
  refine congrArg (V c main_v50 : S1x128.Idx → EReal) (funext fun a => Fin.ext ?_)
  match a with
  | ⟨0, _⟩ => show win2_3.index t (0 : Fin 2) * 1 + 1 * 0 = 0; rw [hi.1]
  | ⟨1, _⟩ => show win2_3.index t (1 : Fin 2) * 128 + 1 * q.val = q.val; rw [hi.2]; omega

/-- The gain window is handed whole at every point: its block at point t, read at (0, q), is the array at (0, q). -/
theorem row_read4 (c : Dev nD) (t : Fin cfg2.N) (q : Fin 128) :
    (iblk2 V c 4 t : Vec Ideal S1x128 .f32) (ix2 (0 : Fin 1) q) = (V c main_v54 : S1x128.Idx → EReal) (ix2 (0 : Fin 1) q) := by
  have hi : win2_4.index t (0 : Fin 2) = 0 ∧ win2_4.index t (1 : Fin 2) = 0 := by
    obtain ⟨-, -, -, -, h10, h11, h20, h21, h30, h31, h40, h41, h50, h51, -⟩ := index_facts t
    exact ⟨h40, h41⟩
  show (V c main_v54 : S1x128.Idx → EReal) (((cfg2.win 4).blk t).view.emb (ix2 (0 : Fin 1) q)) = _
  refine congrArg (V c main_v54 : S1x128.Idx → EReal) (funext fun a => Fin.ext ?_)
  match a with
  | ⟨0, _⟩ => show win2_4.index t (0 : Fin 2) * 1 + 1 * 0 = 0; rw [hi.1]
  | ⟨1, _⟩ => show win2_4.index t (1 : Fin 2) * 128 + 1 * q.val = q.val; rw [hi.2]; omega

/-- The offset window is handed whole at every point: its block at point t, read at (0, q), is the array at (0, q). -/
theorem row_read5 (c : Dev nD) (t : Fin cfg2.N) (q : Fin 128) :
    (iblk2 V c 5 t : Vec Ideal S1x128 .f32) (ix2 (0 : Fin 1) q) = (V c main_v55 : S1x128.Idx → EReal) (ix2 (0 : Fin 1) q) := by
  have hi : win2_5.index t (0 : Fin 2) = 0 ∧ win2_5.index t (1 : Fin 2) = 0 := by
    obtain ⟨-, -, -, -, h10, h11, h20, h21, h30, h31, h40, h41, h50, h51, -⟩ := index_facts t
    exact ⟨h50, h51⟩
  show (V c main_v55 : S1x128.Idx → EReal) (((cfg2.win 5).blk t).view.emb (ix2 (0 : Fin 1) q)) = _
  refine congrArg (V c main_v55 : S1x128.Idx → EReal) (funext fun a => Fin.ext ?_)
  match a with
  | ⟨0, _⟩ => show win2_5.index t (0 : Fin 2) * 1 + 1 * 0 = 0; rw [hi.1]
  | ⟨1, _⟩ => show win2_5.index t (1 : Fin 2) * 128 + 1 * q.val = q.val; rw [hi.2]; omega

/-- The slope window is handed whole at every point. -/
theorem slope_read (c : Dev nD) (t : Fin cfg2.N) :
    (iblk2 V c 6 t : Vec Ideal S1x1 .f32) (ix2 (0 : Fin 1) (0 : Fin 1)) = (V c main_v56 : S1x1.Idx → EReal) (ix2 (0 : Fin 1) (0 : Fin 1)) := by
  have hi : win2_6.index t (0 : Fin 2) = 0 ∧ win2_6.index t (1 : Fin 2) = 0 := by
    obtain ⟨-, -, -, -, -, -, -, -, -, -, -, -, -, -, h60, h61⟩ := index_facts t
    exact ⟨h60, h61⟩
  show (V c main_v56 : S1x1.Idx → EReal) (((cfg2.win 6).blk t).view.emb (ix2 (0 : Fin 1) (0 : Fin 1))) = _
  refine congrArg (V c main_v56 : S1x1.Idx → EReal) (funext fun a => Fin.ext ?_)
  match a with
  | ⟨0, _⟩ => show win2_6.index t (0 : Fin 2) * 1 + 1 * 0 = 0; rw [hi.1]
  | ⟨1, _⟩ => show win2_6.index t (1 : Fin 2) * 1 + 1 * 0 = 0; rw [hi.2]

/-- What point t writes back is the array function read through point t's output block: the feature block and the
    output block are at the same rows, so entry y of the one sits in its array where entry y of the other does. -/
theorem flushed_eq (c : Dev nD) (t : Fin cfg2.N) :
    (dat2 V c).flushed 7 t = ((cfg2.win 7).blk t).view.read (Elt Ideal) (actArr V c) := by
  show (cfg2.win 7).cut (grid2.coords t) ((dat2 V c).after 7 t) = _
  rw [after2_7, stored_eq (iblk2 V c 0 t) (iblk2 V c 1 t) (iblk2 V c 2 t) (iblk2 V c 3 t) (iblk2 V c 4 t)
    (iblk2 V c 5 t) (iblk2 V c 6 t)]
  obtain ⟨h00, h01, h70, h71, -⟩ := index_facts t
  funext y
  show Cert.ActivationSpec.bnAct
      ((iblk2 V c 0 t : Vec Ideal S5000x128 .f32) y +ₑ (iblk2 V c 1 t : Vec Ideal S1x128 .f32) (ix2 (0 : Fin 1) (y 1 : Fin 128)))
      ((iblk2 V c 2 t : Vec Ideal S1x128 .f32) (ix2 (0 : Fin 1) (y 1 : Fin 128)))
      ((iblk2 V c 3 t : Vec Ideal S1x128 .f32) (ix2 (0 : Fin 1) (y 1 : Fin 128)))
      ((iblk2 V c 4 t : Vec Ideal S1x128 .f32) (ix2 (0 : Fin 1) (y 1 : Fin 128)))
      ((iblk2 V c 5 t : Vec Ideal S1x128 .f32) (ix2 (0 : Fin 1) (y 1 : Fin 128)))
      ((iblk2 V c 6 t : Vec Ideal S1x1 .f32) (ix2 (0 : Fin 1) (0 : Fin 1)))
    = actArr V c (((cfg2.win 7).blk t).view.emb y)
  have e0 : (iblk2 V c 0 t : Vec Ideal S5000x128 .f32) y
      = (V c main_v43 : S50000x128.Idx → EReal) (((cfg2.win 7).blk t).view.emb y) := by
    show (V c main_v43 : S50000x128.Idx → EReal) (((cfg2.win 0).blk t).view.emb y) = _
    refine congrArg (V c main_v43 : S50000x128.Idx → EReal) (funext fun a => Fin.ext ?_)
    match a with
    | ⟨0, _⟩ =>
      show win2_0.index t (0 : Fin 2) * 5000 + 1 * (y 0).val = win2_7.index t (0 : Fin 2) * 5000 + 1 * (y 0).val
      rw [h00, h70]
    | ⟨1, _⟩ =>
      show win2_0.index t (1 : Fin 2) * 128 + 1 * (y 1).val = win2_7.index t (1 : Fin 2) * 128 + 1 * (y 1).val
      rw [h01, h71]
  have ec : ((((cfg2.win 7).blk t).view.emb y) 1 : Fin 128) = (y 1 : Fin 128) :=
    Fin.ext (by show win2_7.index t (1 : Fin 2) * 128 + 1 * (y 1).val = (y 1).val; rw [h71]; omega)
  unfold actArr
  rw [e0, row_read1 V c t (y 1), row_read2 V c t (y 1), row_read3 V c t (y 1), row_read4 V c t (y 1),
    row_read5 V c t (y 1), slope_read V c t, ec]

/-- Every row of the output array lies in some point's block: row r in the block of point r / 5000. -/
theorem covered (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, h70, h71, -⟩ := index_facts t
  refine ⟨t, flush2_7 t, ?_⟩
  show i ∈ ((View.whole main_v57).slice (win2_7.rect t)).set
  rw [View.set_slice_whole, Rect.mem_set_unit]
  intro a
  match a with
  | ⟨0, _⟩ =>
    show win2_7.index t (0 : Fin 2) * 5000 ≤ (i 0).val ∧ (i 0).val < win2_7.index t (0 : Fin 2) * 5000 + 5000
    rw [h70, ht]; omega
  | ⟨1, _⟩ =>
    show win2_7.index t (1 : Fin 2) * 128 ≤ (i 1).val ∧ (i 1).val < win2_7.index t (1 : Fin 2) * 128 + 128
    rw [h71]; omega

/-- So, whatever the region is entered with, the output array ends holding the array function. -/
theorem output_eq (c : Dev nD) : (dat2 V c).arrAt 7 cfg2.N = actArr V c :=
  (dat2 V c).arrAt_eq_of_cover 7 (actArr V c) (fun t _ => flushed_eq V c t) covered

/-- Entry (r, j) of the output array after the region: the shared one-entry function of the feature at (r, j) plus
    the bias at j, the mean, variance, gain and offset at j, and the slope. -/
theorem activation_apply (c : Dev nD) (r : Fin 50000) (j : Fin 128) :
    (dat2 (F := Ideal) V c).arrAt 7 cfg2.N (ix2 r j)
      = Cert.ActivationSpec.bnAct (V c main_v43 (ix2 r j) +ₑ V c main_v53 (ix2 (0 : Fin 1) j)) (V c main_v52 (ix2 (0 : Fin 1) j))
          (V c main_v50 (ix2 (0 : Fin 1) j)) (V c main_v54 (ix2 (0 : Fin 1) j)) (V c main_v55 (ix2 (0 : Fin 1) j))
          (V c main_v56 (ix2 (0 : Fin 1) (0 : Fin 1))) :=
  (congrFun (output_eq V c) (ix2 r j)).trans rfl

end Cert.KernelIdeal.Activation

end
-- ==== Proof.KernelRows.lean ====
import proofs.«120016_j19301583028533_1_alg».proof.Proof.KernelRun
import Idealize.ShloMosaic.Lib.ValueIdx
import Idealize.ShloMosaic.Lib.ValueLayout
import Idealize.ShloMosaic.Lib.IdealHost

/-! # The batch-norm rows read at an index

Between the column-statistics region and the normalising region the host forms six small arrays: the bias, scale and
shift vectors and the slope scalar, each given a leading unit axis, and the shifted mean and the variance rows from the
column sums and the column sums of squares.  At the exact instance (extended reals) each entry of these arrays is
spelled here in terms of the statistics region's two output arrays and the launch contents of the arguments. -/

set_option maxRecDepth 16384

noncomputable section

namespace Cert.KernelIdeal.KernelRows

open Idealize.ShloMosaic Idealize.ShloMosaic.TcCoe Idealize.ShloMosaic.Tactic
open Idealize.ShloMosaic.ValueIdx
open Idealize.ShloMosaic.Pipeline (Dat Cfg Window BodyObligation cellOf)
open Cert.KernelIdeal.Gen Cert.KernelIdeal.KernelRun

variable (m : (ℓ : Loc nD τ sig) → Buf (Elt Ideal) ℓ) (ρ : Dev nD → PrngReg)

/-! ## Each array as a whole: the host operations composed -/

/-- A vector argument given a leading unit axis. -/
theorem W7_main_v53 (c : Dev nD) : (W7 m ρ c (Proc.devRef .tc main_v53) : Vec Ideal S1x128 .f32)
    = shapeCast S1x128 (W6 m ρ c (Proc.devRef .tc main_arg3) : Vec Ideal S128 .f32) shapeCasts_S128_S1x128 := by
  show StableHlo.after hostOps2 _ _ = _
  after_results
  all_goals rfl
theorem W7_main_v54 (c : Dev nD) : (W7 m ρ c (Proc.devRef .tc main_v54) : Vec Ideal S1x128 .f32)
    = shapeCast S1x128 (W6 m ρ c (Proc.devRef .tc main_arg6) : Vec Ideal S128 .f32) shapeCasts_S128_S1x128 := by
  show StableHlo.after hostOps2 _ _ = _
  after_results
  all_goals rfl
theorem W7_main_v55 (c : Dev nD) : (W7 m ρ c (Proc.devRef .tc main_v55) : Vec Ideal S1x128 .f32)
    = shapeCast S1x128 (W6 m ρ c (Proc.devRef .tc main_arg7) : Vec Ideal S128 .f32) shapeCasts_S128_S1x128 := by
  show StableHlo.after hostOps2 _ _ = _
  after_results
  all_goals rfl
/-- The scalar argument as a one-by-one matrix. -/
theorem W7_main_v56 (c : Dev nD) : (W7 m ρ c (Proc.devRef .tc main_v56) : Vec Ideal S1x1 .f32)
    = shapeCast S1x1 (W6 m ρ c (Proc.devRef .tc main_arg8) : Vec Ideal S_ .f32) shapeCasts_S_S1x1 := by
  show StableHlo.after hostOps2 _ _ = _
  after_results
  all_goals rfl
/-- The column sums divided by the row count, plus the bias row. -/
theorem W7_main_v52 (c : Dev nD) : (W7 m ρ c (Proc.devRef .tc main_v52) : Vec Ideal S1x128 .f32)
    = addf (F := Ideal)
        (Host.divf (F := Ideal) (W6 m ρ c (Proc.devRef .tc main_v44_0) : Vec Ideal S1x128 .f32)
          (broadcastInDim S1x128 ![] bcast_S_S1x128 (constant (F := Ideal) S_ .f32 0x47435000#32)))
        (shapeCast S1x128 (W6 m ρ c (Proc.devRef .tc main_arg3) : Vec Ideal S128 .f32) shapeCasts_S128_S1x128) := by
  show StableHlo.after hostOps2 _ _ = _
  after_results
  all_goals rfl
/-- The mean of the squares minus the square of the mean. -/
theorem W7_main_v50 (c : Dev nD) : (W7 m ρ c (Proc.devRef .tc main_v50) : Vec Ideal S1x128 .f32)
    = subf (F := Ideal)
        (Host.divf (F := Ideal) (W6 m ρ c (Proc.devRef .tc main_v44_1) : Vec Ideal S1x128 .f32)
          (broadcastInDim S1x128 ![] bcast_S_S1x128 (constant (F := Ideal) S_ .f32 0x47435000#32)))
        (mulf (F := Ideal)
          (Host.divf (F := Ideal) (W6 m ρ c (Proc.devRef .tc main_v44_0) : Vec Ideal S1x128 .f32)
            (broadcastInDim S1x128 ![] bcast_S_S1x128 (constant (F := Ideal) S_ .f32 0x47435000#32)))
          (Host.divf (F := Ideal) (W6 m ρ c (Proc.devRef .tc main_v44_0) : Vec Ideal S1x128 .f32)
            (broadcastInDim S1x128 ![] bcast_S_S1x128 (constant (F := Ideal) S_ .f32 0x47435000#32)))) := by
  show StableHlo.after hostOps2 _ _ = _
  after_results
  all_goals rfl

/-! ## Entry by entry -/

/-- The bias row's entry `j` is the bias argument's entry `j`. -/
theorem V7_bias (c : Dev nD) (j : Fin 128) :
    V7 m ρ c main_v53 (ix2 0 j) = m ((c.tc : Thread nD τ).loc main_arg3) (ix1 j) := by
  refine (congrFun (W7_main_v53 m ρ c) (ix2 0 j)).trans ?_
  rw [shapeCast_a_1a_apply]
  exact congrFun (W6_main_arg3 m ρ c) (ix1 j)
/-- The scale row's entry `j` is the scale argument's entry `j`. -/
theorem V7_gamma (c : Dev nD) (j : Fin 128) :
    V7 m ρ c main_v54 (ix2 0 j) = m ((c.tc : Thread nD τ).loc main_arg6) (ix1 j) := by
  refine (congrFun (W7_main_v54 m ρ c) (ix2 0 j)).trans ?_
  rw [shapeCast_a_1a_apply]
  exact congrFun (W6_main_arg6 m ρ c) (ix1 j)
/-- The shift row's entry `j` is the shift argument's entry `j`. -/
theorem V7_beta (c : Dev nD) (j : Fin 128) :
    V7 m ρ c main_v55 (ix2 0 j) = m ((c.tc : Thread nD τ).loc main_arg7) (ix1 j) := by
  refine (congrFun (W7_main_v55 m ρ c) (ix2 0 j)).trans ?_
  rw [shapeCast_a_1a_apply]
  exact congrFun (W6_main_arg7 m ρ c) (ix1 j)
/-- The one-by-one slope matrix holds the slope argument. -/
theorem V7_slope (c : Dev nD) :
    V7 m ρ c main_v56 (ix2 0 0) = m ((c.tc : Thread nD τ).loc main_arg8) ix0 := by
  refine (congrFun (W7_main_v56 m ρ c) (ix2 0 0)).trans ?_
  refine (shapeCast_apply _ _ _ ix0 ?_).trans (congrFun (W6_main_arg8 m ρ c) ix0)
  rw [Shape.rowMajor_val_two]
  rfl
/-- The shifted mean: the column sum over the row count, plus the bias. -/
theorem V7_mean (c : Dev nD) (j : Fin 128) :
    V7 m ρ c main_v52 (ix2 0 j)
      = Ideal.div ((dat1 (V5 m ρ) c).arrAt 1 cfg1.N (ix2 0 j)) (Ideal.ofBits .f32 0x47435000#32)
        + m ((c.tc : Thread nD τ).loc main_arg3) (ix1 j) := by
  refine (congrFun (W7_main_v52 m ρ c) (ix2 0 j)).trans ?_
  rw [addf_apply, shapeCast_a_1a_apply]
  refine congrArg₂ (· + ·) ?_ (congrFun (W6_main_arg3 m ρ c) (ix1 j))
  exact congrArg (fun x : Vec Ideal S1x128 .f32 => Ideal.div (x (ix2 0 j)) (Ideal.ofBits .f32 0x47435000#32)) (W6_main_v44_0 m ρ c)
/-- The variance: the mean of the squares minus the square of the mean. -/
theorem V7_var (c : Dev nD) (j : Fin 128) :
    V7 m ρ c main_v50 (ix2 0 j)
      = Ideal.div ((dat1 (V5 m ρ) c).arrAt 2 cfg1.N (ix2 0 j)) (Ideal.ofBits .f32 0x47435000#32)
        - Ideal.div ((dat1 (V5 m ρ) c).arrAt 1 cfg1.N (ix2 0 j)) (Ideal.ofBits .f32 0x47435000#32)
          * Ideal.div ((dat1 (V5 m ρ) c).arrAt 1 cfg1.N (ix2 0 j)) (Ideal.ofBits .f32 0x47435000#32) := by
  refine (congrFun (W7_main_v50 m ρ c) (ix2 0 j)).trans ?_
  rw [subf_apply, mulf_apply]
  have e1 := congrArg (fun x : Vec Ideal S1x128 .f32 => Ideal.div (x (ix2 0 j)) (Ideal.ofBits .f32 0x47435000#32)) (W6_main_v44_0 m ρ c)
  have e2 := congrArg (fun x : Vec Ideal S1x128 .f32 => Ideal.div (x (ix2 0 j)) (Ideal.ofBits .f32 0x47435000#32)) (W6_main_v44_1 m ρ c)
  exact congrArg₂ (· - ·) e2 (congrArg₂ (· * ·) e1 e1)

end Cert.KernelIdeal.KernelRows

end
-- ==== Proof.ColumnStats.lean ====
/-
  The statistics region as column sums.

  The region walks the 50000 rows of its input in ten blocks of 5000 rows.  It carries two rows of 128 lanes from
  one grid point to the next: at the first point both are set to zero, and at every point the column sums of the
  current block are added to the first row and the column sums of the squared entries of the current block to the
  second.  Both rows are written back once, after the last point.

  Read at the exact values (extended reals, exact operations) this says: after the region, lane `j` of the first
  output array is the sum over all 50000 rows of column `j` of the input, and lane `j` of the second is the sum
  of the squares of that column.  Addition of extended reals is associative and commutative, so the chain
  `((0 + s₀) + s₁) + … + s₉` of the ten block sums is the sum over all rows with no finiteness assumption.

  The steps: what each of the two cases of the body (first point, later points) leaves in each output, as the body's
  arithmetic applied to the block and to the carried rows; that arithmetic read at a lane; a row of a block as a row
  of the whole array; the running sums by induction on the grid point; the single write-back covers the output
  arrays; ten blocks of 5000 are 50000 rows.
-/
import proofs.«120016_j19301583028533_1_alg».proof.Proof.Gen.KernelIdeal.Frame
import proofs.«120016_j19301583028533_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ColumnStats

open Cert.KernelIdeal Cert.KernelIdeal.Gen
open Idealize.ShloMosaic.ValueIdx

variable {F : FTy → Type} [FloatOps F]

/-- The zero offset of a whole-buffer access. -/
theorem hz : (![0, 0] : Fin 2 → Nat) = fun _ => 0 := funext fun a => by fin_cases a <;> rfl

/-! ## What each case of the body leaves in each output -/

/-- Later points, first output: the carried row plus the block's column sums. -/
theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S1x128) hz, View.ld_unit_zero (S := S5000x128) hz]

/-- Later points, second output: the carried row plus the column sums of the block's squares. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S1x128) hz, View.ld_unit_zero (S := S5000x128) hz]

/-- First point, first output: the zero row, read back, plus the block's column sums. -/
theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz]
  simp only [View.readCov_unit_zero (S := S1x128) _ hz, View.readAt_eq_ld, h1.read_unread, View.ld_unit_zero (S := S5000x128) hz]

/-- First point, second output: the zero row, read back, plus the column sums of the block's squares. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz]
  simp only [View.readCov_unit_zero (S := S1x128) _ hz, View.readAt_eq_ld, h1.read_unread, View.ld_unit_zero (S := S5000x128) hz]

/-! ## The body's arithmetic at a lane, at the exact values -/

/-- The reduction over the row axis of a block of 5000 rows, read at lane `j`, is the sum of column `j`. -/
theorem lane_sum (x : FVec Ideal S5000x128 .f32) (hφ : FKind.Formats .f32) (hacc : (0x00000000#32 : BitVec 32) = 0x00000000#32)
    (j : Fin 128) :
    multiReduction (F := Ideal) .add [0] S128 x 0x00000000#32 reduces_S5000x128_S128 hφ hacc (ix1 j)
      = ∑ r : Fin 5000, x (ix2 r j) := by
  refine (Ideal.multiReduction_add_single x 0x00000000#32 reduces_S5000x128_S128 hφ hacc (ix1 j)).trans ?_
  refine Finset.sum_congr rfl fun r _ => congrArg x ?_
  funext a
  apply Fin.ext
  match a with
  | ⟨0, _⟩ => rfl
  | ⟨1, _⟩ => rfl

/-- The first update at lane `j`: the carried entry plus the block's column sum. -/
theorem pay4_apply (x : Vec Ideal S5000x128 .f32) (xo : Vec Ideal S1x128 .f32) (j : Fin 128) :
    k1_pay4 (F := Ideal) x xo (ix2 0 j) = xo (ix2 0 j) + ∑ r : Fin 5000, x (ix2 r j) := by
  unfold k1_pay4 k1_pay3
  refine (addf_apply _ _ (ix2 0 j)).trans ?_
  refine congrArg₂ (· + ·) ?_ ?_
  · exact congrFun (shapeCast_self xo _) _
  · refine (shapeCast_a_1a_apply _ _ 0 j).trans ?_
    refine (lane_sum _ _ _ j).trans ?_
    exact Finset.sum_congr rfl fun r _ => congrFun (shapeCast_self x _) _

/-- The second update at lane `j`: the carried entry plus the column sum of the block's squares. -/
theorem pay5_apply (x : Vec Ideal S5000x128 .f32) (xo : Vec Ideal S1x128 .f32) (j : Fin 128) :
    k1_pay5 (F := Ideal) x xo (ix2 0 j) = xo (ix2 0 j) + ∑ r : Fin 5000, x (ix2 r j) * x (ix2 r j) := by
  unfold k1_pay5 k1_pay3
  refine (addf_apply _ _ (ix2 0 j)).trans ?_
  refine congrArg₂ (· + ·) ?_ ?_
  · exact congrFun (shapeCast_self xo _) _
  · refine (shapeCast_a_1a_apply _ _ 0 j).trans ?_
    refine (lane_sum _ _ _ j).trans ?_
    refine Finset.sum_congr rfl fun r _ => ?_
    refine (mulf_apply _ _ (ix2 r j)).trans ?_
    exact congrArg₂ (· * ·) (congrFun (shapeCast_self x _) _) (congrFun (shapeCast_self x _) _)

/-- The row the first point stores first is zero in every lane. -/
theorem pay1_apply (j : Fin 128) : k1_pay1 (F := Ideal) (ix2 0 j) = 0 := by
  unfold k1_pay1
  exact Ideal.ofBits_zero_f32

/-- Likewise for the second output. -/
theorem pay2_apply (j : Fin 128) : k1_pay2 (F := Ideal) (ix2 0 j) = 0 := by
  unfold k1_pay2
  exact Ideal.ofBits_zero_f32

/-! ## The running sums -/

section
variable (V : (c : Dev nD) → (b : Ref sig .tc) → Buf (Elt Ideal) ((c : Thread nD τ).loc b))

/-- The input window's block index at grid point t is (t, 0). -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Column j of the input array as a function of a natural row number (zero past the last row). -/
def col (c : Dev nD) (j : Fin 128) (i : ℕ) : EReal :=
  if h : i < 50000 then (V c main_v43 : S50000x128.Idx → EReal) (ix2 ⟨i, h⟩ j) else 0

/-- Its squares. -/
def colSq (c : Dev nD) (j : Fin 128) (i : ℕ) : EReal := col V c j i * col V c j i

/-- Row r of block t of the input is row t * 5000 + r of the whole array. -/
theorem iblk_apply (c : Dev nD) (t : Fin cfg1.N) (r : Fin 5000) (j : Fin 128) :
    (iblk1 (F := Ideal) V c 0 t : Vec Ideal S5000x128 .f32) (ix2 r j) = col V c j (t.val * 5000 + r.val) := by
  have hN : t.val < 10 := lt_of_lt_of_eq t.isLt (show cfg1.N = 10 from N_1)
  have hr := r.isLt
  have hlt : t.val * 5000 + r.val < 50000 := by omega
  obtain ⟨e0, e1⟩ := idx_facts t
  unfold col
  rw [dif_pos hlt]
  unfold iblk1
  rw [View.read_apply]
  show V c main_v43 _ = V c main_v43 _
  congr 1
  funext a
  apply Fin.ext
  match a with
  | ⟨0, _⟩ => show win1_0.index t 0 * 5000 + 1 * r.val = t.val * 5000 + r.val; rw [e0]; omega
  | ⟨1, _⟩ => show win1_0.index t 1 * 128 + 1 * j.val = j.val; rw [e1]; omega

/-- After grid point n both accumulators hold, in lane j, the sums over the first n + 1 blocks: of the column's
    entries and of their squares. -/
theorem outsAt_apply (c : Dev nD) (j : Fin 128) : ∀ (n : ℕ) (hn : n < cfg1.N),
    (outsAt1 (F := Ideal) V c n hn).1 (ix2 0 j)
        = ∑ t ∈ Finset.range (n + 1), ∑ r : Fin 5000, col V c j (t * 5000 + r.val)
      ∧ (outsAt1 (F := Ideal) V c n hn).2 (ix2 0 j)
        = ∑ t ∈ Finset.range (n + 1), ∑ r : Fin 5000, colSq V c j (t * 5000 + r.val)
  | 0, hn => by
    rw [outsAt1_A V c ⟨0, hn⟩ rfl]
    dsimp only
    rw [out_A_1, out_A_2]
    constructor
    · refine (pay4_apply _ _ j).trans ?_
      rw [pay1_apply, zero_add, Finset.sum_range_one]
      exact Finset.sum_congr rfl fun r _ => iblk_apply V c ⟨0, hn⟩ r j
    · refine (pay5_apply _ _ j).trans ?_
      rw [pay2_apply, zero_add, Finset.sum_range_one]
      refine Finset.sum_congr rfl fun r _ => ?_
      unfold colSq
      rw [iblk_apply V c ⟨0, hn⟩ r j]
  | n + 1, hn => by
    have hN : cfg1.N = 10 := N_1
    have hB : ¬(⟨n + 1, hn⟩ : Fin cfg1.N).val % 10 = 0 := by dsimp only; omega
    obtain ⟨ih1, ih2⟩ := outsAt_apply c j n (Nat.lt_of_succ_lt hn)
    rw [outsAt1_B V c ⟨n + 1, hn⟩ hB]
    dsimp only
    rw [out_B_1, out_B_2]
    constructor
    · refine (pay4_apply _ _ j).trans ?_
      rw [Finset.sum_range_succ _ (n + 1)]
      refine congrArg₂ (· + ·) ih1 ?_
      exact Finset.sum_congr rfl fun r _ => iblk_apply V c ⟨n + 1, hn⟩ r j
    · refine (pay5_apply _ _ j).trans ?_
      rw [Finset.sum_range_succ _ (n + 1)]
      refine congrArg₂ (· + ·) ih2 ?_
      refine Finset.sum_congr rfl fun r _ => ?_
      unfold colSq
      rw [iblk_apply V c ⟨n + 1, hn⟩ r j]

/-! ## The output arrays after the region -/

/-- The array the statistics region reads, as a function on its index type. -/
abbrev input (c : Dev nD) : S50000x128.Idx → EReal := V c main_v43

/-- The last grid point. -/
theorem last_lt : 9 < cfg1.N := by rw [show cfg1.N = 10 from N_1]; decide

/-- What the first accumulator holds after the last grid point, as contents of its array. -/
abbrev result1 (c : Dev nD) : Buf (Elt Ideal) ((c : Thread nD τ).loc main_v44_0) := (outsAt1 (F := Ideal) V c 9 last_lt).1
/-- What the second accumulator holds after the last grid point, as contents of its array. -/
abbrev result2 (c : Dev nD) : Buf (Elt Ideal) ((c : Thread nD τ).loc main_v44_1) := (outsAt1 (F := Ideal) V c 9 last_lt).2

/-- The one write-back of the first accumulator, at the last point, writes the whole array. -/
theorem flushed1_eq (c : Dev nD) (t : Fin cfg1.N) (hf : (cfg1.win 1).flush t = true) :
    (dat1 (F := Ideal) V c).flushed 1 t = ((cfg1.win 1).blk t).view.read (Elt Ideal) (result1 V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 (F := Ideal) V c).after 1 t1_9) = _
  rw [after1_1]
  have hz' : (fun a => win1_1.index t1_9 a * main_v44_0.ty.shape.size a) = fun _ => 0 := funext fun a => by fin_cases a <;> decide
  exact (Memref.read_access_unit_zero (Elt Ideal) main_v44_0 hz' (fun a => by rw [congrFun hz' a]; simp) (result1 V c)).symm

/-- Likewise for the second accumulator. -/
theorem flushed2_eq (c : Dev nD) (t : Fin cfg1.N) (hf : (cfg1.win 2).flush t = true) :
    (dat1 (F := Ideal) V c).flushed 2 t = ((cfg1.win 2).blk t).view.read (Elt Ideal) (result2 V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  have hz' : (fun a => win1_2.index t1_9 a * main_v44_1.ty.shape.size a) = fun _ => 0 := funext fun a => by fin_cases a <;> decide
  exact (Memref.read_access_unit_zero (Elt Ideal) main_v44_1 hz' (fun a => by rw [congrFun hz' a]; simp) (result2 V c)).symm

/-- So the first accumulator's array ends holding what the last point leaves. -/
theorem final1 (c : Dev nD) : (dat1 (F := Ideal) V c).arrAt 1 cfg1.N = result1 V c :=
  (dat1 (F := Ideal) V c).arrAt_eq_of_cover 1 (result1 V c) (flushed1_eq V c) fun i =>
    ⟨t1_9, (flush1_1 t1_9).mpr rfl, by
      show i ∈ ((View.whole main_v44_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-- Likewise for the second accumulator. -/
theorem final2 (c : Dev nD) : (dat1 (F := Ideal) V c).arrAt 2 cfg1.N = result2 V c :=
  (dat1 (F := Ideal) V c).arrAt_eq_of_cover 2 (result2 V c) (flushed2_eq V c) fun i =>
    ⟨t1_9, (flush1_2 t1_9).mpr rfl, by
      show i ∈ ((View.whole main_v44_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- Ten blocks of 5000 rows are the 50000 rows. -/
theorem blocks_sum (g : ℕ → EReal) :
    ∑ t ∈ Finset.range (9 + 1), ∑ r : Fin 5000, g (t * 5000 + r.val) = ∑ i : Fin 50000, g i.val := by
  rw [sum_fin_blocks 10 5000 (by norm_num) (fun i : Fin 50000 => g i.val), Finset.sum_range]

/-- After the region, lane `j` of the first output array is the sum of column `j` of the input over all rows. -/
theorem column_sums (c : Dev nD) (j : Fin 128) :
    (dat1 (F := Ideal) V c).arrAt 1 cfg1.N (ix2 0 j)
      = ∑ r : Fin 50000, input V c (ix2 r j) := by
  rw [final1]
  refine ((outsAt_apply V c j 9 last_lt).1).trans ?_
  rw [blocks_sum]
  refine Finset.sum_congr rfl fun r _ => ?_
  unfold col
  rw [dif_pos r.isLt]

/-- After the region, lane `j` of the second output array is the sum of the squares of column `j` of the input. -/
theorem column_square_sums (c : Dev nD) (j : Fin 128) :
    (dat1 (F := Ideal) V c).arrAt 2 cfg1.N (ix2 0 j)
      = ∑ r : Fin 50000, input V c (ix2 r j) * input V c (ix2 r j) := by
  rw [final2]
  refine ((outsAt_apply V c j 9 last_lt).2).trans ?_
  rw [blocks_sum]
  refine Finset.sum_congr rfl fun r _ => ?_
  unfold colSq col
  rw [dif_pos r.isLt]
end

end Cert.KernelIdeal.ColumnStats

end
-- ==== Proof.ColumnLaw.lean ====
/-
  The one law of this certificate: batch statistics of a shifted column.

  For one feature column `A` (one real per node) and a real bias `b`, the kernel forms the mean of `A` and shifts
  it by `b`, and takes the variance as the mean of squares minus the square of the mean; the reference first
  shifts, `h = A + b`, and takes the mean of `h` and the mean of the squared deviations of `h` from it. Over the
  reals these are the same numbers (a shift moves the mean by the shift and leaves the variance alone, and the mean
  of squared deviations is the mean of squares minus the squared mean); with the count written as the float word
  for 50000. Hence the normalise-and-rectify function receives equal arguments on both sides.
-/
import proofs.«120016_j19301583028533_1_alg».proof.Proof.MomentLaws
import proofs.«120016_j19301583028533_1_alg».proof.Proof.ActivationSpec

noncomputable section

namespace Cert.ColumnLaw

open Idealize.ShloMosaic Cert.ActivationSpec

/-- The float word of the node count. -/
abbrev count : EReal := Ideal.ofBits .f32 0x47435000#32

/-- The kernel's arguments of the normalise-and-rectify function are the reference's, for a real column and a real
    bias: shifted mean against mean of the shifted column, mean of squares minus squared mean against mean squared
    deviation. -/
theorem bnAct_args (A : Fin 50000 → EReal) (b : EReal) (hA : ∀ r, ∃ x : ℝ, A r = (x : EReal))
    (hb : ∃ y : ℝ, b = (y : EReal)) (h g be a : EReal) :
    bnAct h (Ideal.div (∑ r, A r) count + b)
        (Ideal.div (∑ r, A r * A r) count - Ideal.div (∑ r, A r) count * Ideal.div (∑ r, A r) count) g be a
      = bnAct h (Ideal.div (0 + ∑ r, (A r + b)) count)
          (Ideal.div (0 + ∑ r, ((A r + b) - Ideal.div (0 + ∑ k, (A k + b)) count)
            * ((A r + b) - Ideal.div (0 + ∑ k, (A k + b)) count)) (count - 0)) g be a := by
  have hC : count = ((50000 : ℝ) : EReal) := Cert.MomentLaws.ofBits_50000
  rw [hC, Cert.MomentLaws.variance_forms A b 50000 hA hb (by simp) (by norm_num),
    Cert.MomentLaws.shifted_mean A b 50000 hA hb (by simp) (by norm_num)]

end Cert.ColumnLaw

end
-- ==== Proof.FiniteInputs.lean ====
/-
  Finiteness of the float inputs, read out of the precondition.

  The precondition is a conjunction of eight tests, one per float argument: "every entry x of the
  argument satisfies |x| < +infinity", where the entries are extended reals, |x| is max x (-x), the
  comparison is the strict order of the extended reals, "every entry" is a reduction by logical and
  over all axes, and the eight results are joined by logical and again.  A conjunction is 1 exactly
  when both sides are; a reduction by and into a single result is 1 only if every entry tested is 1;
  and max x (-x) < ⊤ rules out both x = ⊤ and x = ⊥ (for either one the maximum is ⊤), so x is a real
  number.  Hence: under the precondition every entry of every float argument is a real number.
-/
import proofs.«120016_j19301583028533_1_alg».proof.Defs
import proofs.«120016_j19301583028533_1_alg».proof.Proof.Gen.Pre_finite_inputs
import Idealize.ShloMosaic.Lib.ReduceAll
import Idealize.ShloMosaic.Lib.ValueIdx
import Idealize.ShloMosaic.Lib.IdealHost

namespace Cert.FiniteInputs

open Idealize.ShloMosaic Idealize.SL.Sem

/-- The f32 pattern with all exponent bits set and a zero significand denotes +infinity. -/
theorem ofBits_inf : Ideal.ofBits .f32 0x7F800000#32 = (⊤ : EReal) := by
  simp [Ideal.ofBits, Ideal.ieee]

/-- An extended real whose absolute value max x (-x) lies strictly below ⊤ is a real number:
    at x = ⊥ the maximum is -⊥ = ⊤, at x = ⊤ it is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: if the bit of "|x| < +infinity" is 1 then x is a real number. -/
theorem real_of_test_elt (x : Ideal .f32)
    (h : FloatOps.cmpf .olt (FloatOps.hostAbsf x) (Ideal.ofBits .f32 0x7F800000#32) = 1#1) :
    ∃ r : ℝ, x = (r : EReal) := by
  rw [ofBits_inf] at h
  apply real_of_abs_lt_top
  revert h
  show Ideal.cmp .olt (max x (-x)) ⊤ = 1#1 → _
  unfold Ideal.cmp
  by_cases hlt : max x (-x) < ⊤
  · intro _; exact hlt
  · simp [hlt]

/-- The rank-0 shape has exactly one index. -/
instance : Subsingleton Cert.Pre_finite_inputs.S_.Idx := ⟨fun a b => funext fun d => d.elim0⟩

/-- One argument's test, any shape: if the and over all entries of "|x i| < +infinity" (the bound a
    scalar broadcast to the shape) is 1, every entry is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (j : Cert.Pre_finite_inputs.S_.Idx)
    (h : Host.reduce IntOp.andi
          (cmpf .olt (Host.absf x) (broadcastInDim s ![] hb (constant Cert.Pre_finite_inputs.S_ .f32 0x7F800000#32)))
          (constantI Cert.Pre_finite_inputs.S_ 1 1#1) hr hu j = 1#1) :
    ∀ i, ∃ r : ℝ, x i = (r : EReal) := by
  intro i
  have e := Host.reduce_andi_all _ _ hr hu j h i
  apply real_of_test_elt
  rw [← e]
  show _ = FloatOps.cmpf .olt (FloatOps.hostAbsf (x i))
    (broadcastInDim s ![] hb (constant Cert.Pre_finite_inputs.S_ .f32 0x7F800000#32) i)
  rw [ValueIdx.broadcastInDim_scalar_apply]
  rfl

/-- The same for a scalar argument, whose bound is not broadcast. -/
theorem real_of_all_scalar {axes : List (Fin Cert.Pre_finite_inputs.S_.rank)}
    (hr : Cert.Pre_finite_inputs.S_.ReducesTo axes Cert.Pre_finite_inputs.S_) (hu : 0 < Cert.Pre_finite_inputs.S_.numel)
    (x : FVec Ideal Cert.Pre_finite_inputs.S_ .f32) (j : Cert.Pre_finite_inputs.S_.Idx)
    (h : Host.reduce IntOp.andi
          (cmpf .olt (Host.absf x) (constant Cert.Pre_finite_inputs.S_ .f32 0x7F800000#32))
          (constantI Cert.Pre_finite_inputs.S_ 1 1#1) hr hu j = 1#1) :
    ∀ i, ∃ r : ℝ, x i = (r : EReal) := by
  intro i
  have e := Host.reduce_andi_all _ _ hr hu j h i
  apply real_of_test_elt
  rw [← e]
  rfl

/-- A conjunction of two rank-0 bits that is 1 has both sides 1. -/
theorem andi_split (A B : IVec Cert.Pre_finite_inputs.S_ 1) (e : andi A B ValueIdx.ix0 = 1#1) :
    A ValueIdx.ix0 = 1#1 ∧ B ValueIdx.ix0 = 1#1 :=
  IntOp.andi_eq_one.1 e

/-- Under the precondition, every entry of every float argument (all but the one integer argument) is a
    real number, on every device. -/
theorem finite_of_pre_all [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg4) i = (x : EReal))
    ∧ (∀ i, ∃ x : ℝ, m ((c.tc : Thread Cert.KernelIdeal.nD Cert.KernelIdeal.τ).loc Cert.KernelIdeal.main_arg5) i = (x : EReal))
    ∧ (∀ i, ∃ x : ℝ, m ((c.tc : Thread Cert.KernelIdeal.nD Cert.KernelIdeal.τ).loc Cert.KernelIdeal.main_arg6) i = (x : EReal))
    ∧ (∀ i, ∃ x : ℝ, m ((c.tc : Thread Cert.KernelIdeal.nD Cert.KernelIdeal.τ).loc Cert.KernelIdeal.main_arg7) i = (x : EReal))
    ∧ (∀ i, ∃ x : ℝ, m ((c.tc : Thread Cert.KernelIdeal.nD Cert.KernelIdeal.τ).loc Cert.KernelIdeal.main_arg8) i = (x : EReal)) := by
  have h0 := congrFun (h c) ValueIdx.ix0
  dsimp only [Cert.Pre_finite_inputs.fn, Cert.Pre_finite_inputs.fn_part1, Cert.Pre_finite_inputs.fn_part2] at h0
  obtain ⟨h7, e8⟩ := andi_split _ _ h0
  obtain ⟨h6, e7⟩ := andi_split _ _ h7
  obtain ⟨h5, e6⟩ := andi_split _ _ h6
  obtain ⟨h4, e5⟩ := andi_split _ _ h5
  obtain ⟨h3, e4⟩ := andi_split _ _ h4
  obtain ⟨h2, e3⟩ := andi_split _ _ h3
  obtain ⟨e0, e2⟩ := andi_split _ _ h2
  exact ⟨real_of_all _ _ _ _ _ e0, real_of_all _ _ _ _ _ e2, real_of_all _ _ _ _ _ e3, real_of_all _ _ _ _ _ e4,
    real_of_all _ _ _ _ _ e5, real_of_all _ _ _ _ _ e6, real_of_all _ _ _ _ _ e7, real_of_all_scalar _ _ _ _ e8⟩

/-- What the rest of the proof uses: the node features, the first weight matrix and the first bias
    have only real entries. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg2) i = (x : EReal))
    ∧ (∀ i, ∃ x : ℝ, m ((c.tc : Thread Cert.KernelIdeal.nD Cert.KernelIdeal.τ).loc Cert.KernelIdeal.main_arg3) i = (x : EReal)) :=
  let a := finite_of_pre_all m h c
  ⟨a.1, a.2.1, a.2.2.1⟩

end Cert.FiniteInputs
-- ==== Proof.RealValued.lean ====
/-
  Real-valuedness of arrays of extended reals, and its closure under the operations a graph aggregation is made of.

  An array is real-valued when none of its entries is an infinity. Sums and products of two reals are reals, a finite
  sum of reals is a real, and therefore: re-indexing an array (a broadcast, a gather) keeps it real-valued; the entrywise
  sum and product of two real-valued arrays are real-valued; a matrix product of real-valued arrays is real-valued (each
  entry is a finite sum of products); an accumulating scatter of real-valued updates into a real-valued array is
  real-valued (each entry is the old entry plus a finite sum of updates). The inverse square root of a positive real is
  a real, so the normalising factor "one over the square root of the degree where the degree is positive, zero
  elsewhere" is real-valued when the degree is.
-/
import Idealize.ShloMosaic.PureOps.Ideal
import Idealize.ShloMosaic.PureOps.Ideal.Laws
import Idealize.ShloMosaic.PureOps.Contract
import Idealize.ShloMosaic.Lib.ValueIdx

noncomputable section

namespace Cert.RealValued

open Idealize.ShloMosaic Idealize.ShloMosaic.ValueIdx

/-- Every entry of the array is a real number. -/
def RealValued {ι : Type} (f : ι → EReal) : Prop := ∀ i, ∃ x : ℝ, f i = (x : EReal)

theorem real_add {a b : EReal} (ha : ∃ x : ℝ, a = (x : EReal)) (hb : ∃ y : ℝ, b = (y : EReal)) :
    ∃ z : ℝ, a + b = (z : EReal) := by
  obtain ⟨x, rfl⟩ := ha; obtain ⟨y, rfl⟩ := hb; exact ⟨x + y, (EReal.coe_add x y).symm⟩

theorem real_mul {a b : EReal} (ha : ∃ x : ℝ, a = (x : EReal)) (hb : ∃ y : ℝ, b = (y : EReal)) :
    ∃ z : ℝ, a * b = (z : EReal) := by
  obtain ⟨x, rfl⟩ := ha; obtain ⟨y, rfl⟩ := hb; exact ⟨x * y, (EReal.coe_mul x y).symm⟩

theorem real_sum {ι : Type} (s : Finset ι) (f : ι → EReal) (h : ∀ i ∈ s, ∃ x : ℝ, f i = (x : EReal)) :
    ∃ y : ℝ, ∑ i ∈ s, f i = (y : EReal) := by
  classical
  induction s using Finset.induction_on with
  | empty => exact ⟨0, by simp⟩
  | insert a s ha ih =>
    rw [Finset.sum_insert ha]
    exact real_add (h _ (Finset.mem_insert_self _ _)) (ih fun i hi => h i (Finset.mem_insert_of_mem hi))

/-- A re-indexed real-valued array is real-valued. -/
theorem comp {ι κ : Type} {f : ι → EReal} (hf : RealValued f) (g : κ → ι) : RealValued (fun k => f (g k)) :=
  fun k => hf (g k)

theorem of_const {ι : Type} {c : EReal} (hc : ∃ x : ℝ, c = (x : EReal)) : RealValued (fun _ : ι => c) := fun _ => hc

theorem broadcastInDim {s t : Shape} (dims : Fin s.rank → Fin t.rank) (h : s.BroadcastsInDim t dims)
    {x : s.Idx → EReal} (hx : RealValued x) : RealValued (Idealize.ShloMosaic.broadcastInDim t dims h x) :=
  fun _ => hx _

theorem gather {s si t : Shape} {w : Nat} (d : GatherDims s si t) {x : s.Idx → EReal} (idx : IVec si w)
    (hx : RealValued x) : RealValued (Host.gather d x idx) :=
  fun _ => hx _

theorem mulf {s : Shape} {a b : FVec Ideal s .f32} (ha : RealValued a) (hb : RealValued b) :
    RealValued (Idealize.ShloMosaic.mulf a b) :=
  fun i => real_mul (ha i) (hb i)

theorem addf {s : Shape} {a b : FVec Ideal s .f32} (ha : RealValued a) (hb : RealValued b) :
    RealValued (Idealize.ShloMosaic.addf a b) :=
  fun i => real_add (ha i) (hb i)

/-- An accumulating scatter of real-valued updates into a real-valued array: each entry is the old entry plus a finite
    sum of updates. -/
theorem scatterAdd {s si su : Shape} {w : Nat} (d : ScatterDims s si su) {x : FVec Ideal s .f32} (idx : IVec si w)
    {u : FVec Ideal su .f32} (hx : RealValued x) (hu : RealValued u) :
    RealValued (Host.scatterAdd (F := Ideal) d x idx u) := by
  intro i
  show ∃ y : ℝ, Ideal.hostScatterAdd d x idx u i = (y : EReal)
  unfold Ideal.hostScatterAdd
  exact real_add (hx i) (real_sum _ _ fun j _ => hu j)

/-- A matrix product of real-valued arrays: each entry is a finite sum of products. -/
theorem dotGeneral {sl sr so : Shape} (d : DotDims sl sr so) {l : FVec Ideal sl .f32} {r : FVec Ideal sr .f32}
    (hl : RealValued l) (hr : RealValued r) : RealValued (Host.dotGeneral (F := Ideal) d none l r) := by
  intro j
  show ∃ y : ℝ, FloatOps.dotGeneral d none .single l r j = (y : EReal)
  rw [Ideal.dotGeneral_apply]
  exact real_sum _ _ fun k _ => real_mul (hl _) (hr _)

/-- The inverse square root of a positive real is a real. -/
theorem rsqrt_of_pos {x : ℝ} (hx : 0 < x) : ∃ y : ℝ, Ideal.rsqrt (x : EReal) = (y : EReal) := by
  refine ⟨(Real.sqrt x)⁻¹, ?_⟩
  show (if x < 0 then (⊥ : EReal) else if x = 0 then ⊤ else (((Real.sqrt x)⁻¹ : ℝ) : EReal)) = _
  rw [if_neg (not_lt.mpr hx.le), if_neg hx.ne']

/-- "One over the square root where positive, a given real elsewhere" of a real-valued array is real-valued. -/
theorem select_rsqrt {s : Shape} {d z : FVec Ideal s .f32} {zero : FVec Ideal s .f32} (hd : RealValued d)
    (hzero : ∀ i, zero i = 0) (hz : RealValued z) :
    RealValued (select (cmpf .ogt d zero) (Host.rsqrt d) z) := by
  intro i
  rw [select_apply, cmpf_apply]
  obtain ⟨x, hx⟩ := hd i
  by_cases hpos : (0 : ℝ) < x
  · have hb : FloatOps.cmpf (F := Ideal) .ogt (d i) (zero i) = 1#1 := by
      show Ideal.cmp .ogt (d i) (zero i) = 1#1
      rw [hzero i, hx]
      show BitVec.ofBool (decide ((0 : EReal) < (x : EReal))) = 1#1
      rw [decide_eq_true (by exact_mod_cast hpos)]; rfl
    rw [hb, select_one]
    show ∃ y : ℝ, FloatOps.hostUnary .rsqrt (d i) = (y : EReal)
    rw [Ideal.hostUnary_rsqrt_def, hx]
    exact rsqrt_of_pos hpos
  · have hb : FloatOps.cmpf (F := Ideal) .ogt (d i) (zero i) = 0#1 := by
      show Ideal.cmp .ogt (d i) (zero i) = 0#1
      rw [hzero i, hx]
      show BitVec.ofBool (decide ((0 : EReal) < (x : EReal))) = 0#1
      rw [decide_eq_false (by exact_mod_cast hpos)]; rfl
    rw [hb, select_zero]
    exact hz i

end Cert.RealValued

end
-- ==== Proof.AggregateReal.lean ====
/- The graph aggregation keeps every entry a real number.

   The program normalises a graph's adjacency before it aggregates node features: from the edge list it counts each
   node's degree (an accumulating scatter of ones into zeros), takes "one over the square root of the degree where the
   degree is positive, zero elsewhere", gives every edge the product of that factor at its two endpoints, and finally
   adds, for every edge, the weighted feature row of the edge's source into the row of its target (an accumulating
   scatter into zeros).  None of these steps can produce an infinity out of real inputs: a degree is a finite sum of
   ones, the inverse square root is only taken of a positive real, a weight is a product of two reals, and an
   aggregated entry is a finite sum of products of reals.  Which entries the index lists select is irrelevant to this:
   a gather or a scatter of real values is real whatever the indices are.  So the statements below hold for any edge
   list, and they read each stretch of host operations only through the arrays it computes. -/
import proofs.«120016_j19301583028533_1_alg».proof.Proof.Gen.KernelIdeal.Frame
import Idealize.ShloMosaic.Lib.StableHlo.Run
import Idealize.ShloMosaic.Lib.IdealHost
import proofs.«120016_j19301583028533_1_alg».proof.Proof.RealValued

noncomputable section

namespace Cert.KernelIdeal.AggregateReal

open Idealize.ShloMosaic Idealize.ShloMosaic.TcCoe Idealize.SL.Sem Idealize.ShloMosaic.StableHlo
open Cert.KernelIdeal Cert.KernelIdeal.Gen
open Cert.RealValued (RealValued)

/-! ### Constants -/

/-- The all-zeros array is real-valued: the word of +0.0 denotes the real 0. -/
theorem zeros_real (s : Shape) : RealValued (constant (F := Ideal) s .f32 0x00000000#32) :=
  fun _ => ⟨0, Ideal.ofBits_zero_f32.trans EReal.coe_zero.symm⟩

/-- The all-ones array is real-valued: the word of 1.0 denotes the real 1. -/
theorem ones_real (s : Shape) : RealValued (constant (F := Ideal) s .f32 0x3F800000#32) :=
  fun _ => ⟨1, Ideal.ofBits_one_f32.trans EReal.coe_one.symm⟩

/-! ### The degree and the normalising factor -/

/-- The degree — ones accumulated into zeros at the edges' targets — is real-valued. -/
theorem degree_real (W : Valuation τ sig (Elt Ideal)) :
    RealValued (StableHlo.after (hostOps0 (F := Ideal)) W (Proc.devRef .tc main_v10)) := by
  after_results_simp
  exact Cert.RealValued.scatterAdd _ _ (Cert.RealValued.broadcastInDim _ _ (zeros_real _))
    (Cert.RealValued.broadcastInDim _ _ (ones_real _))

/-- The mask "the degree is positive" is the comparison of the degree with zeros. -/
theorem positive_eq (W : Valuation τ sig (Elt Ideal)) :
    (StableHlo.after (hostOps0 (F := Ideal)) W (Proc.devRef .tc main_v12) : IVec S50000 1)
      = cmpf (F := Ideal) .ogt (StableHlo.after (hostOps0 (F := Ideal)) W (Proc.devRef .tc main_v10) : FVec Ideal S50000 .f32)
          (broadcastInDim S50000 ![] bcast_S_S50000 (constant (F := Ideal) S_ .f32 0x00000000#32)) := by
  after_results_simp

/-- The inverse square roots are those of the degree. -/
theorem rsqrt_eq (W : Valuation τ sig (Elt Ideal)) :
    (StableHlo.after (hostOps0 (F := Ideal)) W (Proc.devRef .tc main_v13) : FVec Ideal S50000 .f32)
      = Host.rsqrt (F := Ideal) (s := S50000) (φ := .f32) (StableHlo.after (hostOps0 (F := Ideal)) W (Proc.devRef .tc main_v10) : FVec Ideal S50000 .f32) := by
  after_results_simp

/-- The value taken where the degree is not positive is zero. -/
theorem elsewhere_eq (W : Valuation τ sig (Elt Ideal)) :
    (StableHlo.after (hostOps0 (F := Ideal)) W (Proc.devRef .tc main_cst_2) : FVec Ideal S_ .f32) = constant (F := Ideal) S_ .f32 0x00000000#32 := by
  after_results_simp

/-- The normalising factor is the selection, by the mask, between the inverse square roots and the value elsewhere
    — each as the stretch before left it. -/
theorem dinv_eq (W : Valuation τ sig (Elt Ideal)) :
    StableHlo.after (hostOps0_1 (F := Ideal)) W (Proc.devRef .tc main_v14)
      = select (W (Proc.devRef .tc main_v12)) (W (Proc.devRef .tc main_v13))
          (broadcastInDim S50000 ![] bcast_S_S50000 (W (Proc.devRef .tc main_cst_2))) := by
  after_results_simp
  rfl

/-- The normalising factor — one over the square root of the degree where it is positive, zero elsewhere — is
    real-valued: the inverse square root is only ever taken of a positive real. -/
theorem dinv_real (W : Valuation τ sig (Elt Ideal)) :
    RealValued (StableHlo.after (hostOps0_1 (F := Ideal)) (StableHlo.after (hostOps0 (F := Ideal)) W) (Proc.devRef .tc main_v14)) := by
  rw [dinv_eq, positive_eq, rsqrt_eq, elsewhere_eq]
  exact Cert.RealValued.select_rsqrt (degree_real W) (fun _ => Ideal.ofBits_zero_f32)
    (Cert.RealValued.broadcastInDim _ _ (zeros_real _))

/-! ### The edge weights -/

/-- An edge's weight is the product of the factor at its two endpoints: real-valued when the factor is. -/
theorem weights_of_dinv (W : Valuation τ sig (Elt Ideal)) (h14 : RealValued (W (Proc.devRef .tc main_v14))) :
    RealValued (StableHlo.after (hostOps0_2 (F := Ideal)) W (Proc.devRef .tc main_v29)) := by
  after_results_simp
  exact Cert.RealValued.mulf (Cert.RealValued.gather _ _ h14) (Cert.RealValued.gather _ _ h14)

/-- The edge weights are real-valued, whatever the edge list is. -/
theorem weights_real (W : Valuation τ sig (Elt Ideal)) :
    RealValued (StableHlo.after (hostOps0_2 (F := Ideal)) (StableHlo.after (hostOps0_1 (F := Ideal))
      (StableHlo.after (hostOps0 (F := Ideal)) W)) (Proc.devRef .tc main_v29)) :=
  weights_of_dinv _ (dinv_real W)

/-! ### The aggregation -/

/-- The aggregated features — for every edge the weighted feature row of its source, accumulated into zeros at its
    target — are real-valued when the features and the weights are: each entry is a finite sum of products of reals. -/
theorem aggregate_real (W : Valuation τ sig (Elt Ideal))
    (h30 : RealValued (W (Proc.devRef .tc main_v30))) (h29 : RealValued (W (Proc.devRef .tc main_v29))) :
    RealValued (StableHlo.after (hostOps1 (F := Ideal)) W (Proc.devRef .tc main_v43)) := by
  after_results_simp
  exact Cert.RealValued.scatterAdd _ _ (Cert.RealValued.broadcastInDim _ _ (zeros_real _))
    (Cert.RealValued.mulf (Cert.RealValued.gather _ _ h30)
      (Cert.RealValued.broadcastInDim _ _ (Cert.RealValued.broadcastInDim _ _ h29)))

end Cert.KernelIdeal.AggregateReal

end
-- ==== Proof.FeaturesReal.lean ====
/-
  The aggregated features are real-valued along the run when the inputs are finite.

  The first region's output is the product of the node features with the first weight matrix, both of which have only
  real entries under the precondition, so every entry of the product — a finite sum of products of reals — is a real.
  The host then weights that product along the edges and sums it into the nodes: an aggregation that keeps real-valued
  arrays real-valued, applied with edge weights that are themselves real-valued. Hence the array the statistics region
  finds on entry has only real entries. The first bias is an input, so it is real-valued directly.
-/
import proofs.«120016_j19301583028533_1_alg».proof.Proof.ProductRegions
import proofs.«120016_j19301583028533_1_alg».proof.Proof.KernelRun
import proofs.«120016_j19301583028533_1_alg».proof.Proof.FiniteInputs
import proofs.«120016_j19301583028533_1_alg».proof.Proof.RealValued
import proofs.«120016_j19301583028533_1_alg».proof.Proof.AggregateReal

set_option maxRecDepth 16384

noncomputable section

namespace Cert.KernelIdeal.FeaturesReal

open Idealize.ShloMosaic Idealize.ShloMosaic.TcCoe Idealize.SL.Sem
open Cert.KernelIdeal Cert.RealValued

/-- The first product of the run is real-valued when the node features and the first weight matrix are. -/
theorem product_real [hP : Cert.Pre_finite_inputs.Facts] (m : (ℓ : Loc nD τ sig) → Buf (Elt Ideal) ℓ) (ρ : Dev nD → PrngReg)
    (hpre : Cert.Pre_KernelIdeal m) (c : Dev nD) :
    RealValued (Gen.W4 m ρ c (Proc.devRef .tc main_v30)) := by
  rw [KernelRun.W4_main_v30, ProductRegions.first_product, KernelRun.V3_main_arg0, KernelRun.V3_main_arg2]
  obtain ⟨h0, h2, -⟩ := Cert.FiniteInputs.finite_of_pre m hpre c
  exact RealValued.dotGeneral _ h0 h2

/-- The first bias is real-valued. -/
theorem bias_real [hP : Cert.Pre_finite_inputs.Facts] (m : (ℓ : Loc nD τ sig) → Buf (Elt Ideal) ℓ)
    (hpre : Cert.Pre_KernelIdeal m) (c : Dev nD) :
    RealValued (m ((c.tc : Thread nD τ).loc main_arg3)) :=
  (Cert.FiniteInputs.finite_of_pre m hpre c).2.2

/-- The aggregated features at the entry of the statistics region are real-valued, given that the host's aggregation
    keeps real-valued arrays real-valued and that the edge weights are real-valued. -/
theorem features_real_of [hP : Cert.Pre_finite_inputs.Facts] (m : (ℓ : Loc nD τ sig) → Buf (Elt Ideal) ℓ) (ρ : Dev nD → PrngReg)
    (hpre : Cert.Pre_KernelIdeal m) (c : Dev nD)
    (hagg : ∀ W : Valuation τ sig (Elt Ideal), RealValued (W (Proc.devRef .tc main_v30)) → RealValued (W (Proc.devRef .tc main_v29)) →
      RealValued (StableHlo.after Gen.hostOps1 W (Proc.devRef .tc main_v43)))
    (hw : ∀ W : Valuation τ sig (Elt Ideal),
      RealValued (StableHlo.after Gen.hostOps0_2 (StableHlo.after Gen.hostOps0_1 (StableHlo.after Gen.hostOps0 W)) (Proc.devRef .tc main_v29))) :
    RealValued (Gen.W5 m ρ c (Proc.devRef .tc main_v43)) := by
  show RealValued (StableHlo.after Gen.hostOps1 (Gen.W4 m ρ c) (Proc.devRef .tc main_v43))
  refine hagg (Gen.W4 m ρ c) (product_real m ρ hpre c) ?_
  rw [KernelRun.W4_main_v29]
  exact hw (Gen.W0 m ρ c)

/-- THE AGGREGATED FEATURES at the entry of the statistics region are real-valued under the precondition. -/
theorem features_real [hP : Cert.Pre_finite_inputs.Facts] (m : (ℓ : Loc nD τ sig) → Buf (Elt Ideal) ℓ) (ρ : Dev nD → PrngReg)
    (hpre : Cert.Pre_KernelIdeal m) (c : Dev nD) :
    RealValued (Gen.W5 m ρ c (Proc.devRef .tc main_v43)) :=
  features_real_of m ρ hpre c AggregateReal.aggregate_real AggregateReal.weights_real

end Cert.KernelIdeal.FeaturesReal

end
-- ==== Proof.ActivationAgree.lean ====
/-
  The two programs hold the same activations after the normalisation and the rectifier.

  Entry (r, j) of the kernel's pointwise region is the normalise-and-rectify function of the aggregated feature at
  (r, j) plus the bias at j, with the mean row (the column sum over the ten blocks divided by the node count, plus
  the bias), the variance row (mean of squares minus squared mean), gain, offset and slope. Entry (r, j) of the
  reference's array is the same function of the same feature plus bias, with the mean of the shifted column and its
  mean squared deviation. The aggregated features are the same array in both programs and are real-valued under the
  precondition, so the column law applies and the arguments agree.
-/
import proofs.«120016_j19301583028533_1_alg».proof.Proof.RefBoundaries
import proofs.«120016_j19301583028533_1_alg».proof.Proof.RefNorm
import proofs.«120016_j19301583028533_1_alg».proof.Proof.Activation
import proofs.«120016_j19301583028533_1_alg».proof.Proof.KernelRows
import proofs.«120016_j19301583028533_1_alg».proof.Proof.ColumnStats
import proofs.«120016_j19301583028533_1_alg».proof.Proof.ColumnLaw
import proofs.«120016_j19301583028533_1_alg».proof.Proof.FeaturesReal
import proofs.«120016_j19301583028533_1_alg».proof.Proof.FeaturesAgree

noncomputable section

namespace Cert.ActivationAgree

open Idealize.ShloMosaic Idealize.ShloMosaic.TcCoe Idealize.SL.Sem Idealize.ShloMosaic.StableHlo
open Idealize.ShloMosaic.ValueIdx
open Cert.ReferenceIdeal.Boundaries

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- After the normalisation and the rectifier the reference's array is the kernel's third region's output. -/
theorem activation_agree [hP : Cert.Pre_finite_inputs.Facts] (c : Dev Cert.KernelIdeal.nD) (hpre : Cert.Pre_KernelIdeal m)
    (hag0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hag1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hag2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hag3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hag6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hag7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hag8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    V4 m' c (Proc.devRef .tc Cert.ReferenceIdeal.main_v70) = Cert.KernelIdeal.Gen.V8 m ρ c Cert.KernelIdeal.main_v57 := by
  -- the shared data, with plain function types
  have hA : V3 m' c (Proc.devRef .tc Cert.ReferenceIdeal.main_v43)
      = Cert.KernelIdeal.Gen.W5 m ρ c (Proc.devRef .tc Cert.KernelIdeal.main_v43) :=
    Cert.FeaturesAgree.features_agree m ρ m' c hag0 hag1 hag2
  have hb : V3 m' c (Proc.devRef .tc Cert.ReferenceIdeal.main_arg3)
      = m ((c.tc : Thread Cert.KernelIdeal.nD Cert.KernelIdeal.τ).loc Cert.KernelIdeal.main_arg3) :=
    (V3_keep m' c Cert.ReferenceIdeal.main_arg3 (by decide) (by decide) (by decide)).trans hag3
  have hg : V3 m' c (Proc.devRef .tc Cert.ReferenceIdeal.main_arg6)
      = m ((c.tc : Thread Cert.KernelIdeal.nD Cert.KernelIdeal.τ).loc Cert.KernelIdeal.main_arg6) :=
    (V3_keep m' c Cert.ReferenceIdeal.main_arg6 (by decide) (by decide) (by decide)).trans hag6
  have hbe : V3 m' c (Proc.devRef .tc Cert.ReferenceIdeal.main_arg7)
      = m ((c.tc : Thread Cert.KernelIdeal.nD Cert.KernelIdeal.τ).loc Cert.KernelIdeal.main_arg7) :=
    (V3_keep m' c Cert.ReferenceIdeal.main_arg7 (by decide) (by decide) (by decide)).trans hag7
  have hsl : V3 m' c (Proc.devRef .tc Cert.ReferenceIdeal.main_arg8)
      = m ((c.tc : Thread Cert.KernelIdeal.nD Cert.KernelIdeal.τ).loc Cert.KernelIdeal.main_arg8) :=
    (V3_keep m' c Cert.ReferenceIdeal.main_arg8 (by decide) (by decide) (by decide)).trans hag8
  have hAreal := Cert.KernelIdeal.FeaturesReal.features_real m ρ hpre c
  have hbreal := Cert.KernelIdeal.FeaturesReal.bias_real m hpre c
  funext i
  obtain ⟨r, j, rfl⟩ : ∃ (r : Fin 50000) (j : Fin 128), i = ix2 r j := ⟨i 0, i 1, eq_ix2 i⟩
  refine (Cert.ReferenceIdeal.RefNorm.norm_apply (V3 m' c) r j).trans ?_
  dsimp only [Cert.ReferenceIdeal.RefNorm.aggOf, Cert.ReferenceIdeal.RefNorm.biasOf, Cert.ReferenceIdeal.RefNorm.gainOf, Cert.ReferenceIdeal.RefNorm.offsetOf, Cert.ReferenceIdeal.RefNorm.slopeOf]
  rw [hA, hb, hg, hbe, hsl]
  rw [Cert.KernelIdeal.KernelRun.V8_main_v57, Cert.KernelIdeal.Activation.activation_apply (Cert.KernelIdeal.Gen.V7 m ρ) c r j,
    Cert.KernelIdeal.KernelRows.V7_bias, Cert.KernelIdeal.KernelRows.V7_mean, Cert.KernelIdeal.KernelRows.V7_var,
    Cert.KernelIdeal.KernelRows.V7_gamma, Cert.KernelIdeal.KernelRows.V7_beta, Cert.KernelIdeal.KernelRows.V7_slope,
    Cert.KernelIdeal.ColumnStats.column_sums, Cert.KernelIdeal.ColumnStats.column_square_sums,
    Cert.KernelIdeal.KernelRun.V7_main_v43]
  exact (Cert.ColumnLaw.bnAct_args (fun r' => Cert.KernelIdeal.Gen.W5 m ρ c (Proc.devRef .tc Cert.KernelIdeal.main_v43) (ix2 r' j))
    (m ((c.tc : Thread Cert.KernelIdeal.nD Cert.KernelIdeal.τ).loc Cert.KernelIdeal.main_arg3) (ix1 j))
    (fun r' => hAreal _) (hbreal _) _ _ _ _).symm

end Cert.ActivationAgree

end
-- ==== Proof.ResultAgree.lean ====
/-
  The two programs end in the same buffer contents.

  Both programs finish with the same stretch of host operations: the second aggregation over the edge lists (gather,
  scale by the edge weights, scatter-add) followed by the bias.  That stretch reads the second product, the three
  edge arrays and the bias argument.  So the two results agree as soon as those five inputs agree at the boundary
  where the stretch starts:

  * the second product: on the reference side it is the host's product of the activation with the second weight
    matrix; on the other side the last region's output array is that same product of what the region finds on entry.
    The activations agree by hypothesis, and the weight matrix is, on both sides, still the launch argument;
  * the three edge arrays: nothing after the first stretch writes them on either side, so they are what the first
    stretches left, which agree by hypothesis;
  * the bias: still the launch argument on both sides.

  The agreement of the last stretches on agreeing inputs, and the reading of the reference's second product, are taken
  as hypotheses `tail` and `dot2` of the first theorem, in exactly the form in which they are used; the second
  theorem supplies them from the module on the shared stretches.
-/
import proofs.«120016_j19301583028533_1_alg».proof.Proof.RefBoundaries
import proofs.«120016_j19301583028533_1_alg».proof.Proof.KernelRun
import proofs.«120016_j19301583028533_1_alg».proof.Proof.ProductRegions
import proofs.«120016_j19301583028533_1_alg».proof.Proof.SharedChains

set_option maxRecDepth 16384

noncomputable section

namespace Cert.ResultAgree

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The reference's result buffer after its whole operation list and the other program's result buffer at its last
    boundary hold the same array, given that the activations entering the second product agree, that the edge arrays
    after the first stretches agree, and that the second weight matrix and the bias are the same launch arguments. -/
theorem result_agree_of_chains (c : Dev Cert.KernelIdeal.nD)
    (tail : ∀ (W : Valuation Cert.KernelIdeal.τ Cert.KernelIdeal.sig (Elt Ideal))
        (V : Valuation Cert.ReferenceIdeal.τ Cert.ReferenceIdeal.sig (Elt Ideal)),
        V (Proc.devRef .tc Cert.ReferenceIdeal.main_v71) = W (Proc.devRef .tc Cert.KernelIdeal.main_v58) →
        V (Proc.devRef .tc Cert.ReferenceIdeal.main_v3) = W (Proc.devRef .tc Cert.KernelIdeal.main_v3) →
        V (Proc.devRef .tc Cert.ReferenceIdeal.main_v6) = W (Proc.devRef .tc Cert.KernelIdeal.main_v6) →
        V (Proc.devRef .tc Cert.ReferenceIdeal.main_v29) = W (Proc.devRef .tc Cert.KernelIdeal.main_v29) →
        V (Proc.devRef .tc Cert.ReferenceIdeal.main_arg5) = W (Proc.devRef .tc Cert.KernelIdeal.main_arg5) →
        after (Cert.ReferenceIdeal.RefRun.opsAgg2 (F := Ideal)) V (Proc.devRef .tc Cert.ReferenceIdeal.main_v87)
          = after (Cert.KernelIdeal.Gen.hostOps4 (F := Ideal)) W (Proc.devRef .tc Cert.KernelIdeal.main_v74))
    (dot2 : ∀ V : Valuation Cert.ReferenceIdeal.τ Cert.ReferenceIdeal.sig (Elt Ideal),
        after (Cert.ReferenceIdeal.RefRun.opsDot2 (F := Ideal)) V (Proc.devRef .tc Cert.ReferenceIdeal.main_v71)
          = Host.dotGeneral (F := Ideal) (φ₁ := .f32) (φ₂ := .f32) Cert.ReferenceIdeal.dot_S50000x128_S128x64_S50000x64_1_0_0_1_n_n none
              (V (Proc.devRef .tc Cert.ReferenceIdeal.main_v70)) (V (Proc.devRef .tc Cert.ReferenceIdeal.main_arg4)))
    (hag4 : m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4))
    (hag5 : m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5))
    (hact : Cert.ReferenceIdeal.Boundaries.V4 m' c (Proc.devRef .tc Cert.ReferenceIdeal.main_v70)
        = Cert.KernelIdeal.Gen.V8 m ρ c Cert.KernelIdeal.main_v57)
    (he3 : Cert.ReferenceIdeal.Boundaries.V1 m' c (Proc.devRef .tc Cert.ReferenceIdeal.main_v3)
        = Cert.KernelIdeal.Gen.W3 m ρ c (Proc.devRef .tc Cert.KernelIdeal.main_v3))
    (he6 : Cert.ReferenceIdeal.Boundaries.V1 m' c (Proc.devRef .tc Cert.ReferenceIdeal.main_v6)
        = Cert.KernelIdeal.Gen.W3 m ρ c (Proc.devRef .tc Cert.KernelIdeal.main_v6))
    (he29 : Cert.ReferenceIdeal.Boundaries.V1 m' c (Proc.devRef .tc Cert.ReferenceIdeal.main_v29)
        = Cert.KernelIdeal.Gen.W3 m ρ c (Proc.devRef .tc Cert.KernelIdeal.main_v29)) :
    after (Cert.ReferenceIdeal.RefRun.ops (F := Ideal)) (launchContents m' c) (Proc.devRef .tc Cert.ReferenceIdeal.main_v87)
      = Cert.KernelIdeal.Gen.W10 m ρ c (Proc.devRef .tc Cert.KernelIdeal.main_v74) := by
  refine (congrFun (Cert.ReferenceIdeal.Boundaries.after_ops_eq m' c) (Proc.devRef .tc Cert.ReferenceIdeal.main_v87)).trans ?_
  show after (Cert.ReferenceIdeal.RefRun.opsAgg2 (F := Ideal)) (Cert.ReferenceIdeal.Boundaries.V5 m' c) (Proc.devRef .tc Cert.ReferenceIdeal.main_v87)
      = after (Cert.KernelIdeal.Gen.hostOps4 (F := Ideal)) (Cert.KernelIdeal.Gen.W9 m ρ c) (Proc.devRef .tc Cert.KernelIdeal.main_v74)
  refine tail (Cert.KernelIdeal.Gen.W9 m ρ c) (Cert.ReferenceIdeal.Boundaries.V5 m' c) ?_ ?_ ?_ ?_ ?_
  · refine (dot2 (Cert.ReferenceIdeal.Boundaries.V4 m' c)).trans ?_
    refine Eq.trans ?_ ((Cert.KernelIdeal.KernelRun.W9_main_v58 m ρ c).trans
      (Cert.KernelIdeal.ProductRegions.second_product (Cert.KernelIdeal.Gen.V8 m ρ) c)).symm
    have e1 : (Cert.ReferenceIdeal.Boundaries.V4 m' c (Proc.devRef .tc Cert.ReferenceIdeal.main_v70) : (⟨2, ![50000, 128]⟩ : Shape).Idx → EReal)
        = Cert.KernelIdeal.Gen.V8 m ρ c Cert.KernelIdeal.main_v57 := hact
    have e2 : (Cert.ReferenceIdeal.Boundaries.V4 m' c (Proc.devRef .tc Cert.ReferenceIdeal.main_arg4) : (⟨2, ![128, 64]⟩ : Shape).Idx → EReal)
        = Cert.KernelIdeal.Gen.V8 m ρ c Cert.KernelIdeal.main_arg4 :=
      (Cert.ReferenceIdeal.Boundaries.V4_keep m' c Cert.ReferenceIdeal.main_arg4 (by decide) (by decide) (by decide) (by decide)).trans
        (hag4.trans (Cert.KernelIdeal.KernelRun.V8_main_arg4 m ρ c).symm)
    exact congrArg₂ (fun a b => Host.dotGeneral (F := Ideal) (φ₁ := .f32) (φ₂ := .f32)
      Cert.ReferenceIdeal.dot_S50000x128_S128x64_S50000x64_1_0_0_1_n_n none a b) e1 e2
  · exact (Cert.ReferenceIdeal.Boundaries.V5_of_V1 m' c Cert.ReferenceIdeal.main_v3 (by decide) (by decide) (by decide) (by decide)).trans
      (he3.trans (Cert.KernelIdeal.KernelRun.W9_main_v3 m ρ c).symm)
  · exact (Cert.ReferenceIdeal.Boundaries.V5_of_V1 m' c Cert.ReferenceIdeal.main_v6 (by decide) (by decide) (by decide) (by decide)).trans
      (he6.trans (Cert.KernelIdeal.KernelRun.W9_main_v6 m ρ c).symm)
  · exact (Cert.ReferenceIdeal.Boundaries.V5_of_V1 m' c Cert.ReferenceIdeal.main_v29 (by decide) (by decide) (by decide) (by decide)).trans
      (he29.trans (Cert.KernelIdeal.KernelRun.W9_main_v29 m ρ c).symm)
  · exact (Cert.ReferenceIdeal.Boundaries.V5_keep m' c Cert.ReferenceIdeal.main_arg5 (by decide) (by decide) (by decide) (by decide) (by decide)).trans
      (hag5.trans (Cert.KernelIdeal.KernelRun.W9_main_arg5 m ρ c).symm)

/-- The same, with the two facts about the shared last stretch and the reference's second product supplied. -/
theorem result_agree_of (c : Dev Cert.KernelIdeal.nD)
    (hag4 : m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4))
    (hag5 : m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5))
    (hact : Cert.ReferenceIdeal.Boundaries.V4 m' c (Proc.devRef .tc Cert.ReferenceIdeal.main_v70)
        = Cert.KernelIdeal.Gen.V8 m ρ c Cert.KernelIdeal.main_v57)
    (he3 : Cert.ReferenceIdeal.Boundaries.V1 m' c (Proc.devRef .tc Cert.ReferenceIdeal.main_v3)
        = Cert.KernelIdeal.Gen.W3 m ρ c (Proc.devRef .tc Cert.KernelIdeal.main_v3))
    (he6 : Cert.ReferenceIdeal.Boundaries.V1 m' c (Proc.devRef .tc Cert.ReferenceIdeal.main_v6)
        = Cert.KernelIdeal.Gen.W3 m ρ c (Proc.devRef .tc Cert.KernelIdeal.main_v6))
    (he29 : Cert.ReferenceIdeal.Boundaries.V1 m' c (Proc.devRef .tc Cert.ReferenceIdeal.main_v29)
        = Cert.KernelIdeal.Gen.W3 m ρ c (Proc.devRef .tc Cert.KernelIdeal.main_v29)) :
    after (Cert.ReferenceIdeal.RefRun.ops (F := Ideal)) (launchContents m' c) (Proc.devRef .tc Cert.ReferenceIdeal.main_v87)
      = Cert.KernelIdeal.Gen.W10 m ρ c (Proc.devRef .tc Cert.KernelIdeal.main_v74) :=
  result_agree_of_chains m ρ m' c Cert.SharedChains.tail_agree Cert.SharedChains.ref_dot2 hag4 hag5 hact he3 he6 he29

end Cert.ResultAgree

end
-- ==== Proof.lean ====
/-
  A two-layer graph convolution with batch normalisation, as a tiled kernel program against its plain reference.

  Both programs compute, from node features `x`, an edge list and the layer parameters,
  `out = Â (act (bn (Â (x W₁) + b₁)) W₂) + b₂`, where `Â` is the symmetrically normalised adjacency with self
  loops (gather the start rows of the edges, scale by the edge weights, add into the end rows), `bn` the batch
  normalisation over the nodes and `act` a rectifier with a learnt slope. The kernel program computes the two
  matrix products row block by row block, the batch statistics as column sums and column sums of squares accumulated
  over the row blocks, and fuses bias, normalisation and rectifier into one pointwise pass; the neighbourhood
  aggregation is the same sequence of host operations in both programs.

  Read over the extended reals, with every float operation exact:
  * a matrix product computed block by block is the whole product, and the column sums accumulated over ten blocks
    of 5000 rows are the sums over all 50000 rows (sums of extended reals may be regrouped freely);
  * the aggregated features `A = Â (x W₁)` are the same array in both programs, and they are real-valued when the
    inputs are finite: every entry is a finite sum of products of reals, the edge weights being products of inverse
    square roots of positive integer degrees;
  * for a real column `a` and a real bias `b`, the kernel's mean `(∑ a)/n + b` and variance
    `(∑ a²)/n − ((∑ a)/n)²` are the reference's mean `(∑ (a + b))/n` and variance `(∑ (a + b − mean)²)/n`
    (this is where finiteness is used: the identities hold over the reals, not at infinities);
  * hence the normalised and rectified activations agree entry by entry, and the second product, the second
    aggregation and the bias are the same operations applied to equal arrays.

  The frame claims: the kernel programs' runs are the pipelined regions' runs between host stretches; the
  reference's run is its list of host operations executed in order. The idealisation rewrote nothing, so the
  preservation claim has no conjunct.
-/
import proofs.«120016_j19301583028533_1_alg».proof.Defs
import proofs.«120016_j19301583028533_1_alg».proof.Proof.Gen.Kernel
import proofs.«120016_j19301583028533_1_alg».proof.Proof.Gen.Kernel.Skeleton
import proofs.«120016_j19301583028533_1_alg».proof.Proof.Gen.Kernel.Launch
import proofs.«120016_j19301583028533_1_alg».proof.Proof.Gen.Kernel.Points
import proofs.«120016_j19301583028533_1_alg».proof.Proof.Gen.Kernel.Frame
import proofs.«120016_j19301583028533_1_alg».proof.Proof.Gen.KernelIdeal
import proofs.«120016_j19301583028533_1_alg».proof.Proof.Gen.KernelIdeal.Skeleton
import proofs.«120016_j19301583028533_1_alg».proof.Proof.Gen.KernelIdeal.Launch
import proofs.«120016_j19301583028533_1_alg».proof.Proof.Gen.KernelIdeal.Points
import proofs.«120016_j19301583028533_1_alg».proof.Proof.Gen.KernelIdeal.Frame
import proofs.«120016_j19301583028533_1_alg».proof.Proof.Gen.ReferenceIdeal
import proofs.«120016_j19301583028533_1_alg».proof.Proof.Gen.Pre_finite_inputs
import proofs.«120016_j19301583028533_1_alg».proof.Proof.KernelRun
import proofs.«120016_j19301583028533_1_alg».proof.Proof.RefRunMain
import proofs.«120016_j19301583028533_1_alg».proof.Proof.FeaturesAgree
import proofs.«120016_j19301583028533_1_alg».proof.Proof.ActivationAgree
import proofs.«120016_j19301583028533_1_alg».proof.Proof.ResultAgree
import Idealize.ShloMosaic.Adequacy
import Idealize.ShloMosaic.Init

noncomputable section

namespace Cert.Proof

open Idealize.ShloMosaic Idealize.ShloMosaic.TcCoe Idealize.SL.Sem Idealize.ShloMosaic.StableHlo

/-- Launched on the same argument arrays, with finite float inputs, the reference's result array is the kernel
    program's: equal activations after the normalisation, then the same product, aggregation and bias. -/
theorem result_agree (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    after (Cert.ReferenceIdeal.RefRun.ops (F := Ideal)) (launchContents m' c) (Proc.devRef .tc Cert.ReferenceIdeal.main_v87)
      = Cert.KernelIdeal.Gen.W10 m g c (Proc.devRef .tc Cert.KernelIdeal.main_v74) := by
  obtain ⟨h0, h1, h2, h3, h4, h5, h6, h7, h8⟩ := hag
  exact Cert.ResultAgree.result_agree_of m g m' c h4 h5
    (Cert.ActivationAgree.activation_agree m g m' c hpre h0 h1 h2 h3 h6 h7 h8)
    (Cert.FeaturesAgree.edge_v3 m g m' c h1) (Cert.FeaturesAgree.edge_v6 m g m' c h1)
    (Cert.FeaturesAgree.edge_v29 m g m' c h1)

/-- Both idealised programs run, with equal results as extended reals and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hag
  refine ⟨fun c => Cert.KernelIdeal.Gen.W10 m g c (Proc.devRef .tc Cert.KernelIdeal.main_v74),
    Cert.KernelIdeal.KernelRun.run_result m g, ?_⟩
  refine (θ_run Cert.ReferenceIdeal.defs _ _).mono (fun r h c => ⟨?_, ?_⟩) (Cert.ReferenceIdeal.RefRun.run_main m' g')
  · rw [h c Cert.ReferenceIdeal.main_v87]
    exact result_agree m g m' hpre c (hag c)
  · exact ⟨(h c _).trans (Cert.ReferenceIdeal.RefRun.arg_eq0 _), (h c _).trans (Cert.ReferenceIdeal.RefRun.arg_eq1 _),
      (h c _).trans (Cert.ReferenceIdeal.RefRun.arg_eq2 _), (h c _).trans (Cert.ReferenceIdeal.RefRun.arg_eq3 _),
      (h c _).trans (Cert.ReferenceIdeal.RefRun.arg_eq4 _), (h c _).trans (Cert.ReferenceIdeal.RefRun.arg_eq5 _),
      (h c _).trans (Cert.ReferenceIdeal.RefRun.arg_eq6 _), (h c _).trans (Cert.ReferenceIdeal.RefRun.arg_eq7 _),
      (h c _).trans (Cert.ReferenceIdeal.RefRun.arg_eq8 _)⟩

theorem claim : Cert.Claim := ⟨Cert.Kernel.Gen.facts, Cert.KernelIdeal.Gen.facts, Cert.ReferenceIdeal.Gen.facts,
  Cert.Pre_finite_inputs.Gen.facts,
  fun m ρ _ => Cert.Kernel.Gen.frame m ρ,
  fun m ρ _ => Cert.KernelIdeal.Gen.frame m ρ,
  fun m g _ => Cert.ReferenceIdeal.RefRun.frame m g,
  trivial,
  algebraic⟩

end Cert.Proof

end
